-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S24x144 : Shape := ⟨2, ![24, 144]⟩
abbrev S144 : Shape := ⟨1, ![144]⟩
abbrev S9x144 : Shape := ⟨2, ![9, 144]⟩
abbrev S144x24 : Shape := ⟨2, ![144, 24]⟩
abbrev S24 : Shape := ⟨1, ![24]⟩
abbrev S900000 : Shape := ⟨1, ![900000]⟩
abbrev S_ : Shape := ⟨0, ![]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S24x144 : S_.BroadcastsInDim S24x144 (![] : Fin 0 → Fin S24x144.rank)
  reducesTo_S24x144_S_d0_1 : S24x144.ReducesTo [0, 1] S_
  bcast_S_S144 : S_.BroadcastsInDim S144 (![] : Fin 0 → Fin S144.rank)
  reducesTo_S144_S_d0 : S144.ReducesTo [0] S_
  bcast_S_S9x144 : S_.BroadcastsInDim S9x144 (![] : Fin 0 → Fin S9x144.rank)
  reducesTo_S9x144_S_d0_1 : S9x144.ReducesTo [0, 1] S_
  bcast_S_S144x24 : S_.BroadcastsInDim S144x24 (![] : Fin 0 → Fin S144x24.rank)
  reducesTo_S144x24_S_d0_1 : S144x24.ReducesTo [0, 1] S_
  bcast_S_S24 : S_.BroadcastsInDim S24 (![] : Fin 0 → Fin S24.rank)
  reducesTo_S24_S_d0 : S24.ReducesTo [0] S_

variable [Facts]

def fn_part2 {F : FTy → Type} [FloatOps F] (main_arg7 : FVec F S144x24 .f32) (main_arg8 : FVec F S24 .f32) (main_arg9 : FVec F S24 .f32) (main_v33 : IVec S_ 1) : IVec S_ 1 :=
  let main_v34 : FVec F S144x24 .f32 := Host.absf main_arg7
  let main_cst_12 : FVec F S_ .f32 := constant S_ .f32 0x7F800000#32
  let main_v35 : FVec F S144x24 .f32 := broadcastInDim S144x24 ![] bcast_S_S144x24 main_cst_12
  let main_v36 : IVec S144x24 1 := cmpf .olt main_v34 main_v35
  let main_c_13 : IVec S_ 1 := constantI S_ 1 1#1
  let main_v37 : IVec S_ 1 := (fun x v => Host.reduce IntOp.andi x v reducesTo_S144x24_S_d0_1 h_S_) main_v36 main_c_13
  let main_v38 : IVec S_ 1 := andi main_v33 main_v37
  let main_v39 : FVec F S24 .f32 := Host.absf main_arg8
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S24 .f32 := Host.absf main_arg9
  let main_cst_16 : FVec F S_ .f32 := constant S_ .f32 0x7F800000#32
  let main_v45 : FVec F S24 .f32 := broadcastInDim S24 ![] bcast_S_S24 main_cst_16
  let main_v46 : IVec S24 1 := cmpf .olt main_v44 main_v45
  let main_c_17 : IVec S_ 1 := constantI S_ 1 1#1
  let main_v47 : IVec S_ 1 := (fun x v => Host.reduce IntOp.andi x v reducesTo_S24_S_d0 h_S_) main_v46 main_c_17
  let main_v48 : IVec S_ 1 := andi main_v43 main_v47
  main_v48

def fn_part1 {F : FTy → Type} [FloatOps F] (main_arg4 : FVec F S9x144 .f32) (main_arg5 : FVec F S144 .f32) (main_arg6 : FVec F S144 .f32) (main_arg7 : FVec F S144x24 .f32) (main_arg8 : FVec F S24 .f32) (main_arg9 : FVec F S24 .f32) (main_v13 : IVec S_ 1) (main_v16 : IVec S144 1) : IVec S_ 1 :=
  let main_c_5 : IVec S_ 1 := constantI S_ 1 1#1
  let main_v17 : IVec S_ 1 := (fun x v => Host.reduce IntOp.andi x v reducesTo_S144_S_d0 h_S_) main_v16 main_c_5
  let main_v18 : IVec S_ 1 := andi main_v13 main_v17
  let main_v19 : FVec F S9x144 .f32 := Host.absf main_arg4
  let main_cst_6 : FVec F S_ .f32 := constant S_ .f32 0x7F800000#32
  let main_v20 : FVec F S9x144 .f32 := broadcastInDim S9x144 ![] bcast_S_S9x144 main_cst_6
  let main_v21 : IVec S9x144 1 := cmpf .olt main_v19 main_v20
  let main_c_7 : IVec S_ 1 := constantI S_ 1 1#1
  let main_v22 : IVec S_ 1 := (fun x v => Host.reduce IntOp.andi x v reducesTo_S9x144_S_d0_1 h_S_) main_v21 main_c_7
  let main_v23 : IVec S_ 1 := andi main_v18 main_v22
  let main_v24 : FVec F S144 .f32 := Host.absf main_arg5
  let main_cst_8 : FVec F S_ .f32 := constant S_ .f32 0x7F800000#32
  let main_v25 : FVec F S144 .f32 := broadcastInDim S144 ![] bcast_S_S144 main_cst_8
  let main_v26 : IVec S144 1 := cmpf .olt main_v24 main_v25
  let main_c_9 : IVec S_ 1 := constantI S_ 1 1#1
  let main_v27 : IVec S_ 1 := (fun x v => Host.reduce IntOp.andi x v reducesTo_S144_S_d0 h_S_) main_v26 main_c_9
  let main_v28 : IVec S_ 1 := andi main_v23 main_v27
  let main_v29 : FVec F S144 .f32 := Host.absf main_arg6
  let main_cst_10 : FVec F S_ .f32 := constant S_ .f32 0x7F800000#32
  let main_v30 : FVec F S144 .f32 := broadcastInDim S144 ![] bcast_S_S144 main_cst_10
  let main_v31 : IVec S144 1 := cmpf .olt main_v29 main_v30
  let main_c_11 : IVec S_ 1 := constantI S_ 1 1#1
  let main_v32 : IVec S_ 1 := (fun x v => Host.reduce IntOp.andi x v reducesTo_S144_S_d0 h_S_) main_v31 main_c_11
  let main_v33 : IVec S_ 1 := andi main_v28 main_v32
  fn_part2 (F := F) main_arg7 main_arg8 main_arg9 main_v33

def fn {F : FTy → Type} [FloatOps F] (main_arg0 : FVec F S100000x24 .f32) (main_arg1 : FVec F S24x144 .f32) (main_arg2 : FVec F S144 .f32) (main_arg3 : FVec F S144 .f32) (main_arg4 : FVec F S9x144 .f32) (main_arg5 : FVec F S144 .f32) (main_arg6 : FVec F S144 .f32) (main_arg7 : FVec F S144x24 .f32) (main_arg8 : FVec F S24 .f32) (main_arg9 : FVec F S24 .f32) (main_arg10 : IVec S900000 32) (main_arg11 : IVec S900000 32) (main_arg12 : IVec S900000 32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S24x144 .f32 := Host.absf main_arg1
  let main_cst_0 : FVec F S_ .f32 := constant S_ .f32 0x7F800000#32
  let main_v5 : FVec F S24x144 .f32 := broadcastInDim S24x144 ![] bcast_S_S24x144 main_cst_0
  let main_v6 : IVec S24x144 1 := cmpf .olt main_v4 main_v5
  let main_c_1 : IVec S_ 1 := constantI S_ 1 1#1
  let main_v7 : IVec S_ 1 := (fun x v => Host.reduce IntOp.andi x v reducesTo_S24x144_S_d0_1 h_S_) main_v6 main_c_1
  let main_v8 : IVec S_ 1 := andi main_v3 main_v7
  let main_v9 : FVec F S144 .f32 := Host.absf main_arg2
  let main_cst_2 : FVec F S_ .f32 := constant S_ .f32 0x7F800000#32
  let main_v10 : FVec F S144 .f32 := broadcastInDim S144 ![] bcast_S_S144 main_cst_2
  let main_v11 : IVec S144 1 := cmpf .olt main_v9 main_v10
  let main_c_3 : IVec S_ 1 := constantI S_ 1 1#1
  let main_v12 : IVec S_ 1 := (fun x v => Host.reduce IntOp.andi x v reducesTo_S144_S_d0 h_S_) main_v11 main_c_3
  let main_v13 : IVec S_ 1 := andi main_v8 main_v12
  let main_v14 : FVec F S144 .f32 := Host.absf main_arg3
  let main_cst_4 : FVec F S_ .f32 := constant S_ .f32 0x7F800000#32
  let main_v15 : FVec F S144 .f32 := broadcastInDim S144 ![] bcast_S_S144 main_cst_4
  let main_v16 : IVec S144 1 := cmpf .olt main_v14 main_v15
  fn_part1 (F := F) main_arg4 main_arg5 main_arg6 main_arg7 main_arg8 main_arg9 main_v13 main_v16
-- ==== Kernel.lean ====
abbrev S100000x24 : Shape := ⟨2, ![100000, 24]⟩
abbrev S24x144 : Shape := ⟨2, ![24, 144]⟩
abbrev S144 : Shape := ⟨1, ![144]⟩
abbrev S9x144 : Shape := ⟨2, ![9, 144]⟩
abbrev S144x24 : Shape := ⟨2, ![144, 24]⟩
abbrev S24 : Shape := ⟨1, ![24]⟩
abbrev S900000 : Shape := ⟨1, ![900000]⟩
abbrev S2x144 : Shape := ⟨2, ![2, 144]⟩
abbrev S5000x24 : Shape := ⟨2, ![5000, 24]⟩
abbrev S5000x144 : Shape := ⟨2, ![5000, 144]⟩
abbrev S1x144 : Shape := ⟨2, ![1, 144]⟩
abbrev S_ : Shape := ⟨0, ![]⟩
abbrev S100000x144 : Shape := ⟨2, ![100000, 144]⟩
abbrev S100001x144 : Shape := ⟨2, ![100001, 144]⟩
abbrev S900000x1 : Shape := ⟨2, ![900000, 1]⟩
abbrev S900000x144 : Shape := ⟨2, ![900000, 144]⟩
abbrev S2x24 : Shape := ⟨2, ![2, 24]⟩
abbrev S1x24 : Shape := ⟨2, ![1, 24]⟩

abbrev nBuf : Space → Nat
  | .hbm => 118
  | .vmem => 27
  | .smem => 0
  | _ => 0

abbrev bufTy : (tb : Table) → Fin (tcTables nBuf tb) → BufTy
  | .hbm, ⟨0, _⟩ => ⟨S100000x24, .f32⟩
  | .hbm, ⟨1, _⟩ => ⟨S24x144, .f32⟩
  | .hbm, ⟨2, _⟩ => ⟨S144, .f32⟩
  | .hbm, ⟨3, _⟩ => ⟨S144, .f32⟩
  | .hbm, ⟨4, _⟩ => ⟨S9x144, .f32⟩
  | .hbm, ⟨5, _⟩ => ⟨S144, .f32⟩
  | .hbm, ⟨6, _⟩ => ⟨S144, .f32⟩
  | .hbm, ⟨7, _⟩ => ⟨S144x24, .f32⟩
  | .hbm, ⟨8, _⟩ => ⟨S24, .f32⟩
  | .hbm, ⟨9, _⟩ => ⟨S24, .f32⟩
  | .hbm, ⟨10, _⟩ => ⟨S900000, .i32⟩
  | .hbm, ⟨11, _⟩ => ⟨S900000, .i32⟩
  | .hbm, ⟨12, _⟩ => ⟨S900000, .i32⟩
  | .hbm, ⟨13, _⟩ => ⟨S2x144, .f32⟩
  | .hbm, ⟨14, _⟩ => ⟨S1x144, .f32⟩
  | .hbm, ⟨15, _⟩ => ⟨S144, .f32⟩
  | .hbm, ⟨16, _⟩ => ⟨S_, .f32⟩
  | .hbm, ⟨17, _⟩ => ⟨S144, .f32⟩
  | .hbm, ⟨18, _⟩ => ⟨S144, .f32⟩
  | .hbm, ⟨19, _⟩ => ⟨S1x144, .f32⟩
  | .hbm, ⟨20, _⟩ => ⟨S144, .f32⟩
  | .hbm, ⟨21, _⟩ => ⟨S_, .f32⟩
  | .hbm, ⟨22, _⟩ => ⟨S144, .f32⟩
  | .hbm, ⟨23, _⟩ => ⟨S144, .f32⟩
  | .hbm, ⟨24, _⟩ => ⟨S144, .f32⟩
  | .hbm, ⟨25, _⟩ => ⟨S144, .f32⟩
  | .hbm, ⟨26, _⟩ => ⟨S_, .f32⟩
  | .hbm, ⟨27, _⟩ => ⟨S144, .f32⟩
  | .hbm, ⟨28, _⟩ => ⟨S144, .f32⟩
  | .hbm, ⟨29, _⟩ => ⟨S144, .f32⟩
  | .hbm, ⟨30, _⟩ => ⟨S144, .f32⟩
  | .hbm, ⟨31, _⟩ => ⟨S144, .f32⟩
  | .hbm, ⟨32, _⟩ => ⟨S144, .f32⟩
  | .hbm, ⟨33, _⟩ => ⟨S1x144, .f32⟩
  | .hbm, ⟨34, _⟩ => ⟨S1x144, .f32⟩
  | .hbm, ⟨35, _⟩ => ⟨S2x144, .f32⟩
  | .hbm, ⟨36, _⟩ => ⟨S100000x144, .f32⟩
  | .hbm, ⟨37, _⟩ => ⟨S_, .f32⟩
  | .hbm, ⟨38, _⟩ => ⟨S1x144, .f32⟩
  | .hbm, ⟨39, _⟩ => ⟨S100001x144, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x144, .f32⟩
  | .hbm, ⟨49, _⟩ => ⟨S_, .i32⟩
  | .hbm, ⟨50, _⟩ => ⟨S900000, .i32⟩
  | .hbm, ⟨51, _⟩ => ⟨S900000, .i1⟩
  | .hbm, ⟨52, _⟩ => ⟨S_, .i32⟩
  | .hbm, ⟨53, _⟩ => ⟨S900000, .i32⟩
  | .hbm, ⟨54, _⟩ => ⟨S900000, .i32⟩
  | .hbm, ⟨55, _⟩ => ⟨S900000, .i32⟩
  | .hbm, ⟨56, _⟩ => ⟨S900000x1, .i32⟩
  | .hbm, ⟨57, _⟩ => ⟨S900000x144, .f32⟩
  | .hbm, ⟨58, _⟩ => ⟨S900000x144, .f32⟩
  | .hbm, ⟨59, _⟩ => ⟨S_, .f32⟩
  | .hbm, ⟨60, _⟩ => ⟨S100001x144, .f32⟩
  | .hbm, ⟨61, _⟩ => ⟨S_, .i32⟩
  | .hbm, ⟨62, _⟩ => ⟨S900000, .i32⟩
  | .hbm, ⟨63, _⟩ => ⟨S900000, .i1⟩
  | .hbm, ⟨64, _⟩ => ⟨S_, .i32⟩
  | .hbm, ⟨65, _⟩ => ⟨S900000, .i32⟩
  | .hbm, ⟨66, _⟩ => ⟨S900000, .i32⟩
  | .hbm, ⟨67, _⟩ => ⟨S900000, .i32⟩
  | .hbm, ⟨68, _⟩ => ⟨S900000x1, .i32⟩
  | .hbm, ⟨69, _⟩ => ⟨S100001x144, .f32⟩
  | .hbm, ⟨70, _⟩ => ⟨S100000x144, .f32⟩
  | .hbm, ⟨71, _⟩ => ⟨S2x144, .f32⟩
  | .hbm, ⟨72, _⟩ => ⟨S1x144, .f32⟩
  | .hbm, ⟨73, _⟩ => ⟨S144, .f32⟩
  | .hbm, ⟨74, _⟩ => ⟨S_, .f32⟩
  | .hbm, ⟨75, _⟩ => ⟨S144, .f32⟩
  | .hbm, ⟨76, _⟩ => ⟨S144, .f32⟩
  | .hbm, ⟨77, _⟩ => ⟨S1x144, .f32⟩
  | .hbm, ⟨78, _⟩ => ⟨S144, .f32⟩
  | .hbm, ⟨79, _⟩ => ⟨S_, .f32⟩
  | .hbm, ⟨80, _⟩ => ⟨S144, .f32⟩
  | .hbm, ⟨81, _⟩ => ⟨S144, .f32⟩
  | .hbm, ⟨82, _⟩ => ⟨S144, .f32⟩
  | .hbm, ⟨83, _⟩ => ⟨S144, .f32⟩
  | .hbm, ⟨84, _⟩ => ⟨S_, .f32⟩
  | .hbm, ⟨85, _⟩ => ⟨S144, .f32⟩
  | .hbm, ⟨86, _⟩ => ⟨S144, .f32⟩
  | .hbm, ⟨87, _⟩ => ⟨S144, .f32⟩
  | .hbm, ⟨88, _⟩ => ⟨S144, .f32⟩
  | .hbm, ⟨89, _⟩ => ⟨S144, .f32⟩
  | .hbm, ⟨90, _⟩ => ⟨S144, .f32⟩
  | .hbm, ⟨91, _⟩ => ⟨S1x144, .f32⟩
  | .hbm, ⟨92, _⟩ => ⟨S1x144, .f32⟩
  | .hbm, ⟨93, _⟩ => ⟨S2x144, .f32⟩
  | .hbm, ⟨94, _⟩ => ⟨S2x24, .f32⟩
  | .hbm, ⟨95, _⟩ => ⟨S1x24, .f32⟩
  | .hbm, ⟨96, _⟩ => ⟨S24, .f32⟩
  | .hbm, ⟨97, _⟩ => ⟨S_, .f32⟩
  | .hbm, ⟨98, _⟩ => ⟨S24, .f32⟩
  | .hbm, ⟨99, _⟩ => ⟨S24, .f32⟩
  | .hbm, ⟨100, _⟩ => ⟨S1x24, .f32⟩
  | .hbm, ⟨101, _⟩ => ⟨S24, .f32⟩
  | .hbm, ⟨102, _⟩ => ⟨S_, .f32⟩
  | .hbm, ⟨103, _⟩ => ⟨S24, .f32⟩
  | .hbm, ⟨104, _⟩ => ⟨S24, .f32⟩
  | .hbm, ⟨105, _⟩ => ⟨S24, .f32⟩
  | .hbm, ⟨106, _⟩ => ⟨S24, .f32⟩
  | .hbm, ⟨107, _⟩ => ⟨S_, .f32⟩
  | .hbm, ⟨108, _⟩ => ⟨S24, .f32⟩
  | .hbm, ⟨109, _⟩ => ⟨S24, .f32⟩
  | .hbm, ⟨110, _⟩ => ⟨S24, .f32⟩
  | .hbm, ⟨111, _⟩ => ⟨S24, .f32⟩
  | .hbm, ⟨112, _⟩ => ⟨S24, .f32⟩
  | .hbm, ⟨113, _⟩ => ⟨S24, .f32⟩
  | .hbm, ⟨114, _⟩ => ⟨S1x24, .f32⟩
  | .hbm, ⟨115, _⟩ => ⟨S1x24, .f32⟩
  | .hbm, ⟨116, _⟩ => ⟨S2x24, .f32⟩
  | .hbm, ⟨117, _⟩ => ⟨S100000x24, .f32⟩
  | .local _ .vmem, ⟨0, _⟩ => ⟨S5000x24, .f32⟩
  | .local _ .vmem, ⟨1, _⟩ => ⟨S5000x24, .f32⟩
  | .local _ .vmem, ⟨2, _⟩ => ⟨S24x144, .f32⟩
  | .local _ .vmem, ⟨3, _⟩ => ⟨S2x144, .f32⟩
  | .local _ .vmem, ⟨4, _⟩ => ⟨S5000x24, .f32⟩
  | .local _ .vmem, ⟨5, _⟩ => ⟨S5000x24, .f32⟩
  | .local _ .vmem, ⟨6, _⟩ => ⟨S24x144, .f32⟩
  | .local _ .vmem, ⟨7, _⟩ => ⟨S2x144, .f32⟩
  | .local _ .vmem, ⟨8, _⟩ => ⟨S5000x144, .f32⟩
  | .local _ .vmem, ⟨9, _⟩ => ⟨S5000x144, .f32⟩
  | .local _ .vmem, ⟨10, _⟩ => ⟨S5000x144, .f32⟩
  | .local _ .vmem, ⟨11, _⟩ => ⟨S5000x144, .f32⟩
  | .local _ .vmem, ⟨12, _⟩ => ⟨S2x144, .f32⟩
  | .local _ .vmem, ⟨13, _⟩ => ⟨S5000x144, .f32⟩
  | .local _ .vmem, ⟨14, _⟩ => ⟨S5000x144, .f32⟩
  | .local _ .vmem, ⟨15, _⟩ => ⟨S2x144, .f32⟩
  | .local _ .vmem, ⟨16, _⟩ => ⟨S144x24, .f32⟩
  | .local _ .vmem, ⟨17, _⟩ => ⟨S2x24, .f32⟩
  | .local _ .vmem, ⟨18, _⟩ => ⟨S5000x144, .f32⟩
  | .local _ .vmem, ⟨19, _⟩ => ⟨S5000x144, .f32⟩
  | .local _ .vmem, ⟨20, _⟩ => ⟨S2x144, .f32⟩
  | .local _ .vmem, ⟨21, _⟩ => ⟨S144x24, .f32⟩
  | .local _ .vmem, ⟨22, _⟩ => ⟨S2x24, .f32⟩
  | .local _ .vmem, ⟨23, _⟩ => ⟨S5000x24, .f32⟩
  | .local _ .vmem, ⟨24, _⟩ => ⟨S5000x24, .f32⟩
  | .local _ .vmem, ⟨25, _⟩ => ⟨S5000x24, .f32⟩
  | .local _ .vmem, ⟨26, _⟩ => ⟨S5000x24, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_c_7 : Ref sig .tc := ⟨.hbm, 61, rfl⟩
abbrev main_v39 : Ref sig .tc := ⟨.hbm, 62, rfl⟩
abbrev main_v40 : Ref sig .tc := ⟨.hbm, 63, rfl⟩
abbrev main_c_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg3_0 : Ref sig .tc := ⟨.vmem, 22, rfl⟩
abbrev cc4_stg4_0 : Ref sig .tc := ⟨.vmem, 23, rfl⟩
abbrev cc4_stg4_1 : Ref sig .tc := ⟨.vmem, 24, rfl⟩
abbrev cc4_stg5_0 : Ref sig .tc := ⟨.vmem, 25, rfl⟩
abbrev cc4_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem3_0 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem3_0 : DmaSem sig := 22
abbrev cc4_sem4_0 : DmaSem sig := 23
abbrev cc4_sem4_1 : DmaSem sig := 24
abbrev cc4_sem5_0 : DmaSem sig := 25
abbrev cc4_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x24 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S24x144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x144 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x144 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x144 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x144 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x144 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S144x24 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x24 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x144 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x144 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S144x24 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x24 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x24 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x24 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  inb_S2x144_S2x144_0_0 : ∀ a, (![0, 0] : Fin 2 → Nat) a + S2x144.size a ≤ S2x144.size a
  h_S2x144 : 0 < S2x144.numel
  inb_S5000x24_S5000x24_0_0 : ∀ a, (![0, 0] : Fin 2 → Nat) a + S5000x24.size a ≤ S5000x24.size a
  h_S5000x24 : 0 < S5000x24.numel
  bitsLt_bf16_f32 : FTy.bits .bf16 < FTy.bits .f32
  inb_S24x144_S24x144_0_0 : ∀ a, (![0, 0] : Fin 2 → Nat) a + S24x144.size a ≤ S24x144.size a
  h_S24x144 : 0 < S24x144.numel
  reduces_S5000x144_S144 : S5000x144.Reduces [0] S144
  shapeCasts_S144_S1x144 : S144.ShapeCasts S1x144
  shapeCasts_S2x144_S2x144 : S2x144.ShapeCasts S2x144
  concatenates_S1x144_S1x144_S2x144_d0 : Shape.Concatenates [S1x144, S1x144] S2x144 0
  slices_S2x144_S1x144_0_0 : S2x144.Slices ![0, 0] S1x144
  shapeCasts_S1x144_S144 : S1x144.ShapeCasts S144
  bcast_S_S144 : S_.BroadcastsInDim S144 (![] : Fin 0 → Fin S144.rank)
  slices_S2x144_S1x144_1_0 : S2x144.Slices ![1, 0] S1x144
  bcast_S144_S1x144_1 : S144.BroadcastsInDim S1x144 (![1] : Fin 1 → Fin S1x144.rank)
  inb_S2x144_S1x144_0_0 : ∀ a, (![0, 0] : Fin 2 → Nat) a + S1x144.size a ≤ S2x144.size a
  h_S1x144 : 0 < S1x144.numel
  shapeCasts_S1x144_S1x144 : S1x144.ShapeCasts S1x144
  inb_S2x144_S1x144_1_0 : ∀ a, (![1, 0] : Fin 2 → Nat) a + S1x144.size a ≤ S2x144.size a
  broadcasts_S1x144_S5000x144 : S1x144.Broadcasts S5000x144
  inb_S5000x144_S5000x144_0_0 : ∀ a, (![0, 0] : Fin 2 → Nat) a + S5000x144.size a ≤ S5000x144.size a
  h_S5000x144 : 0 < S5000x144.numel
  bcast_S_S1x144 : S_.BroadcastsInDim S1x144 (![] : Fin 0 → Fin S1x144.rank)
  concatenates_S100000x144_S1x144_S100001x144_d0 : Shape.Concatenates [S100000x144, S1x144] S100001x144 0
  bcast_S_S900000 : S_.BroadcastsInDim S900000 (![] : Fin 0 → Fin S900000.rank)
  bcast_S900000_S900000x1_0 : S900000.BroadcastsInDim S900000x1 (![0] : Fin 1 → Fin S900000x1.rank)
  bcast_S_S100001x144 : S_.BroadcastsInDim S100001x144 (![] : Fin 0 → Fin S100001x144.rank)
  slices_S100001x144_S100000x144_0_0 : S100001x144.Slices ![0, 0] S100000x144
  shapeCasts_S5000x144_S5000x144 : S5000x144.ShapeCasts S5000x144
  inb_S2x24_S2x24_0_0 : ∀ a, (![0, 0] : Fin 2 → Nat) a + S2x24.size a ≤ S2x24.size a
  h_S2x24 : 0 < S2x24.numel
  inb_S144x24_S144x24_0_0 : ∀ a, (![0, 0] : Fin 2 → Nat) a + S144x24.size a ≤ S144x24.size a
  h_S144x24 : 0 < S144x24.numel
  reduces_S5000x24_S24 : S5000x24.Reduces [0] S24
  shapeCasts_S24_S1x24 : S24.ShapeCasts S1x24
  shapeCasts_S2x24_S2x24 : S2x24.ShapeCasts S2x24
  concatenates_S1x24_S1x24_S2x24_d0 : Shape.Concatenates [S1x24, S1x24] S2x24 0
  slices_S2x24_S1x24_0_0 : S2x24.Slices ![0, 0] S1x24
  shapeCasts_S1x24_S24 : S1x24.ShapeCasts S24
  bcast_S_S24 : S_.BroadcastsInDim S24 (![] : Fin 0 → Fin S24.rank)
  slices_S2x24_S1x24_1_0 : S2x24.Slices ![1, 0] S1x24
  bcast_S24_S1x24_1 : S24.BroadcastsInDim S1x24 (![1] : Fin 1 → Fin S1x24.rank)
  inb_S2x24_S1x24_0_0 : ∀ a, (![0, 0] : Fin 2 → Nat) a + S1x24.size a ≤ S2x24.size a
  h_S1x24 : 0 < S1x24.numel
  shapeCasts_S1x24_S1x24 : S1x24.ShapeCasts S1x24
  inb_S2x24_S1x24_1_0 : ∀ a, (![1, 0] : Fin 2 → Nat) a + S1x24.size a ≤ S2x24.size a
  broadcasts_S1x24_S5000x24 : S1x24.Broadcasts S5000x24
  dot_S5000x24_S24x144_S5000x144_1_0_0_1_n_n_wf : DotDims.WF S5000x24 S24x144 S5000x144 [1] [0] [0] [1] [] []
  gather_S100001x144_S900000x1_S900000x144_1_0_n_n_0_1_1144_wf : GatherDims.WF S100001x144 S900000x1 S900000x144 [1] [0] [] [0] [] 1 ![1, 144]
  gather_S9x144_S900000x1_S900000x144_1_0_n_n_0_1_1144_wf : GatherDims.WF S9x144 S900000x1 S900000x144 [1] [0] [] [0] [] 1 ![1, 144]
  scatter_S100001x144_S900000x1_S900000x144_1_0_0_1_wf : ScatterDims.WF S100001x144 S900000x1 S900000x144 [1] [0] [0] 1
  dot_S5000x144_S144x24_S5000x24_1_0_0_1_n_n_wf : DotDims.WF S5000x144 S144x24 S5000x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x24.size a ≤ S100000x24.size a
  hwx0_0 : ∀ i : grid0.Coords, EltTy.bits .f32 = 32 ∨ (Rect.block (s := S100000x24) S5000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x144.size a ≤ S24x144.size a
  hwx0_1 : ∀ i : grid0.Coords, EltTy.bits .f32 = 32 ∨ (Rect.block (s := S24x144) S24x144.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x144.size a ≤ S2x144.size a
  hwx0_2 : ∀ i : grid0.Coords, EltTy.bits .f32 = 32 ∨ (Rect.block (s := S2x144) S2x144.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x24.size a ≤ S100000x24.size a
  hwx1_0 : ∀ i : grid1.Coords, EltTy.bits .f32 = 32 ∨ (Rect.block (s := S100000x24) S5000x24.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S24x144.size a ≤ S24x144.size a
  hwx1_1 : ∀ i : grid1.Coords, EltTy.bits .f32 = 32 ∨ (Rect.block (s := S24x144) S24x144.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x144.size a ≤ S2x144.size a
  hwx1_2 : ∀ i : grid1.Coords, EltTy.bits .f32 = 32 ∨ (Rect.block (s := S2x144) S2x144.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x144.size a ≤ S100000x144.size a
  hwx1_3 : ∀ i : grid1.Coords, EltTy.bits .f32 = 32 ∨ (Rect.block (s := S100000x144) S5000x144.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x144.size a ≤ S100000x144.size a
  hwx2_0 : ∀ i : grid2.Coords, EltTy.bits .f32 = 32 ∨ (Rect.block (s := S100000x144) S5000x144.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2x144.size a ≤ S2x144.size a
  hwx2_1 : ∀ i : grid2.Coords, EltTy.bits .f32 = 32 ∨ (Rect.block (s := S2x144) S2x144.size (cc2_transform_1 i) (hinb2_1 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x144.size a ≤ S100000x144.size a
  hwx3_0 : ∀ i : grid3.Coords, EltTy.bits .f32 = 32 ∨ (Rect.block (s := S100000x144) S5000x144.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2x144.size a ≤ S2x144.size a
  hwx3_1 : ∀ i : grid3.Coords, EltTy.bits .f32 = 32 ∨ (Rect.block (s := S2x144) S2x144.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S144x24.size a ≤ S144x24.size a
  hwx3_2 : ∀ i : grid3.Coords, EltTy.bits .f32 = 32 ∨ (Rect.block (s := S144x24) S144x24.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2x24.size a ≤ S2x24.size a
  hwx3_3 : ∀ i : grid3.Coords, EltTy.bits .f32 = 32 ∨ (Rect.block (s := S2x24) S2x24.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x144.size a ≤ S100000x144.size a
  hwx4_0 : ∀ i : grid4.Coords, EltTy.bits .f32 = 32 ∨ (Rect.block (s := S100000x144) S5000x144.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2x144.size a ≤ S2x144.size a
  hwx4_1 : ∀ i : grid4.Coords, EltTy.bits .f32 = 32 ∨ (Rect.block (s := S2x144) S2x144.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S144x24.size a ≤ S144x24.size a
  hwx4_2 : ∀ i : grid4.Coords, EltTy.bits .f32 = 32 ∨ (Rect.block (s := S144x24) S144x24.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S2x24.size a ≤ S2x24.size a
  hwx4_3 : ∀ i : grid4.Coords, EltTy.bits .f32 = 32 ∨ (Rect.block (s := S2x24) S2x24.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x24.size a ≤ S100000x24.size a
  hwx4_4 : ∀ i : grid4.Coords, EltTy.bits .f32 = 32 ∨ (Rect.block (s := S100000x24) S5000x24.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x24.size a ≤ S100000x24.size a
  hwx4_5 : ∀ i : grid4.Coords, EltTy.bits .f32 = 32 ∨ (Rect.block (s := S100000x24) S5000x24.size (cc4_transform_5 i) (hinb4_5 i)).WholeWords (EltTy.packing .f32)

variable [Facts₀]

def dot_S5000x24_S24x144_S5000x144_1_0_0_1_n_n : DotDims S5000x24 S24x144 S5000x144 where
  lhsContracting := [1]
  rhsContracting := [0]
  lhsNonContracting := [0]
  rhsNonContracting := [1]
  lhsBatch := []
  rhsBatch := []
  wf := dot_S5000x24_S24x144_S5000x144_1_0_0_1_n_n_wf
def gather_S100001x144_S900000x1_S900000x144_1_0_n_n_0_1_1144 : GatherDims S100001x144 S900000x1 S900000x144 where
  offsetDims := [1]
  collapsedSliceDims := [0]
  operandBatchingDims := []
  startIndicesBatchingDims := []
  startIndexMap := [0]
  indexVectorDim := 1
  sliceSizes := ![1, 144]
  wf := gather_S100001x144_S900000x1_S900000x144_1_0_n_n_0_1_1144_wf
def gather_S9x144_S900000x1_S900000x144_1_0_n_n_0_1_1144 : GatherDims S9x144 S900000x1 S900000x144 where
  offsetDims := [1]
  collapsedSliceDims := [0]
  operandBatchingDims := []
  startIndicesBatchingDims := []
  startIndexMap := [0]
  indexVectorDim := 1
  sliceSizes := ![1, 144]
  wf := gather_S9x144_S900000x1_S900000x144_1_0_n_n_0_1_1144_wf
def scatter_S100001x144_S900000x1_S900000x144_1_0_0_1 : ScatterDims S100001x144 S900000x1 S900000x144 where
  updateWindowDims := [1]
  insertedWindowDims := [0]
  scatterDimsToOperandDims := [0]
  indexVectorDim := 1
  wf := scatter_S100001x144_S900000x1_S900000x144_1_0_0_1_wf
def dot_S5000x144_S144x24_S5000x24_1_0_0_1_n_n : DotDims S5000x144 S144x24 S5000x24 where
  lhsContracting := [1]
  rhsContracting := [0]
  lhsNonContracting := [0]
  rhsNonContracting := [1]
  lhsBatch := []
  rhsBatch := []
  wf := dot_S5000x144_S144x24_S5000x24_1_0_0_1_n_n_wf

abbrev win0_0 : Pipeline.Window sig grid0 :=
  Pipeline.Window.ofSpec (Memref.whole main_arg0) S5000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x144.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x24.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S24x144.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2x144.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x144.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S5000x144.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2x144.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev win3_0 : Pipeline.Window sig grid3 :=
  Pipeline.Window.ofSpec (Memref.whole main_v46) S5000x144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S2x144.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S144x24.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S2x24.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S5000x144.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S2x144.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S144x24.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v86) S2x24.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg0) S5000x24.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v87) S5000x24.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x24 : Shape := ⟨2, ![100000, 24]⟩
abbrev S24x144 : Shape := ⟨2, ![24, 144]⟩
abbrev S144 : Shape := ⟨1, ![144]⟩
abbrev S9x144 : Shape := ⟨2, ![9, 144]⟩
abbrev S144x24 : Shape := ⟨2, ![144, 24]⟩
abbrev S24 : Shape := ⟨1, ![24]⟩
abbrev S900000 : Shape := ⟨1, ![900000]⟩
abbrev S100000x144 : Shape := ⟨2, ![100000, 144]⟩
abbrev S_ : Shape := ⟨0, ![]⟩
abbrev S1x144 : Shape := ⟨2, ![1, 144]⟩
abbrev S100001x144 : Shape := ⟨2, ![100001, 144]⟩
abbrev S900000x1 : Shape := ⟨2, ![900000, 1]⟩
abbrev S900000x144 : Shape := ⟨2, ![900000, 144]⟩
abbrev S1x24 : Shape := ⟨2, ![1, 24]⟩

abbrev nBuf : Space → Nat
  | .hbm => 198
  | .vmem => 0
  | .smem => 0
  | _ => 0

abbrev hbmTy0_0 (i : Nat) : BufTy := match i % 128 with
  | 0 => ⟨S100000x24, .f32⟩
  | 1 => ⟨S24x144, .f32⟩
  | 2 => ⟨S144, .f32⟩
  | 3 => ⟨S144, .f32⟩
  | 4 => ⟨S9x144, .f32⟩
  | 5 => ⟨S144, .f32⟩
  | 6 => ⟨S144, .f32⟩
  | 7 => ⟨S144x24, .f32⟩
  | 8 => ⟨S24, .f32⟩
  | 9 => ⟨S24, .f32⟩
  | 10 => ⟨S900000, .i32⟩
  | 11 => ⟨S900000, .i32⟩
  | 12 => ⟨S900000, .i32⟩
  | 13 => ⟨S100000x144, .f32⟩
  | 14 => ⟨S_, .f32⟩
  | 15 => ⟨S144, .f32⟩
  | 16 => ⟨S_, .f32⟩
  | 17 => ⟨S144, .f32⟩
  | 18 => ⟨S144, .f32⟩
  | 19 => ⟨S_, .i32⟩
  | 20 => ⟨S_, .f32⟩
  | 21 => ⟨S144, .f32⟩
  | 22 => ⟨S1x144, .f32⟩
  | 23 => ⟨S_, .f32⟩
  | 24 => ⟨S1x144, .f32⟩
  | 25 => ⟨S1x144, .f32⟩
  | 26 => ⟨S100000x144, .f32⟩
  | 27 => ⟨S100000x144, .f32⟩
  | 28 => ⟨S100000x144, .f32⟩
  | 29 => ⟨S_, .f32⟩
  | 30 => ⟨S_, .f32⟩
  | 31 => ⟨S_, .f32⟩
  | 32 => ⟨S_, .f32⟩
  | 33 => ⟨S144, .f32⟩
  | 34 => ⟨S144, .f32⟩
  | 35 => ⟨S144, .f32⟩
  | 36 => ⟨S_, .f32⟩
  | 37 => ⟨S_, .i1⟩
  | 38 => ⟨S_, .f32⟩
  | 39 => ⟨S_, .f32⟩
  | 40 => ⟨S144, .f32⟩
  | 41 => ⟨S144, .f32⟩
  | 42 => ⟨S1x144, .f32⟩
  | 43 => ⟨S100000x144, .f32⟩
  | 44 => ⟨S100000x144, .f32⟩
  | 45 => ⟨S_, .f32⟩
  | 46 => ⟨S144, .f32⟩
  | 47 => ⟨S144, .f32⟩
  | 48 => ⟨S144, .f32⟩
  | 49 => ⟨S1x144, .f32⟩
  | 50 => ⟨S100000x144, .f32⟩
  | 51 => ⟨S100000x144, .f32⟩
  | 52 => ⟨S1x144, .f32⟩
  | 53 => ⟨S100000x144, .f32⟩
  | 54 => ⟨S100000x144, .f32⟩
  | 55 => ⟨S1x144, .f32⟩
  | 56 => ⟨S100000x144, .f32⟩
  | 57 => ⟨S100000x144, .f32⟩
  | 58 => ⟨S_, .f32⟩
  | 59 => ⟨S_, .f32⟩
  | 60 => ⟨S_, .f32⟩
  | 61 => ⟨S100000x144, .f32⟩
  | 62 => ⟨S100000x144, .f32⟩
  | 63 => ⟨S_, .f32⟩
  | 64 => ⟨S100000x144, .f32⟩
  | 65 => ⟨S100000x144, .f32⟩
  | 66 => ⟨S_, .f32⟩
  | 67 => ⟨S1x144, .f32⟩
  | 68 => ⟨S100001x144, .f32⟩
  | 69 => ⟨S_, .i32⟩
  | 70 => ⟨S900000, .i32⟩
  | 71 => ⟨S900000, .i1⟩
  | 72 => ⟨S_, .i32⟩
  | 73 => ⟨S900000, .i32⟩
  | 74 => ⟨S900000, .i32⟩
  | 75 => ⟨S900000, .i32⟩
  | 76 => ⟨S900000x1, .i32⟩
  | 77 => ⟨S900000x144, .f32⟩
  | 78 => ⟨S_, .i32⟩
  | 79 => ⟨S900000, .i32⟩
  | 80 => ⟨S900000, .i1⟩
  | 81 => ⟨S_, .i32⟩
  | 82 => ⟨S900000, .i32⟩
  | 83 => ⟨S900000, .i32⟩
  | 84 => ⟨S900000, .i32⟩
  | 85 => ⟨S900000x1, .i32⟩
  | 86 => ⟨S900000x144, .f32⟩
  | 87 => ⟨S900000x144, .f32⟩
  | 88 => ⟨S_, .f32⟩
  | 89 => ⟨S100001x144, .f32⟩
  | 90 => ⟨S_, .i32⟩
  | 91 => ⟨S900000, .i32⟩
  | 92 => ⟨S900000, .i1⟩
  | 93 => ⟨S_, .i32⟩
  | 94 => ⟨S900000, .i32⟩
  | 95 => ⟨S900000, .i32⟩
  | 96 => ⟨S900000, .i32⟩
  | 97 => ⟨S900000x1, .i32⟩
  | 98 => ⟨S100001x144, .f32⟩
  | 99 => ⟨S100000x144, .f32⟩
  | 100 => ⟨S_, .f32⟩
  | 101 => ⟨S144, .f32⟩
  | 102 => ⟨S_, .f32⟩
  | 103 => ⟨S144, .f32⟩
  | 104 => ⟨S144, .f32⟩
  | 105 => ⟨S_, .i32⟩
  | 106 => ⟨S_, .f32⟩
  | 107 => ⟨S144, .f32⟩
  | 108 => ⟨S1x144, .f32⟩
  | 109 => ⟨S_, .f32⟩
  | 110 => ⟨S1x144, .f32⟩
  | 111 => ⟨S1x144, .f32⟩
  | 112 => ⟨S100000x144, .f32⟩
  | 113 => ⟨S100000x144, .f32⟩
  | 114 => ⟨S100000x144, .f32⟩
  | 115 => ⟨S_, .f32⟩
  | 116 => ⟨S_, .f32⟩
  | 117 => ⟨S_, .f32⟩
  | 118 => ⟨S_, .f32⟩
  | 119 => ⟨S144, .f32⟩
  | 120 => ⟨S144, .f32⟩
  | 121 => ⟨S144, .f32⟩
  | 122 => ⟨S_, .f32⟩
  | 123 => ⟨S_, .i1⟩
  | 124 => ⟨S_, .f32⟩
  | 125 => ⟨S_, .f32⟩
  | 126 => ⟨S144, .f32⟩
  | 127 => ⟨S144, .f32⟩
  | _ => ⟨S100000x24, .f32⟩

abbrev hbmTy0_1 (i : Nat) : BufTy := match i % 128 with
  | 0 => ⟨S1x144, .f32⟩
  | 1 => ⟨S100000x144, .f32⟩
  | 2 => ⟨S100000x144, .f32⟩
  | 3 => ⟨S_, .f32⟩
  | 4 => ⟨S144, .f32⟩
  | 5 => ⟨S144, .f32⟩
  | 6 => ⟨S144, .f32⟩
  | 7 => ⟨S1x144, .f32⟩
  | 8 => ⟨S100000x144, .f32⟩
  | 9 => ⟨S100000x144, .f32⟩
  | 10 => ⟨S1x144, .f32⟩
  | 11 => ⟨S100000x144, .f32⟩
  | 12 => ⟨S100000x144, .f32⟩
  | 13 => ⟨S1x144, .f32⟩
  | 14 => ⟨S100000x144, .f32⟩
  | 15 => ⟨S100000x144, .f32⟩
  | 16 => ⟨S_, .f32⟩
  | 17 => ⟨S_, .f32⟩
  | 18 => ⟨S_, .f32⟩
  | 19 => ⟨S100000x144, .f32⟩
  | 20 => ⟨S100000x144, .f32⟩
  | 21 => ⟨S_, .f32⟩
  | 22 => ⟨S100000x144, .f32⟩
  | 23 => ⟨S100000x144, .f32⟩
  | 24 => ⟨S100000x24, .f32⟩
  | 25 => ⟨S_, .f32⟩
  | 26 => ⟨S24, .f32⟩
  | 27 => ⟨S_, .f32⟩
  | 28 => ⟨S24, .f32⟩
  | 29 => ⟨S24, .f32⟩
  | 30 => ⟨S_, .i32⟩
  | 31 => ⟨S_, .f32⟩
  | 32 => ⟨S24, .f32⟩
  | 33 => ⟨S1x24, .f32⟩
  | 34 => ⟨S_, .f32⟩
  | 35 => ⟨S1x24, .f32⟩
  | 36 => ⟨S1x24, .f32⟩
  | 37 => ⟨S100000x24, .f32⟩
  | 38 => ⟨S100000x24, .f32⟩
  | 39 => ⟨S100000x24, .f32⟩
  | 40 => ⟨S_, .f32⟩
  | 41 => ⟨S_, .f32⟩
  | 42 => ⟨S_, .f32⟩
  | 43 => ⟨S_, .f32⟩
  | 44 => ⟨S24, .f32⟩
  | 45 => ⟨S24, .f32⟩
  | 46 => ⟨S24, .f32⟩
  | 47 => ⟨S_, .f32⟩
  | 48 => ⟨S_, .i1⟩
  | 49 => ⟨S_, .f32⟩
  | 50 => ⟨S_, .f32⟩
  | 51 => ⟨S24, .f32⟩
  | 52 => ⟨S24, .f32⟩
  | 53 => ⟨S1x24, .f32⟩
  | 54 => ⟨S100000x24, .f32⟩
  | 55 => ⟨S100000x24, .f32⟩
  | 56 => ⟨S_, .f32⟩
  | 57 => ⟨S24, .f32⟩
  | 58 => ⟨S24, .f32⟩
  | 59 => ⟨S24, .f32⟩
  | 60 => ⟨S1x24, .f32⟩
  | 61 => ⟨S100000x24, .f32⟩
  | 62 => ⟨S100000x24, .f32⟩
  | 63 => ⟨S1x24, .f32⟩
  | 64 => ⟨S100000x24, .f32⟩
  | 65 => ⟨S100000x24, .f32⟩
  | 66 => ⟨S1x24, .f32⟩
  | 67 => ⟨S100000x24, .f32⟩
  | 68 => ⟨S100000x24, .f32⟩
  | 69 => ⟨S100000x24, .f32⟩
  | _ => ⟨S100000x24, .f32⟩

abbrev hbmTy (i : Nat) : BufTy := match i / 128 with
  | 0 => hbmTy0_0 i
  | 1 => hbmTy0_1 i
  | _ => ⟨S100000x24, .f32⟩

abbrev bufTy : (tb : Table) → Fin (tcTables nBuf tb) → BufTy
  | .hbm, ⟨i, _⟩ => hbmTy i
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_cst_3 : Ref sig .tc := ⟨.hbm, 36, rfl⟩
abbrev main_call0_v12 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_2 : Ref sig .tc := ⟨.hbm, 58, rfl⟩
abbrev main_cst_3 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v20 : Ref sig .tc := ⟨.hbm, 65, rfl⟩
abbrev main_cst_4 : Ref sig .tc := ⟨.hbm, 66, rfl⟩
abbrev main_v21 : Ref sig .tc := ⟨.hbm, 67, rfl⟩
abbrev main_v22 : Ref sig .tc := ⟨.hbm, 68, rfl⟩
abbrev main_c_5 : Ref sig .tc := ⟨.hbm, 69, rfl⟩
abbrev main_v23 : Ref sig .tc := ⟨.hbm, 70, rfl⟩
abbrev main_v24 : Ref sig .tc := ⟨.hbm, 71, rfl⟩
abbrev main_c_6 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_7 : Ref sig .tc := ⟨.hbm, 78, rfl⟩
abbrev main_v30 : Ref sig .tc := ⟨.hbm, 79, rfl⟩
abbrev main_v31 : Ref sig .tc := ⟨.hbm, 80, rfl⟩
abbrev main_c_8 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst_9 : Ref sig .tc := ⟨.hbm, 88, rfl⟩
abbrev main_v38 : Ref sig .tc := ⟨.hbm, 89, rfl⟩
abbrev main_c_10 : Ref sig .tc := ⟨.hbm, 90, rfl⟩
abbrev main_v39 : Ref sig .tc := ⟨.hbm, 91, rfl⟩
abbrev main_v40 : Ref sig .tc := ⟨.hbm, 92, rfl⟩
abbrev main_c_11 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_cst_12 : Ref sig .tc := ⟨.hbm, 100, rfl⟩
abbrev main_v47 : Ref sig .tc := ⟨.hbm, 101, rfl⟩
abbrev main_cst_13 : Ref sig .tc := ⟨.hbm, 102, rfl⟩
abbrev main_v48 : Ref sig .tc := ⟨.hbm, 103, rfl⟩
abbrev main_v49 : Ref sig .tc := ⟨.hbm, 104, rfl⟩
abbrev main_c_14 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_cst_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_cst_1 : Ref sig .tc := ⟨.hbm, 116, rfl⟩
abbrev main_call2_v8 : Ref sig .tc := ⟨.hbm, 117, rfl⟩
abbrev main_call2_cst_2 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_cst_3 : Ref sig .tc := ⟨.hbm, 122, rfl⟩
abbrev main_call2_v12 : Ref sig .tc := ⟨.hbm, 123, rfl⟩
abbrev main_call2_cst_4 : Ref sig .tc := ⟨.hbm, 124, rfl⟩
abbrev main_call2_call0_v0 : Ref sig .tc := ⟨.hbm, 125, rfl⟩
abbrev main_call2_call0_v1 : Ref sig .tc := ⟨.hbm, 126, rfl⟩
abbrev main_v50 : Ref sig .tc := ⟨.hbm, 127, rfl⟩
abbrev main_v51 : Ref sig .tc := ⟨.hbm, 128, rfl⟩
abbrev main_v52 : Ref sig .tc := ⟨.hbm, 129, rfl⟩
abbrev main_v53 : Ref sig .tc := ⟨.hbm, 130, rfl⟩
abbrev main_cst_15 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_cst_16 : Ref sig .tc := ⟨.hbm, 144, rfl⟩
abbrev main_cst_17 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v66 : Ref sig .tc := ⟨.hbm, 151, rfl⟩
abbrev main_v67 : Ref sig .tc := ⟨.hbm, 152, rfl⟩
abbrev main_cst_18 : Ref sig .tc := ⟨.hbm, 153, rfl⟩
abbrev main_v68 : Ref sig .tc := ⟨.hbm, 154, rfl⟩
abbrev main_cst_19 : Ref sig .tc := ⟨.hbm, 155, rfl⟩
abbrev main_v69 : Ref sig .tc := ⟨.hbm, 156, rfl⟩
abbrev main_v70 : Ref sig .tc := ⟨.hbm, 157, rfl⟩
abbrev main_c_20 : Ref sig .tc := ⟨.hbm, 158, rfl⟩
abbrev main_call4_cst : Ref sig .tc := ⟨.hbm, 159, rfl⟩
abbrev main_call4_v0 : Ref sig .tc := ⟨.hbm, 160, rfl⟩
abbrev main_call4_v1 : Ref sig .tc := ⟨.hbm, 161, rfl⟩
abbrev main_call4_cst_0 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_call4_v5 : Ref sig .tc := ⟨.hbm, 166, rfl⟩
abbrev main_call4_v6 : Ref sig .tc := ⟨.hbm, 167, rfl⟩
abbrev main_call4_v7 : Ref sig .tc := ⟨.hbm, 168, rfl⟩
abbrev main_call4_cst_1 : Ref sig .tc := ⟨.hbm, 169, rfl⟩
abbrev main_call4_v8 : Ref sig .tc := ⟨.hbm, 170, rfl⟩
abbrev main_call4_cst_2 : Ref sig .tc := ⟨.hbm, 171, rfl⟩
abbrev main_call4_v9 : Ref sig .tc := ⟨.hbm, 172, rfl⟩
abbrev main_call4_v10 : Ref sig .tc := ⟨.hbm, 173, rfl⟩
abbrev main_call4_v11 : Ref sig .tc := ⟨.hbm, 174, rfl⟩
abbrev main_call4_cst_3 : Ref sig .tc := ⟨.hbm, 175, rfl⟩
abbrev main_call4_v12 : Ref sig .tc := ⟨.hbm, 176, rfl⟩
abbrev main_call4_cst_4 : Ref sig .tc := ⟨.hbm, 177, rfl⟩
abbrev main_call4_call0_v0 : Ref sig .tc := ⟨.hbm, 178, rfl⟩
abbrev main_call4_call0_v1 : Ref sig .tc := ⟨.hbm, 179, rfl⟩
abbrev main_v71 : Ref sig .tc := ⟨.hbm, 180, rfl⟩
abbrev main_v72 : Ref sig .tc := ⟨.hbm, 181, rfl⟩
abbrev main_v73 : Ref sig .tc := ⟨.hbm, 182, rfl⟩
abbrev main_v74 : Ref sig .tc := ⟨.hbm, 183, rfl⟩
abbrev main_cst_21 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_v80 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩

abbrev nD : Nat := 1
abbrev τ : Topo := Topo.v7x

variable {F : FTy → Type} [FloatOps F]

class Facts₀ : Prop where
  reducesTo_S100000x144_S144_d0 : S100000x144.ReducesTo [0] S144
  h_S_ : 0 < S_.numel
  bcast_S_S144 : S_.BroadcastsInDim S144 (![] : Fin 0 → Fin S144.rank)
  bcast_S144_S1x144_1 : S144.BroadcastsInDim S1x144 (![1] : Fin 1 → Fin S1x144.rank)
  bcast_S_S1x144 : S_.BroadcastsInDim S1x144 (![] : Fin 0 → Fin S1x144.rank)
  bcast_S1x144_S100000x144_0_1 : S1x144.BroadcastsInDim S100000x144 (![0, 1] : Fin 2 → Fin S100000x144.rank)
  bcast_S_S100000x144 : S_.BroadcastsInDim S100000x144 (![] : Fin 0 → Fin S100000x144.rank)
  concatenates_S100000x144_S1x144_S100001x144_d0 : Shape.Concatenates [S100000x144, S1x144] S100001x144 0
  bcast_S_S900000 : S_.BroadcastsInDim S900000 (![] : Fin 0 → Fin S900000.rank)
  bcast_S900000_S900000x1_0 : S900000.BroadcastsInDim S900000x1 (![0] : Fin 1 → Fin S900000x1.rank)
  bcast_S_S100001x144 : S_.BroadcastsInDim S100001x144 (![] : Fin 0 → Fin S100001x144.rank)
  slices_S100001x144_S100000x144_0_0 : S100001x144.Slices ![0, 0] S100000x144
  reducesTo_S100000x24_S24_d0 : S100000x24.ReducesTo [0] S24
  bcast_S_S24 : S_.BroadcastsInDim S24 (![] : Fin 0 → Fin S24.rank)
  bcast_S24_S1x24_1 : S24.BroadcastsInDim S1x24 (![1] : Fin 1 → Fin S1x24.rank)
  bcast_S_S1x24 : S_.BroadcastsInDim S1x24 (![] : Fin 0 → Fin S1x24.rank)
  bcast_S1x24_S100000x24_0_1 : S1x24.BroadcastsInDim S100000x24 (![0, 1] : Fin 2 → Fin S100000x24.rank)
  dot_S100000x24_S24x144_S100000x144_1_0_0_1_n_n_wf : DotDims.WF S100000x24 S24x144 S100000x144 [1] [0] [0] [1] [] []
  gather_S100001x144_S900000x1_S900000x144_1_0_n_n_0_1_1144_wf : GatherDims.WF S100001x144 S900000x1 S900000x144 [1] [0] [] [0] [] 1 ![1, 144]
  gather_S9x144_S900000x1_S900000x144_1_0_n_n_0_1_1144_wf : GatherDims.WF S9x144 S900000x1 S900000x144 [1] [0] [] [0] [] 1 ![1, 144]
  scatter_S100001x144_S900000x1_S900000x144_1_0_0_1_wf : ScatterDims.WF S100001x144 S900000x1 S900000x144 [1] [0] [0] 1
  dot_S100000x144_S144x24_S100000x24_1_0_0_1_n_n_wf : DotDims.WF S100000x144 S144x24 S100000x24 [1] [0] [0] [1] [] []

variable [Facts₀]

def dot_S100000x24_S24x144_S100000x144_1_0_0_1_n_n : DotDims S100000x24 S24x144 S100000x144 where
  lhsContracting := [1]
  rhsContracting := [0]
  lhsNonContracting := [0]
  rhsNonContracting := [1]
  lhsBatch := []
  rhsBatch := []
  wf := dot_S100000x24_S24x144_S100000x144_1_0_0_1_n_n_wf
def gather_S100001x144_S900000x1_S900000x144_1_0_n_n_0_1_1144 : GatherDims S100001x144 S900000x1 S900000x144 where
  offsetDims := [1]
  collapsedSliceDims := [0]
  operandBatchingDims := []
  startIndicesBatchingDims := []
  startIndexMap := [0]
  indexVectorDim := 1
  sliceSizes := ![1, 144]
  wf := gather_S100001x144_S900000x1_S900000x144_1_0_n_n_0_1_1144_wf
def gather_S9x144_S900000x1_S900000x144_1_0_n_n_0_1_1144 : GatherDims S9x144 S900000x1 S900000x144 where
  offsetDims := [1]
  collapsedSliceDims := [0]
  operandBatchingDims := []
  startIndicesBatchingDims := []
  startIndexMap := [0]
  indexVectorDim := 1
  sliceSizes := ![1, 144]
  wf := gather_S9x144_S900000x1_S900000x144_1_0_n_n_0_1_1144_wf
def scatter_S100001x144_S900000x1_S900000x144_1_0_0_1 : ScatterDims S100001x144 S900000x1 S900000x144 where
  updateWindowDims := [1]
  insertedWindowDims := [0]
  scatterDimsToOperandDims := [0]
  indexVectorDim := 1
  wf := scatter_S100001x144_S900000x1_S900000x144_1_0_0_1_wf
def dot_S100000x144_S144x24_S100000x24_1_0_0_1_n_n : DotDims S100000x144 S144x24 S100000x24 where
  lhsContracting := [1]
  rhsContracting := [0]
  lhsNonContracting := [0]
  rhsNonContracting := [1]
  lhsBatch := []
  rhsBatch := []
  wf := dot_S100000x144_S144x24_S100000x24_1_0_0_1_n_n_wf

class Facts : Prop extends Facts₀ where

variable [Facts]
-- ==== Proof.KRun.lean ====
/-
  The idealized kernel's run with its result named.

  Every weakly fair execution of the kernel's program from a memory with zero counters terminates without a fault;
  the argument arrays end as launched, and the result array ends at the contents the last boundary of the program's
  fold through its five pipelined calls and four stretches of host operations assigns to it.
-/
import proofs.«119352_j15083925143721_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result array at the last boundary's contents, the arguments as launched. -/
theorem run_main : θ_run defs (onTc (τ := τ) (main (F := F))) ⟨m, fun _ => 0, ρ⟩ (fun r => ∀ c : Dev nD,
      r.2.mem ((c.tc : Thread nD τ).loc main_v87) = W9 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v87 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Gen

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.KPay.lean ====
/-
  The arithmetic of the five kernel bodies, read entry by entry over the extended reals.

  Each body's stored value is a pure function of the blocks it loads.  A statistics body adds to a 2-row accumulator
  the column sums (row 0) and the column sums of squares (row 1) of a 5000-row tile — for the first and fourth bodies
  the tile is a matrix product computed in the body.  An elementwise body scales and shifts each column, clips to
  [0, 6], and (last body) multiplies by a weight matrix, scales and shifts again and adds the residual.
-/
import proofs.«119352_j15083925143721_1_alg».proof.Proof.Gen.KernelIdeal.Skeleton
import proofs.«119352_j15083925143721_1_alg».proof.Proof.LibPlainDot
import proofs.«119352_j15083925143721_1_alg».proof.Proof.LibColumnSum
import Idealize.ShloMosaic.Lib.Pipeline.Value
import Idealize.ShloMosaic.Lib.ValueLayout
import Idealize.ShloMosaic.Lib.ValueIdx

noncomputable section

namespace Cert.KernelIdeal.KPay

open Idealize.ShloMosaic Idealize.ShloMosaic.ValueIdx Cert.KernelIdeal Cert.KernelIdeal.Gen

/-- The dimension numbers of the two products are those of a plain matrix product. -/
theorem plain1 : Cert.PlainDot.IsPlain dot_S5000x24_S24x144_S5000x144_1_0_0_1_n_n := ⟨rfl, rfl, rfl, rfl, rfl, rfl⟩
theorem plain3 : Cert.PlainDot.IsPlain dot_S5000x144_S144x24_S5000x24_1_0_0_1_n_n := ⟨rfl, rfl, rfl, rfl, rfl, rfl⟩

/-- The value scaled, shifted and clipped to [0, 6]. -/
def clipAffine (x s t : EReal) : EReal :=
  min (Ideal.ofBits .f32 0x40C00000#32) (max (Ideal.ofBits .f32 0x00000000#32) (x * s + t))

/-- A two-row stack read in its first row. -/
theorem stack_row0 {b : ℕ} (x y : FVec Ideal ⟨2, ![1, b]⟩ .f32) (h : Shape.Concatenates [⟨2, ![1, b]⟩, ⟨2, ![1, b]⟩] ⟨2, ![2, b]⟩ 0) (c : Fin b) :
    concatenate ⟨2, ![2, b]⟩ 0 [⟨⟨2, ![1, b]⟩, x⟩, ⟨⟨2, ![1, b]⟩, y⟩] h (ix2 (0 : Fin 2) c) = x (ix2 (0 : Fin 1) c) :=
  concatenate_pair_apply_left 0 x y h (ix2 (0 : Fin 2) c) rfl (ix2 (0 : Fin 1) c) (fun a => by
    match a with
    | ⟨0, _⟩ => rfl
    | ⟨1, _⟩ => rfl)

/-- A two-row stack read in its second row. -/
theorem stack_row1 {b : ℕ} (x y : FVec Ideal ⟨2, ![1, b]⟩ .f32) (h : Shape.Concatenates [⟨2, ![1, b]⟩, ⟨2, ![1, b]⟩] ⟨2, ![2, b]⟩ 0) (c : Fin b) :
    concatenate ⟨2, ![2, b]⟩ 0 [⟨⟨2, ![1, b]⟩, x⟩, ⟨⟨2, ![1, b]⟩, y⟩] h (ix2 (1 : Fin 2) c) = y (ix2 (0 : Fin 1) c) :=
  concatenate_pair_apply_right 0 x y h (ix2 (1 : Fin 2) c) rfl rfl (ix2 (0 : Fin 1) c) (fun a ha => by
    match a, ha with
    | ⟨0, _⟩, ha => exact absurd rfl ha
    | ⟨1, _⟩, _ => rfl) rfl

/-- The first statistics body, row 0: the running value plus the tile's column sum of the product. -/
theorem k0_pay2_row0 (v3 : Vec Ideal S5000x24 .f32) (v5 : Vec Ideal S24x144 .f32) (v13 : Vec Ideal S2x144 .f32) (c : Fin 144) :
    k0_pay2 (F := Ideal) v3 v5 v13 (ix2 (0 : Fin 2) c)
      = v13 (ix2 (0 : Fin 2) c) + ∑ p : Fin 5000, ∑ q : Fin 24, v3 (ix2 p q) * v5 (ix2 q c) := by
  unfold k0_pay2
  refine (addf_apply _ _ _).trans ?_
  rw [shapeCast_self]
  refine congrArg (v13 (ix2 (0 : Fin 2) c) + ·) ?_
  refine (stack_row0 _ _ _ c).trans ?_
  refine (shapeCast_a_1a_apply _ _ (0 : Fin 1) c).trans ?_
  refine (Cert.Lib.column_sum _ _ _ _ c).trans ?_
  exact Finset.sum_congr rfl fun p _ => Cert.PlainDot.matmul_zero_apply plain1 none _ _ p c

/-- The first statistics body, row 1: the running value plus the tile's column sum of the product's squares. -/
theorem k0_pay2_row1 (v3 : Vec Ideal S5000x24 .f32) (v5 : Vec Ideal S24x144 .f32) (v13 : Vec Ideal S2x144 .f32) (c : Fin 144) :
    k0_pay2 (F := Ideal) v3 v5 v13 (ix2 (1 : Fin 2) c)
      = v13 (ix2 (1 : Fin 2) c) + ∑ p : Fin 5000, (∑ q : Fin 24, v3 (ix2 p q) * v5 (ix2 q c)) * (∑ q : Fin 24, v3 (ix2 p q) * v5 (ix2 q c)) := by
  unfold k0_pay2
  refine (addf_apply _ _ _).trans ?_
  rw [shapeCast_self]
  refine congrArg (v13 (ix2 (1 : Fin 2) c) + ·) ?_
  refine (stack_row1 _ _ _ c).trans ?_
  refine (shapeCast_a_1a_apply _ _ (0 : Fin 1) c).trans ?_
  refine (Cert.Lib.column_sum _ _ _ _ c).trans ?_
  refine Finset.sum_congr rfl fun p _ => ?_
  refine (mulf_apply _ _ _).trans ?_
  rw [Cert.PlainDot.matmul_zero_apply plain1 none _ _ p c]
  rfl

end Cert.KernelIdeal.KPay

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.KReg0.lean ====
/-
  The first statistics call: what its 2×144 output array holds after the call.

  The output block never moves over the twenty grid points; the first point resets it to zero and every point adds
  the column sums (row 0) and the column sums of squares (row 1) of its 5000-row tile of the product f·w.  After the
  last point, the only one that writes the block back, row 0 of the array is the column sum of f·w over all 100000
  rows and row 1 the column sum of its squares: twenty partial sums of 5000 terms are one sum of 100000 terms.
-/
import proofs.«119352_j15083925143721_1_alg».proof.Proof.Gen.KernelIdeal.Frame
import proofs.«119352_j15083925143721_1_alg».proof.Proof.KPay
import proofs.«119352_j15083925143721_1_alg».proof.Proof.LibBlockSum
import Idealize.ShloMosaic.Lib.Pipeline.Value
import Idealize.ShloMosaic.Lib.Tactic

noncomputable section

namespace Cert.KernelIdeal.KReg0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KPay

/-- A running value that starts at 0 + T 0 and adds T (n+1) at step n+1 is 0 plus the sum of the T's so far. -/
theorem chain_sum {N : ℕ} (A : (n : ℕ) → n < N → EReal) (T : ℕ → EReal)
    (h0 : ∀ h, A 0 h = 0 + T 0) (hs : ∀ n h, A (n + 1) h = A n (Nat.lt_of_succ_lt h) + T (n + 1)) :
    ∀ n h, A n h = 0 + ∑ s ∈ Finset.range (n + 1), T s
  | 0, h => by rw [h0, Finset.sum_range_one]
  | n + 1, h => by rw [hs, chain_sum A T h0 hs n, Finset.sum_range_succ _ (n + 1), add_assoc]

variable (V : (c : Dev nD) → (b : Ref sig .tc) → Buf (Elt Ideal) ((c : Thread nD τ).loc b))

theorem hz : (![0, 0] : Fin 2 → Nat) = fun _ => 0 := funext fun a => by fin_cases a <;> rfl

/-- A later point leaves the accumulator plus the tile's statistics. -/
theorem out_B (c : Dev nD) (i : grid0.Coords) (a1 : Memref sig .tc .vmem S5000x24 .f32) (h1 : a1.IsWhole)
    (a2 : Memref sig .tc .vmem S24x144 .f32) (h2 : a2.IsWhole) (a3 : Memref sig .tc .vmem S2x144 .f32) (h3 : a3.IsWhole)
    (hc : ¬cond0_0 i) (x0 : Vec Ideal S5000x24 .f32) (x1 : Vec Ideal S24x144 .f32) (xo : Vec Ideal S2x144 .f32) :
    out0_B_2 (F := Ideal) c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz]
  simp only [View.readAt_eq_ld, h1.read_unread, h2.read_unread, h3.read_unread, View.ld_unit_zero (S := S5000x24) hz,
    View.ld_unit_zero (S := S24x144) hz, View.ld_unit_zero (S := S2x144) hz]

/-- The first point stores zeros, reads them back, and leaves zero plus the tile's statistics. -/
theorem out_A (c : Dev nD) (i : grid0.Coords) (a1 : Memref sig .tc .vmem S5000x24 .f32) (h1 : a1.IsWhole)
    (a2 : Memref sig .tc .vmem S24x144 .f32) (h2 : a2.IsWhole) (a3 : Memref sig .tc .vmem S2x144 .f32) (h3 : a3.IsWhole)
    (hc : cond0_0 i) (x0 : Vec Ideal S5000x24 .f32) (x1 : Vec Ideal S24x144 .f32) :
    out0_A_2 (F := Ideal) c i a1 h1 a2 h2 a3 h3 hc x0 x1 = k0_pay2 x0 x1 (k0_pay1 (F := Ideal)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S2x144) hz, View.readCov_unit_zero (S := S2x144) _ hz]
  simp only [View.readAt_eq_ld, h1.read_unread, h2.read_unread, View.ld_unit_zero (S := S5000x24) hz,
    View.ld_unit_zero (S := S24x144) hz, View.ld_unit_zero (S := S2x144) hz]

/-- The two argument arrays as the call finds them, and their blocks at a grid point. -/
abbrev feats (c : Dev nD) : FVec Ideal S100000x24 .f32 := V c main_arg0
abbrev wts (c : Dev nD) : FVec Ideal S24x144 .f32 := V c main_arg1
abbrev tile0 (c : Dev nD) (t : Fin cfg0.N) : Vec Ideal S5000x24 .f32 := iblk0 V c 0 t
abbrev tile1 (c : Dev nD) (t : Fin cfg0.N) : Vec Ideal S24x144 .f32 := iblk0 V c 1 t

/-- The accumulator after point n, as the bodies' arithmetic nests it. -/
def acc (c : Dev nD) : (n : ℕ) → n < cfg0.N → Vec Ideal S2x144 .f32
  | 0, h => k0_pay2 (tile0 V c ⟨0, h⟩) (tile1 V c ⟨0, h⟩) (k0_pay1 (F := Ideal))
  | n + 1, h => k0_pay2 (tile0 V c ⟨n + 1, h⟩) (tile1 V c ⟨n + 1, h⟩) (acc c n (Nat.lt_of_succ_lt h))

/-- What the output's buffer holds after point n is that nest, by induction on the point. -/
theorem outsAt_eq (c : Dev nD) : ∀ (n : ℕ) (h : n < cfg0.N), outsAt0 V c n h = acc V c n h
  | 0, h => (outsAt0_A V c ⟨0, h⟩ rfl).trans (out_A ..)
  | n + 1, h => by
    have hN : cfg0.N = 20 := N_0
    have hB : ¬(⟨n + 1, h⟩ : Fin cfg0.N).val % 20 = 0 := by dsimp only; omega
    rw [outsAt0_B V c ⟨n + 1, h⟩ hB, out_B]
    show k0_pay2 _ _ (outsAt0 V c n _) = k0_pay2 _ _ (acc V c n _)
    rw [outsAt_eq c n]

/-- The index maps of the two input windows: the row block follows the grid point; the weights never move. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)

/-- Tile t of the features is rows 5000·t … 5000·t + 4999 of the array. -/
theorem blk0_apply (c : Dev nD) (t : Fin cfg0.N) (r : Fin 5000) (q : Fin 24) (k : Fin 100000) (hk : k.val = 5000 * t.val + r.val) :
    tile0 V c t (ix2 r q) = feats V c (ix2 k q) := by
  unfold tile0 feats iblk0
  rw [View.read_apply]
  show (V c main_arg0 : FVec Ideal S100000x24 .f32) _ = (V c main_arg0 : FVec Ideal S100000x24 .f32) _
  refine congrArg (V c main_arg0 : FVec Ideal S100000x24 .f32) (funext fun a => Fin.ext ?_)
  match a with
  | ⟨0, _⟩ => show win0_0.index t 0 * 5000 + 1 * r.val = k.val; rw [(idx0 t).1, hk]; omega
  | ⟨1, _⟩ => show win0_0.index t 1 * 24 + 1 * q.val = q.val; rw [(idx0 t).2]; omega

/-- The weights' block is the whole array at every point. -/
theorem blk1_apply (c : Dev nD) (t : Fin cfg0.N) (q : Fin 24) (l : Fin 144) :
    tile1 V c t (ix2 q l) = wts V c (ix2 q l) := by
  unfold tile1 wts iblk0
  rw [View.read_apply]
  show (V c main_arg1 : FVec Ideal S24x144 .f32) _ = (V c main_arg1 : FVec Ideal S24x144 .f32) _
  refine congrArg (V c main_arg1 : FVec Ideal S24x144 .f32) (funext fun a => Fin.ext ?_)
  match a with
  | ⟨0, _⟩ => show win0_1.index t 0 * 24 + 1 * q.val = q.val; rw [(idx1 t).1]; omega
  | ⟨1, _⟩ => show win0_1.index t 1 * 144 + 1 * l.val = l.val; rw [(idx1 t).2]; omega

/-- Entry (n, l) of the product f·w. -/
def h1 (c : Dev nD) (n : Fin 100000) (l : Fin 144) : EReal :=
  ∑ q : Fin 24, feats V c (ix2 n q) * wts V c (ix2 q l)

/-- The same at a position that may fall outside the array (then zero): the form a block-by-block sum is stated in. -/
def h1N (c : Dev nD) (l : Fin 144) (k : ℕ) : EReal := if hk : k < 100000 then h1 V c ⟨k, hk⟩ l else 0

/-- A tile's product entry is the array's product entry at the tile's row. -/
theorem tile_dot (c : Dev nD) (t : Fin cfg0.N) (r : Fin 5000) (l : Fin 144) :
    (∑ q : Fin 24, tile0 V c t (ix2 r q) * tile1 V c t (ix2 q l))
      = h1N V c l (5000 * t.val + r.val) := by
  have hN : cfg0.N = 20 := N_0
  have ht : t.val < 20 := hN ▸ t.isLt
  have hk : 5000 * t.val + r.val < 100000 := by have := r.isLt; omega
  unfold h1N
  rw [dif_pos hk]
  unfold h1
  exact Finset.sum_congr rfl fun q _ => by rw [blk0_apply V c t r q ⟨_, hk⟩ rfl, blk1_apply V c t q l]

theorem zero_entry (j : S2x144.Idx) : (k0_pay1 (F := Ideal)) j = 0 := Ideal.ofBits_zero_f32

/-- Row 0 after point n: zero plus the tiles' column sums so far. -/
theorem acc_row0 (c : Dev nD) (l : Fin 144) : ∀ (n : ℕ) (h : n < cfg0.N),
    acc V c n h (ix2 (0 : Fin 2) l) = 0 + ∑ s ∈ Finset.range (n + 1), ∑ r : Fin 5000, h1N V c l (5000 * s + r.val) :=
  chain_sum (fun n h => acc V c n h (ix2 (0 : Fin 2) l)) (fun s => ∑ r : Fin 5000, h1N V c l (5000 * s + r.val))
    (fun h => by
      show k0_pay2 _ _ _ (ix2 (0 : Fin 2) l) = _
      rw [k0_pay2_row0, zero_entry]
      exact congrArg (0 + ·) (Finset.sum_congr rfl fun r _ => tile_dot V c ⟨0, h⟩ r l))
    (fun n h => by
      show k0_pay2 _ _ _ (ix2 (0 : Fin 2) l) = _
      rw [k0_pay2_row0]
      exact congrArg (acc V c n _ (ix2 (0 : Fin 2) l) + ·) (Finset.sum_congr rfl fun r _ => tile_dot V c ⟨n + 1, h⟩ r l))

/-- Row 1 after point n: zero plus the tiles' column sums of squares so far. -/
theorem acc_row1 (c : Dev nD) (l : Fin 144) : ∀ (n : ℕ) (h : n < cfg0.N),
    acc V c n h (ix2 (1 : Fin 2) l) = 0 + ∑ s ∈ Finset.range (n + 1), ∑ r : Fin 5000, h1N V c l (5000 * s + r.val) * h1N V c l (5000 * s + r.val) :=
  chain_sum (fun n h => acc V c n h (ix2 (1 : Fin 2) l)) (fun s => ∑ r : Fin 5000, h1N V c l (5000 * s + r.val) * h1N V c l (5000 * s + r.val))
    (fun h => by
      show k0_pay2 _ _ _ (ix2 (1 : Fin 2) l) = _
      rw [k0_pay2_row1, zero_entry]
      exact congrArg (0 + ·) (Finset.sum_congr rfl fun r _ => by rw [tile_dot V c ⟨0, h⟩ r l]))
    (fun n h => by
      show k0_pay2 _ _ _ (ix2 (1 : Fin 2) l) = _
      rw [k0_pay2_row1]
      exact congrArg (acc V c n _ (ix2 (1 : Fin 2) l) + ·) (Finset.sum_congr rfl fun r _ => by rw [tile_dot V c ⟨n + 1, h⟩ r l]))

theorem lt19 : 19 < cfg0.N := by rw [show cfg0.N = 20 from N_0]; decide

/-- The statistics of the first product: what the call leaves in its output array. -/
abbrev stats (c : Dev nD) : Vec Ideal S2x144 .f32 := acc V c 19 lt19

/-- Row 0 is the column sum of f·w over all rows; row 1 the column sum of its squares. -/
theorem stats_row0 (c : Dev nD) (l : Fin 144) : stats V c (ix2 (0 : Fin 2) l) = ∑ n : Fin 100000, h1 V c n l :=
  (acc_row0 V c l 19 lt19).trans (Cert.BlockSum.sum_20x5000 (fun n => h1 V c n l) (h1N V c l) fun n => by
    unfold h1N; rw [dif_pos n.isLt])
theorem stats_row1 (c : Dev nD) (l : Fin 144) : stats V c (ix2 (1 : Fin 2) l) = ∑ n : Fin 100000, h1 V c n l * h1 V c n l :=
  (acc_row1 V c l 19 lt19).trans (Cert.BlockSum.sum_20x5000 (fun n => h1 V c n l * h1 V c n l) (fun k => h1N V c l k * h1N V c l k) fun n => by
    unfold h1N; rw [dif_pos n.isLt])

/-- The last point. -/
abbrev tl : Fin cfg0.N := ⟨19, lt19⟩

/-- The one write-back, at the last point, writes the accumulator: the block is the whole 2×144 array. -/
theorem flushed_eq (c : Dev nD) (t : Fin cfg0.N) (hf : (cfg0.win 2).flush t = true) :
    (dat0 V c).flushed 2 t = ((cfg0.win 2).blk t).view.read (Elt Ideal) (stats V c) := by
  have hN : cfg0.N = 20 := N_0
  have h19 : t.val = 19 := by have := (flush0_2 t).mp hf; have := t.isLt; omega
  obtain rfl : t = tl := Fin.ext h19
  show (cfg0.win 2).cut (grid0.coords tl) ((dat0 V c).after 2 tl) = _
  rw [after0_2, outsAt_eq]
  have hz' : (fun a => win0_2.index tl a * main_v0.ty.shape.size a) = fun _ => 0 := funext fun a => by fin_cases a <;> decide +kernel
  exact (Memref.read_access_unit_zero (Elt Ideal) main_v0 hz' (fun a => by rw [congrFun hz' a]; simp) (stats V c)).symm

/-- So the output array ends at the accumulator after the last point. -/
theorem final0 (c : Dev nD) : (dat0 V c).arrAt 2 cfg0.N = stats V c :=
  (dat0 V c).arrAt_eq_of_cover 2 (stats V c) (flushed_eq V c) fun i =>
    ⟨tl, (flush0_2 tl).mpr rfl, by
      show i ∈ ((View.whole main_v0).slice (win0_2.rect tl)).set
      rw [View.set_slice_whole, Rect.mem_set_unit]
      intro a
      have h0 : (i 0 : Nat) < 2 := (i 0).isLt
      have h1 : (i 1 : Nat) < 144 := (i 1).isLt
      match a with
      | ⟨0, _⟩ =>
        show win0_2.index tl 0 * win0_2.size 0 ≤ (i 0 : Nat) ∧ (i 0 : Nat) < win0_2.index tl 0 * win0_2.size 0 + win0_2.xsize (grid0.coords tl) 0
        rw [show win0_2.index tl 0 * win0_2.size 0 = 0 from by decide +kernel, show win0_2.xsize (grid0.coords tl) 0 = 2 from by decide +kernel]; omega
      | ⟨1, _⟩ =>
        show win0_2.index tl 1 * win0_2.size 1 ≤ (i 1 : Nat) ∧ (i 1 : Nat) < win0_2.index tl 1 * win0_2.size 1 + win0_2.xsize (grid0.coords tl) 1
        rw [show win0_2.index tl 1 * win0_2.size 1 = 0 from by decide +kernel, show win0_2.xsize (grid0.coords tl) 1 = 144 from by decide +kernel]; omega⟩

end Cert.KernelIdeal.KReg0

end
-- ==== Proof.KPay2.lean ====
/-
  The second and third statistics bodies, read entry by entry over the extended reals: the running 2-row accumulator
  plus the tile's column sums (row 0) and column sums of squares (row 1) — of the tile itself, or of the tile scaled,
  shifted, clipped to [0, 6] and multiplied by a weight matrix.
-/
import proofs.«119352_j15083925143721_1_alg».proof.Proof.KPay

noncomputable section

namespace Cert.KernelIdeal.KPay

open Idealize.ShloMosaic Idealize.ShloMosaic.ValueIdx Cert.KernelIdeal Cert.KernelIdeal.Gen

/-- The second statistics body, row 0. -/
theorem k2_pay2_row0 (v3 : Vec Ideal S5000x144 .f32) (v10 : Vec Ideal S2x144 .f32) (c : Fin 144) :
    k2_pay2 (F := Ideal) v3 v10 (ix2 (0 : Fin 2) c) = v10 (ix2 (0 : Fin 2) c) + ∑ p : Fin 5000, v3 (ix2 p c) := by
  unfold k2_pay2
  refine (addf_apply _ _ _).trans ?_
  rw [shapeCast_self, shapeCast_self]
  refine congrArg (v10 (ix2 (0 : Fin 2) c) + ·) ?_
  refine (stack_row0 _ _ _ c).trans ?_
  refine (shapeCast_a_1a_apply _ _ (0 : Fin 1) c).trans ?_
  exact Cert.Lib.column_sum _ _ _ _ c

/-- The second statistics body, row 1. -/
theorem k2_pay2_row1 (v3 : Vec Ideal S5000x144 .f32) (v10 : Vec Ideal S2x144 .f32) (c : Fin 144) :
    k2_pay2 (F := Ideal) v3 v10 (ix2 (1 : Fin 2) c) = v10 (ix2 (1 : Fin 2) c) + ∑ p : Fin 5000, v3 (ix2 p c) * v3 (ix2 p c) := by
  unfold k2_pay2
  refine (addf_apply _ _ _).trans ?_
  rw [shapeCast_self, shapeCast_self]
  refine congrArg (v10 (ix2 (1 : Fin 2) c) + ·) ?_
  refine (stack_row1 _ _ _ c).trans ?_
  refine (shapeCast_a_1a_apply _ _ (0 : Fin 1) c).trans ?_
  refine (Cert.Lib.column_sum _ _ _ _ c).trans ?_
  exact Finset.sum_congr rfl fun p _ => mulf_apply _ _ _

/-- A tile scaled by a row, shifted by a row and clipped to [0, 6], at one entry. -/
theorem clip_tile (x : FVec Ideal S5000x144 .f32) (s t : FVec Ideal S1x144 .f32) (h : S1x144.Broadcasts S5000x144) (p : Fin 5000) (q : Fin 144) :
    minimumf (broadcast S5000x144 (Scalar.ofBits (F := Ideal) .f32 0x40C00000#32))
      (maximumf (broadcast S5000x144 (Scalar.ofBits (F := Ideal) .f32 0x00000000#32))
        (addf (mulf x (broadcastTo S5000x144 s h)) (broadcastTo S5000x144 t h))) (ix2 p q)
      = clipAffine (x (ix2 p q)) (s (ix2 (0 : Fin 1) q)) (t (ix2 (0 : Fin 1) q)) := by
  refine (minimumf_apply _ _ _).trans ?_
  refine congrArg (min _) ?_
  refine (maximumf_apply _ _ _).trans ?_
  refine congrArg (max _) ?_
  refine (addf_apply _ _ _).trans ?_
  rw [mulf_apply, broadcastTo_1b_ab_apply s h p q, broadcastTo_1b_ab_apply t h p q]

/-- The projected tile: scaled, shifted, clipped, then multiplied by the weight matrix, at one entry. -/
def proj (v3 v5 : Vec Ideal S1x144 .f32) (v7 : Vec Ideal S5000x144 .f32) (v18 : Vec Ideal S144x24 .f32) (p : Fin 5000) (c : Fin 24) : EReal :=
  ∑ q : Fin 144, clipAffine (v7 (ix2 p q)) (v3 (ix2 (0 : Fin 1) q)) (v5 (ix2 (0 : Fin 1) q)) * v18 (ix2 q c)

/-- The third statistics body, row 0. -/
theorem k3_pay2_row0 (v3 v5 : Vec Ideal S1x144 .f32) (v7 : Vec Ideal S5000x144 .f32) (v18 : Vec Ideal S144x24 .f32) (v26 : Vec Ideal S2x24 .f32) (c : Fin 24) :
    k3_pay2 (F := Ideal) v3 v5 v7 v18 v26 (ix2 (0 : Fin 2) c) = v26 (ix2 (0 : Fin 2) c) + ∑ p : Fin 5000, proj v3 v5 v7 v18 p c := by
  unfold k3_pay2
  refine (addf_apply _ _ _).trans ?_
  rw [shapeCast_self, shapeCast_self, shapeCast_self, shapeCast_self]
  refine congrArg (v26 (ix2 (0 : Fin 2) c) + ·) ?_
  refine (stack_row0 _ _ _ c).trans ?_
  refine (shapeCast_a_1a_apply _ _ (0 : Fin 1) c).trans ?_
  refine (Cert.Lib.column_sum _ _ _ _ c).trans ?_
  refine Finset.sum_congr rfl fun p _ => ?_
  refine (Cert.PlainDot.matmul_zero_apply plain3 none _ _ p c).trans ?_
  refine Finset.sum_congr rfl fun q _ => ?_
  exact congrArg (· * v18 (ix2 q c)) (clip_tile v7 v3 v5 _ p q)

/-- The third statistics body, row 1. -/
theorem k3_pay2_row1 (v3 v5 : Vec Ideal S1x144 .f32) (v7 : Vec Ideal S5000x144 .f32) (v18 : Vec Ideal S144x24 .f32) (v26 : Vec Ideal S2x24 .f32) (c : Fin 24) :
    k3_pay2 (F := Ideal) v3 v5 v7 v18 v26 (ix2 (1 : Fin 2) c) = v26 (ix2 (1 : Fin 2) c) + ∑ p : Fin 5000, proj v3 v5 v7 v18 p c * proj v3 v5 v7 v18 p c := by
  unfold k3_pay2
  refine (addf_apply _ _ _).trans ?_
  rw [shapeCast_self, shapeCast_self, shapeCast_self, shapeCast_self]
  refine congrArg (v26 (ix2 (1 : Fin 2) c) + ·) ?_
  refine (stack_row1 _ _ _ c).trans ?_
  refine (shapeCast_a_1a_apply _ _ (0 : Fin 1) c).trans ?_
  refine (Cert.Lib.column_sum _ _ _ _ c).trans ?_
  refine Finset.sum_congr rfl fun p _ => ?_
  refine (mulf_apply _ _ _).trans ?_
  have e : ∀ c', matmul dot_S5000x144_S144x24_S5000x24_1_0_0_1_n_n none
      (truncf .bf16 (minimumf (broadcast S5000x144 (Scalar.ofBits (F := Ideal) .f32 0x40C00000#32))
        (maximumf (broadcast S5000x144 (Scalar.ofBits (F := Ideal) .f32 0x00000000#32))
          (addf (mulf v7 (broadcastTo S5000x144 v3 broadcasts_S1x144_S5000x144)) (broadcastTo S5000x144 v5 broadcasts_S1x144_S5000x144)))) bitsLt_bf16_f32)
      (truncf .bf16 v18 bitsLt_bf16_f32) (constant S5000x24 .f32 0x00000000#32) (ix2 p c') = proj v3 v5 v7 v18 p c' := fun c' => by
    refine (Cert.PlainDot.matmul_zero_apply plain3 none _ _ p c').trans ?_
    refine Finset.sum_congr rfl fun q _ => ?_
    exact congrArg (· * v18 (ix2 q c')) (clip_tile v7 v3 v5 _ p q)
  rw [e c]

end Cert.KernelIdeal.KPay

end
-- ==== Proof.KReg2.lean ====
/-
  The second statistics call: what its 2×144 output array holds after the call.

  As in the first statistics call the output block never moves; the first point resets it and every point adds the
  column sums (row 0) and column sums of squares (row 1) of its 5000-row tile of the input array.  After the last
  point row 0 is the column sum of the input over all 100000 rows and row 1 the column sum of its squares.
-/
import proofs.«119352_j15083925143721_1_alg».proof.Proof.Gen.KernelIdeal.Frame
import proofs.«119352_j15083925143721_1_alg».proof.Proof.KPay2
import proofs.«119352_j15083925143721_1_alg».proof.Proof.KReg0

noncomputable section

namespace Cert.KernelIdeal.KReg2

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KPay
open Cert.KernelIdeal.KReg0 (chain_sum hz)

variable (V : (c : Dev nD) → (b : Ref sig .tc) → Buf (Elt Ideal) ((c : Thread nD τ).loc b))

/-- A later point leaves the accumulator plus the tile's statistics. -/
theorem out_B (c : Dev nD) (i : grid2.Coords) (a1 : Memref sig .tc .vmem S5000x144 .f32) (h1 : a1.IsWhole)
    (a2 : Memref sig .tc .vmem S2x144 .f32) (h2 : a2.IsWhole)
    (hc : ¬cond2_0 i) (x0 : Vec Ideal S5000x144 .f32) (xo : Vec Ideal S2x144 .f32) :
    out2_B_1 (F := Ideal) c i a1 h1 a2 h2 hc x0 xo = k2_pay2 x0 xo := by
  unfold out2_B_1
  rw [View.read_writes_eq_canon _ _ _ (cover2_B_1 c i a1 h1 a2 h2 hc x0 xo)]
  unfold kernelRun2_B
  dsimp only
  rw [View.canon_unit_zero hz]
  simp only [View.readAt_eq_ld, h1.read_unread, h2.read_unread, View.ld_unit_zero (S := S5000x144) hz,
    View.ld_unit_zero (S := S2x144) hz]

/-- The first point stores zeros, reads them back, and leaves zero plus the tile's statistics. -/
theorem out_A (c : Dev nD) (i : grid2.Coords) (a1 : Memref sig .tc .vmem S5000x144 .f32) (h1 : a1.IsWhole)
    (a2 : Memref sig .tc .vmem S2x144 .f32) (h2 : a2.IsWhole)
    (hc : cond2_0 i) (x0 : Vec Ideal S5000x144 .f32) :
    out2_A_1 (F := Ideal) c i a1 h1 a2 h2 hc x0 = k2_pay2 x0 (k2_pay1 (F := Ideal)) := by
  unfold out2_A_1
  rw [View.read_writes_eq_canon _ _ _ (cover2_A_1 c i a1 h1 a2 h2 hc x0)]
  unfold kernelRun2_A
  dsimp only
  sl_unfold_words
  rw [View.canon_cons_unit_zero (S := S2x144) hz, View.readCov_unit_zero (S := S2x144) _ hz]
  simp only [View.readAt_eq_ld, h1.read_unread, View.ld_unit_zero (S := S5000x144) hz, View.ld_unit_zero (S := S2x144) hz]

/-- The input array as the call finds it, and its block at a grid point. -/
abbrev inp (c : Dev nD) : FVec Ideal S100000x144 .f32 := V c main_v46
abbrev tile0 (c : Dev nD) (t : Fin cfg2.N) : Vec Ideal S5000x144 .f32 := iblk2 V c 0 t

/-- The accumulator after point n, as the bodies' arithmetic nests it. -/
def acc (c : Dev nD) : (n : ℕ) → n < cfg2.N → Vec Ideal S2x144 .f32
  | 0, h => k2_pay2 (tile0 V c ⟨0, h⟩) (k2_pay1 (F := Ideal))
  | n + 1, h => k2_pay2 (tile0 V c ⟨n + 1, h⟩) (acc c n (Nat.lt_of_succ_lt h))

/-- What the output's buffer holds after point n is that nest, by induction on the point. -/
theorem outsAt_eq (c : Dev nD) : ∀ (n : ℕ) (h : n < cfg2.N), outsAt2 V c n h = acc V c n h
  | 0, h => (outsAt2_A V c ⟨0, h⟩ rfl).trans (out_A ..)
  | n + 1, h => by
    have hN : cfg2.N = 20 := N_2
    have hB : ¬(⟨n + 1, h⟩ : Fin cfg2.N).val % 20 = 0 := by dsimp only; omega
    rw [outsAt2_B V c ⟨n + 1, h⟩ hB, out_B]
    show k2_pay2 _ (outsAt2 V c n _) = k2_pay2 _ (acc V c n _)
    rw [outsAt_eq c n]

/-- The input window's row block follows the grid point. -/
theorem idx0 : ∀ t : Fin cfg2.N, win2_0.index t 0 = t.val ∧ win2_0.index t 1 = 0 :=
  (by decide +kernel : ∀ t : Fin grid2.N, win2_0.index t 0 = t.val ∧ win2_0.index t 1 = 0)

/-- Tile t of the input is rows 5000·t … 5000·t + 4999 of the array. -/
theorem blk0_apply (c : Dev nD) (t : Fin cfg2.N) (r : Fin 5000) (q : Fin 144) (k : Fin 100000) (hk : k.val = 5000 * t.val + r.val) :
    tile0 V c t (ix2 r q) = inp V c (ix2 k q) := by
  unfold tile0 inp iblk2
  rw [View.read_apply]
  show (V c main_v46 : FVec Ideal S100000x144 .f32) _ = (V c main_v46 : FVec Ideal S100000x144 .f32) _
  refine congrArg (V c main_v46 : FVec Ideal S100000x144 .f32) (funext fun a => Fin.ext ?_)
  match a with
  | ⟨0, _⟩ => show win2_0.index t 0 * 5000 + 1 * r.val = k.val; rw [(idx0 t).1, hk]; omega
  | ⟨1, _⟩ => show win2_0.index t 1 * 144 + 1 * q.val = q.val; rw [(idx0 t).2]; omega

/-- The input's entry at a position that may fall outside the array (then zero). -/
def inpN (c : Dev nD) (l : Fin 144) (k : ℕ) : EReal := if hk : k < 100000 then inp V c (ix2 ⟨k, hk⟩ l) else 0

theorem tile_entry (c : Dev nD) (t : Fin cfg2.N) (r : Fin 5000) (l : Fin 144) :
    tile0 V c t (ix2 r l) = inpN V c l (5000 * t.val + r.val) := by
  have hN : cfg2.N = 20 := N_2
  have ht : t.val < 20 := hN ▸ t.isLt
  have hk : 5000 * t.val + r.val < 100000 := by have := r.isLt; omega
  unfold inpN
  rw [dif_pos hk]
  exact blk0_apply V c t r l ⟨_, hk⟩ rfl

theorem zero_entry (j : S2x144.Idx) : (k2_pay1 (F := Ideal)) j = 0 := Ideal.ofBits_zero_f32

/-- Row 0 after point n: zero plus the tiles' column sums so far. -/
theorem acc_row0 (c : Dev nD) (l : Fin 144) : ∀ (n : ℕ) (h : n < cfg2.N),
    acc V c n h (ix2 (0 : Fin 2) l) = 0 + ∑ s ∈ Finset.range (n + 1), ∑ r : Fin 5000, inpN V c l (5000 * s + r.val) :=
  chain_sum (fun n h => acc V c n h (ix2 (0 : Fin 2) l)) (fun s => ∑ r : Fin 5000, inpN V c l (5000 * s + r.val))
    (fun h => by
      show k2_pay2 _ _ (ix2 (0 : Fin 2) l) = _
      rw [k2_pay2_row0, zero_entry]
      exact congrArg (0 + ·) (Finset.sum_congr rfl fun r _ => tile_entry V c ⟨0, h⟩ r l))
    (fun n h => by
      show k2_pay2 _ _ (ix2 (0 : Fin 2) l) = _
      rw [k2_pay2_row0]
      exact congrArg (acc V c n _ (ix2 (0 : Fin 2) l) + ·) (Finset.sum_congr rfl fun r _ => tile_entry V c ⟨n + 1, h⟩ r l))

/-- Row 1 after point n: zero plus the tiles' column sums of squares so far. -/
theorem acc_row1 (c : Dev nD) (l : Fin 144) : ∀ (n : ℕ) (h : n < cfg2.N),
    acc V c n h (ix2 (1 : Fin 2) l) = 0 + ∑ s ∈ Finset.range (n + 1), ∑ r : Fin 5000, inpN V c l (5000 * s + r.val) * inpN V c l (5000 * s + r.val) :=
  chain_sum (fun n h => acc V c n h (ix2 (1 : Fin 2) l)) (fun s => ∑ r : Fin 5000, inpN V c l (5000 * s + r.val) * inpN V c l (5000 * s + r.val))
    (fun h => by
      show k2_pay2 _ _ (ix2 (1 : Fin 2) l) = _
      rw [k2_pay2_row1, zero_entry]
      exact congrArg (0 + ·) (Finset.sum_congr rfl fun r _ => by rw [tile_entry V c ⟨0, h⟩ r l]))
    (fun n h => by
      show k2_pay2 _ _ (ix2 (1 : Fin 2) l) = _
      rw [k2_pay2_row1]
      exact congrArg (acc V c n _ (ix2 (1 : Fin 2) l) + ·) (Finset.sum_congr rfl fun r _ => by rw [tile_entry V c ⟨n + 1, h⟩ r l]))

theorem lt19 : 19 < cfg2.N := by rw [show cfg2.N = 20 from N_2]; decide

/-- The statistics of the input: what the call leaves in its output array. -/
abbrev stats (c : Dev nD) : Vec Ideal S2x144 .f32 := acc V c 19 lt19

/-- Row 0 is the column sum of the input over all rows; row 1 the column sum of its squares. -/
theorem stats_row0 (c : Dev nD) (l : Fin 144) : stats V c (ix2 (0 : Fin 2) l) = ∑ n : Fin 100000, inp V c (ix2 n l) :=
  (acc_row0 V c l 19 lt19).trans (Cert.BlockSum.sum_20x5000 (fun n => inp V c (ix2 n l)) (inpN V c l) fun n => by
    unfold inpN; rw [dif_pos n.isLt])
theorem stats_row1 (c : Dev nD) (l : Fin 144) : stats V c (ix2 (1 : Fin 2) l) = ∑ n : Fin 100000, inp V c (ix2 n l) * inp V c (ix2 n l) :=
  (acc_row1 V c l 19 lt19).trans (Cert.BlockSum.sum_20x5000 (fun n => inp V c (ix2 n l) * inp V c (ix2 n l)) (fun k => inpN V c l k * inpN V c l k) fun n => by
    unfold inpN; rw [dif_pos n.isLt])

/-- The last point. -/
abbrev tl : Fin cfg2.N := ⟨19, lt19⟩

/-- The one write-back, at the last point, writes the accumulator: the block is the whole 2×144 array. -/
theorem flushed_eq (c : Dev nD) (t : Fin cfg2.N) (hf : (cfg2.win 1).flush t = true) :
    (dat2 V c).flushed 1 t = ((cfg2.win 1).blk t).view.read (Elt Ideal) (stats V c) := by
  have hN : cfg2.N = 20 := N_2
  have h19 : t.val = 19 := by have := (flush2_1 t).mp hf; have := t.isLt; omega
  obtain rfl : t = tl := Fin.ext h19
  show (cfg2.win 1).cut (grid2.coords tl) ((dat2 V c).after 1 tl) = _
  rw [after2_1, outsAt_eq]
  have hz' : (fun a => win2_1.index tl a * main_v47.ty.shape.size a) = fun _ => 0 := funext fun a => by fin_cases a <;> decide +kernel
  exact (Memref.read_access_unit_zero (Elt Ideal) main_v47 hz' (fun a => by rw [congrFun hz' a]; simp) (stats V c)).symm

/-- So the output array ends at the accumulator after the last point. -/
theorem final2 (c : Dev nD) : (dat2 V c).arrAt 1 cfg2.N = stats V c :=
  (dat2 V c).arrAt_eq_of_cover 1 (stats V c) (flushed_eq V c) fun i =>
    ⟨tl, (flush2_1 tl).mpr rfl, by
      show i ∈ ((View.whole main_v47).slice (win2_1.rect tl)).set
      rw [View.set_slice_whole, Rect.mem_set_unit]
      intro a
      have h0 : (i 0 : Nat) < 2 := (i 0).isLt
      have h1 : (i 1 : Nat) < 144 := (i 1).isLt
      match a with
      | ⟨0, _⟩ =>
        show win2_1.index tl 0 * win2_1.size 0 ≤ (i 0 : Nat) ∧ (i 0 : Nat) < win2_1.index tl 0 * win2_1.size 0 + win2_1.xsize (grid2.coords tl) 0
        rw [show win2_1.index tl 0 * win2_1.size 0 = 0 from by decide +kernel, show win2_1.xsize (grid2.coords tl) 0 = 2 from by decide +kernel]; omega
      | ⟨1, _⟩ =>
        show win2_1.index tl 1 * win2_1.size 1 ≤ (i 1 : Nat) ∧ (i 1 : Nat) < win2_1.index tl 1 * win2_1.size 1 + win2_1.xsize (grid2.coords tl) 1
        rw [show win2_1.index tl 1 * win2_1.size 1 = 0 from by decide +kernel, show win2_1.xsize (grid2.coords tl) 1 = 144 from by decide +kernel]; omega⟩

end Cert.KernelIdeal.KReg2

end
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.KReg3.lean ====
/-
  The third statistics call: what its 2×24 output array holds after the call.

  Every point scales and shifts its 5000-row tile of the input column by column (the two rows of a 2×144 array hold
  the scales and the shifts), clips it to [0, 6], multiplies it by the 144×24 weight matrix, and adds the column sums
  (row 0) and column sums of squares (row 1) of that product to the accumulator, which the first point resets.  After
  the last point row 0 is the column sum of the projected array over all 100000 rows and row 1 that of its squares.
-/
import proofs.«119352_j15083925143721_1_alg».proof.Proof.Gen.KernelIdeal.Frame
import proofs.«119352_j15083925143721_1_alg».proof.Proof.KPay2
import proofs.«119352_j15083925143721_1_alg».proof.Proof.KReg0
import proofs.«119352_j15083925143721_1_alg».proof.Proof.LibLoadAt

noncomputable section

namespace Cert.KernelIdeal.KReg3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.KPay
open Cert.KernelIdeal.KReg0 (chain_sum hz)

variable (V : (c : Dev nD) → (b : Ref sig .tc) → Buf (Elt Ideal) ((c : Thread nD τ).loc b))

/-- The two rows of a 2×144 array as the body loads them. -/
abbrev row0 (x : Vec Ideal S2x144 .f32) : Vec Ideal S1x144 .f32 := View.ld x (Rect.unit (s := S2x144) ![0, 0] ![1, 144] inb_S2x144_S1x144_0_0)
abbrev row1 (x : Vec Ideal S2x144 .f32) : Vec Ideal S1x144 .f32 := View.ld x (Rect.unit (s := S2x144) ![1, 0] ![1, 144] inb_S2x144_S1x144_1_0)
theorem row0_apply (x : Vec Ideal S2x144 .f32) (q : Fin 144) : row0 x (ix2 (0 : Fin 1) q) = x (ix2 (0 : Fin 2) q) :=
  Cert.LoadAt.ld_unit2 x inb_S2x144_S1x144_0_0 (0 : Fin 1) q (0 : Fin 2) q rfl (Nat.zero_add _).symm
theorem row1_apply (x : Vec Ideal S2x144 .f32) (q : Fin 144) : row1 x (ix2 (0 : Fin 1) q) = x (ix2 (1 : Fin 2) q) :=
  Cert.LoadAt.ld_unit2 x inb_S2x144_S1x144_1_0 (0 : Fin 1) q (1 : Fin 2) q rfl (Nat.zero_add _).symm

/-- A later point leaves the accumulator plus the projected tile's statistics. -/
theorem out_B (c : Dev nD) (i : grid3.Coords) (a1 : Memref sig .tc .vmem S5000x144 .f32) (h1 : a1.IsWhole)
    (a2 : Memref sig .tc .vmem S2x144 .f32) (h2 : a2.IsWhole) (a3 : Memref sig .tc .vmem S144x24 .f32) (h3 : a3.IsWhole)
    (a4 : Memref sig .tc .vmem S2x24 .f32) (h4 : a4.IsWhole)
    (hc : ¬cond3_0 i) (x0 : Vec Ideal S5000x144 .f32) (x1 : Vec Ideal S2x144 .f32) (x2 : Vec Ideal S144x24 .f32) (xo : Vec Ideal S2x24 .f32) :
    out3_B_3 (F := Ideal) c i a1 h1 a2 h2 a3 h3 a4 h4 hc x0 x1 x2 xo = k3_pay2 (row0 x1) (row1 x1) x0 x2 xo := by
  unfold out3_B_3
  rw [View.read_writes_eq_canon _ _ _ (cover3_B_3 c i a1 h1 a2 h2 a3 h3 a4 h4 hc x0 x1 x2 xo)]
  unfold kernelRun3_B
  dsimp only
  rw [View.canon_unit_zero hz]
  simp only [View.readAt_eq_ld, h1.read_unread, h2.read_unread, h3.read_unread, h4.read_unread, View.ld_unit_zero (S := S5000x144) hz,
    View.ld_unit_zero (S := S144x24) hz, View.ld_unit_zero (S := S2x24) hz]

/-- The first point stores zeros, reads them back, and leaves zero plus the projected tile's statistics. -/
theorem out_A (c : Dev nD) (i : grid3.Coords) (a1 : Memref sig .tc .vmem S5000x144 .f32) (h1 : a1.IsWhole)
    (a2 : Memref sig .tc .vmem S2x144 .f32) (h2 : a2.IsWhole) (a3 : Memref sig .tc .vmem S144x24 .f32) (h3 : a3.IsWhole)
    (a4 : Memref sig .tc .vmem S2x24 .f32) (h4 : a4.IsWhole)
    (hc : cond3_0 i) (x0 : Vec Ideal S5000x144 .f32) (x1 : Vec Ideal S2x144 .f32) (x2 : Vec Ideal S144x24 .f32) :
    out3_A_3 (F := Ideal) c i a1 h1 a2 h2 a3 h3 a4 h4 hc x0 x1 x2 = k3_pay2 (row0 x1) (row1 x1) x0 x2 (k3_pay1 (F := Ideal)) := by
  unfold out3_A_3
  rw [View.read_writes_eq_canon _ _ _ (cover3_A_3 c i a1 h1 a2 h2 a3 h3 a4 h4 hc x0 x1 x2)]
  unfold kernelRun3_A
  dsimp only
  sl_unfold_words
  rw [View.canon_cons_unit_zero (S := S2x24) hz, View.readCov_unit_zero (S := S2x24) _ hz]
  simp only [View.readAt_eq_ld, h1.read_unread, h2.read_unread, h3.read_unread, View.ld_unit_zero (S := S5000x144) hz,
    View.ld_unit_zero (S := S144x24) hz, View.ld_unit_zero (S := S2x24) hz]

/-- The three input arrays as the call finds them, and their blocks at a grid point. -/
abbrev inp (c : Dev nD) : FVec Ideal S100000x144 .f32 := V c main_v46
abbrev ssA (c : Dev nD) : FVec Ideal S2x144 .f32 := V c main_v66
abbrev wts (c : Dev nD) : FVec Ideal S144x24 .f32 := V c main_arg7
abbrev tile0 (c : Dev nD) (t : Fin cfg3.N) : Vec Ideal S5000x144 .f32 := iblk3 V c 0 t
abbrev tile1 (c : Dev nD) (t : Fin cfg3.N) : Vec Ideal S2x144 .f32 := iblk3 V c 1 t
abbrev tile2 (c : Dev nD) (t : Fin cfg3.N) : Vec Ideal S144x24 .f32 := iblk3 V c 2 t

/-- The accumulator after point n, as the bodies' arithmetic nests it. -/
def acc (c : Dev nD) : (n : ℕ) → n < cfg3.N → Vec Ideal S2x24 .f32
  | 0, h => k3_pay2 (row0 (tile1 V c ⟨0, h⟩)) (row1 (tile1 V c ⟨0, h⟩)) (tile0 V c ⟨0, h⟩) (tile2 V c ⟨0, h⟩) (k3_pay1 (F := Ideal))
  | n + 1, h => k3_pay2 (row0 (tile1 V c ⟨n + 1, h⟩)) (row1 (tile1 V c ⟨n + 1, h⟩)) (tile0 V c ⟨n + 1, h⟩) (tile2 V c ⟨n + 1, h⟩) (acc c n (Nat.lt_of_succ_lt h))

/-- What the output's buffer holds after point n is that nest, by induction on the point. -/
theorem outsAt_eq (c : Dev nD) : ∀ (n : ℕ) (h : n < cfg3.N), outsAt3 V c n h = acc V c n h
  | 0, h => (outsAt3_A V c ⟨0, h⟩ rfl).trans (out_A ..)
  | n + 1, h => by
    have hN : cfg3.N = 20 := N_3
    have hB : ¬(⟨n + 1, h⟩ : Fin cfg3.N).val % 20 = 0 := by dsimp only; omega
    rw [outsAt3_B V c ⟨n + 1, h⟩ hB, out_B]
    show k3_pay2 _ _ _ _ (outsAt3 V c n _) = k3_pay2 _ _ _ _ (acc V c n _)
    rw [outsAt_eq c n]

/-- The index maps: the input's row block follows the grid point; the other two windows never move. -/
theorem idx0 : ∀ t : Fin cfg3.N, win3_0.index t 0 = t.val ∧ win3_0.index t 1 = 0 :=
  (by decide +kernel : ∀ t : Fin grid3.N, win3_0.index t 0 = t.val ∧ win3_0.index t 1 = 0)
theorem idx1 : ∀ t : Fin cfg3.N, win3_1.index t 0 = 0 ∧ win3_1.index t 1 = 0 :=
  (by decide +kernel : ∀ t : Fin grid3.N, win3_1.index t 0 = 0 ∧ win3_1.index t 1 = 0)
theorem idx2 : ∀ t : Fin cfg3.N, win3_2.index t 0 = 0 ∧ win3_2.index t 1 = 0 :=
  (by decide +kernel : ∀ t : Fin grid3.N, win3_2.index t 0 = 0 ∧ win3_2.index t 1 = 0)

/-- Tile t of the input is rows 5000·t … 5000·t + 4999 of the array. -/
theorem blk0_apply (c : Dev nD) (t : Fin cfg3.N) (r : Fin 5000) (q : Fin 144) (k : Fin 100000) (hk : k.val = 5000 * t.val + r.val) :
    tile0 V c t (ix2 r q) = inp V c (ix2 k q) := by
  unfold tile0 inp iblk3
  rw [View.read_apply]
  show (V c main_v46 : FVec Ideal S100000x144 .f32) _ = (V c main_v46 : FVec Ideal S100000x144 .f32) _
  refine congrArg (V c main_v46 : FVec Ideal S100000x144 .f32) (funext fun a => Fin.ext ?_)
  match a with
  | ⟨0, _⟩ => show win3_0.index t 0 * 5000 + 1 * r.val = k.val; rw [(idx0 t).1, hk]; omega
  | ⟨1, _⟩ => show win3_0.index t 1 * 144 + 1 * q.val = q.val; rw [(idx0 t).2]; omega

/-- The scale-and-shift block is the whole 2×144 array at every point. -/
theorem blk1_apply (c : Dev nD) (t : Fin cfg3.N) (r : Fin 2) (q : Fin 144) :
    tile1 V c t (ix2 r q) = ssA V c (ix2 r q) := by
  unfold tile1 ssA iblk3
  rw [View.read_apply]
  show (V c main_v66 : FVec Ideal S2x144 .f32) _ = (V c main_v66 : FVec Ideal S2x144 .f32) _
  refine congrArg (V c main_v66 : FVec Ideal S2x144 .f32) (funext fun a => Fin.ext ?_)
  match a with
  | ⟨0, _⟩ => show win3_1.index t 0 * 2 + 1 * r.val = r.val; rw [(idx1 t).1]; omega
  | ⟨1, _⟩ => show win3_1.index t 1 * 144 + 1 * q.val = q.val; rw [(idx1 t).2]; omega

/-- The weights' block is the whole array at every point. -/
theorem blk2_apply (c : Dev nD) (t : Fin cfg3.N) (q : Fin 144) (l : Fin 24) :
    tile2 V c t (ix2 q l) = wts V c (ix2 q l) := by
  unfold tile2 wts iblk3
  rw [View.read_apply]
  show (V c main_arg7 : FVec Ideal S144x24 .f32) _ = (V c main_arg7 : FVec Ideal S144x24 .f32) _
  refine congrArg (V c main_arg7 : FVec Ideal S144x24 .f32) (funext fun a => Fin.ext ?_)
  match a with
  | ⟨0, _⟩ => show win3_2.index t 0 * 144 + 1 * q.val = q.val; rw [(idx2 t).1]; omega
  | ⟨1, _⟩ => show win3_2.index t 1 * 24 + 1 * l.val = l.val; rw [(idx2 t).2]; omega

/-- Entry (n, l) of the projected array: the input row scaled, shifted and clipped, times the weights' column. -/
def pr (c : Dev nD) (n : Fin 100000) (l : Fin 24) : EReal :=
  ∑ q : Fin 144, clipAffine (inp V c (ix2 n q)) (ssA V c (ix2 (0 : Fin 2) q)) (ssA V c (ix2 (1 : Fin 2) q)) * wts V c (ix2 q l)

/-- The same at a position that may fall outside the array (then zero). -/
def prN (c : Dev nD) (l : Fin 24) (k : ℕ) : EReal := if hk : k < 100000 then pr V c ⟨k, hk⟩ l else 0

/-- A tile's projected entry is the array's projected entry at the tile's row. -/
theorem tile_proj (c : Dev nD) (t : Fin cfg3.N) (r : Fin 5000) (l : Fin 24) :
    proj (row0 (tile1 V c t)) (row1 (tile1 V c t)) (tile0 V c t) (tile2 V c t) r l = prN V c l (5000 * t.val + r.val) := by
  have hN : cfg3.N = 20 := N_3
  have ht : t.val < 20 := hN ▸ t.isLt
  have hk : 5000 * t.val + r.val < 100000 := by have := r.isLt; omega
  unfold prN
  rw [dif_pos hk]
  unfold pr proj
  exact Finset.sum_congr rfl fun q _ => by
    rw [blk0_apply V c t r q ⟨_, hk⟩ rfl, row0_apply, row1_apply, blk1_apply V c t 0 q, blk1_apply V c t 1 q, blk2_apply V c t q l]

theorem zero_entry (j : S2x24.Idx) : (k3_pay1 (F := Ideal)) j = 0 := Ideal.ofBits_zero_f32

/-- Row 0 after point n: zero plus the tiles' column sums so far. -/
theorem acc_row0 (c : Dev nD) (l : Fin 24) : ∀ (n : ℕ) (h : n < cfg3.N),
    acc V c n h (ix2 (0 : Fin 2) l) = 0 + ∑ s ∈ Finset.range (n + 1), ∑ r : Fin 5000, prN V c l (5000 * s + r.val) :=
  chain_sum (fun n h => acc V c n h (ix2 (0 : Fin 2) l)) (fun s => ∑ r : Fin 5000, prN V c l (5000 * s + r.val))
    (fun h => by
      show k3_pay2 _ _ _ _ _ (ix2 (0 : Fin 2) l) = _
      rw [k3_pay2_row0, zero_entry]
      exact congrArg (0 + ·) (Finset.sum_congr rfl fun r _ => tile_proj V c ⟨0, h⟩ r l))
    (fun n h => by
      show k3_pay2 _ _ _ _ _ (ix2 (0 : Fin 2) l) = _
      rw [k3_pay2_row0]
      exact congrArg (acc V c n _ (ix2 (0 : Fin 2) l) + ·) (Finset.sum_congr rfl fun r _ => tile_proj V c ⟨n + 1, h⟩ r l))

/-- Row 1 after point n: zero plus the tiles' column sums of squares so far. -/
theorem acc_row1 (c : Dev nD) (l : Fin 24) : ∀ (n : ℕ) (h : n < cfg3.N),
    acc V c n h (ix2 (1 : Fin 2) l) = 0 + ∑ s ∈ Finset.range (n + 1), ∑ r : Fin 5000, prN V c l (5000 * s + r.val) * prN V c l (5000 * s + r.val) :=
  chain_sum (fun n h => acc V c n h (ix2 (1 : Fin 2) l)) (fun s => ∑ r : Fin 5000, prN V c l (5000 * s + r.val) * prN V c l (5000 * s + r.val))
    (fun h => by
      show k3_pay2 _ _ _ _ _ (ix2 (1 : Fin 2) l) = _
      rw [k3_pay2_row1, zero_entry]
      exact congrArg (0 + ·) (Finset.sum_congr rfl fun r _ => by rw [tile_proj V c ⟨0, h⟩ r l]))
    (fun n h => by
      show k3_pay2 _ _ _ _ _ (ix2 (1 : Fin 2) l) = _
      rw [k3_pay2_row1]
      exact congrArg (acc V c n _ (ix2 (1 : Fin 2) l) + ·) (Finset.sum_congr rfl fun r _ => by rw [tile_proj V c ⟨n + 1, h⟩ r l]))

theorem lt19 : 19 < cfg3.N := by rw [show cfg3.N = 20 from N_3]; decide

/-- The statistics of the projected array: what the call leaves in its output array. -/
abbrev stats (c : Dev nD) : Vec Ideal S2x24 .f32 := acc V c 19 lt19

/-- Row 0 is the column sum of the projected array over all rows; row 1 the column sum of its squares. -/
theorem stats_row0 (c : Dev nD) (l : Fin 24) : stats V c (ix2 (0 : Fin 2) l) = ∑ n : Fin 100000, pr V c n l :=
  (acc_row0 V c l 19 lt19).trans (Cert.BlockSum.sum_20x5000 (fun n => pr V c n l) (prN V c l) fun n => by
    unfold prN; rw [dif_pos n.isLt])
theorem stats_row1 (c : Dev nD) (l : Fin 24) : stats V c (ix2 (1 : Fin 2) l) = ∑ n : Fin 100000, pr V c n l * pr V c n l :=
  (acc_row1 V c l 19 lt19).trans (Cert.BlockSum.sum_20x5000 (fun n => pr V c n l * pr V c n l) (fun k => prN V c l k * prN V c l k) fun n => by
    unfold prN; rw [dif_pos n.isLt])

/-- The last point. -/
abbrev tl : Fin cfg3.N := ⟨19, lt19⟩

/-- The one write-back, at the last point, writes the accumulator: the block is the whole 2×24 array. -/
theorem flushed_eq (c : Dev nD) (t : Fin cfg3.N) (hf : (cfg3.win 3).flush t = true) :
    (dat3 V c).flushed 3 t = ((cfg3.win 3).blk t).view.read (Elt Ideal) (stats V c) := by
  have hN : cfg3.N = 20 := N_3
  have h19 : t.val = 19 := by have := (flush3_3 t).mp hf; have := t.isLt; omega
  obtain rfl : t = tl := Fin.ext h19
  show (cfg3.win 3).cut (grid3.coords tl) ((dat3 V c).after 3 tl) = _
  rw [after3_3, outsAt_eq]
  have hz' : (fun a => win3_3.index tl a * main_v67.ty.shape.size a) = fun _ => 0 := funext fun a => by fin_cases a <;> decide +kernel
  exact (Memref.read_access_unit_zero (Elt Ideal) main_v67 hz' (fun a => by rw [congrFun hz' a]; simp) (stats V c)).symm

/-- So the output array ends at the accumulator after the last point. -/
theorem final3 (c : Dev nD) : (dat3 V c).arrAt 3 cfg3.N = stats V c :=
  (dat3 V c).arrAt_eq_of_cover 3 (stats V c) (flushed_eq V c) fun i =>
    ⟨tl, (flush3_3 tl).mpr rfl, by
      show i ∈ ((View.whole main_v67).slice (win3_3.rect tl)).set
      rw [View.set_slice_whole, Rect.mem_set_unit]
      intro a
      have h0 : (i 0 : Nat) < 2 := (i 0).isLt
      have h1 : (i 1 : Nat) < 24 := (i 1).isLt
      match a with
      | ⟨0, _⟩ =>
        show win3_3.index tl 0 * win3_3.size 0 ≤ (i 0 : Nat) ∧ (i 0 : Nat) < win3_3.index tl 0 * win3_3.size 0 + win3_3.xsize (grid3.coords tl) 0
        rw [show win3_3.index tl 0 * win3_3.size 0 = 0 from by decide +kernel, show win3_3.xsize (grid3.coords tl) 0 = 2 from by decide +kernel]; omega
      | ⟨1, _⟩ =>
        show win3_3.index tl 1 * win3_3.size 1 ≤ (i 1 : Nat) ∧ (i 1 : Nat) < win3_3.index tl 1 * win3_3.size 1 + win3_3.xsize (grid3.coords tl) 1
        rw [show win3_3.index tl 1 * win3_3.size 1 = 0 from by decide +kernel, show win3_3.xsize (grid3.coords tl) 1 = 24 from by decide +kernel]; omega⟩

end Cert.KernelIdeal.KReg3

end
-- ==== Proof.KReg1.lean ====
/-
  The first elementwise call: every row of the 100000×24 input times the 24×144 weight, each column scaled and
  shifted by the two rows of the 2×144 statistics array, clipped to [0, 6].

  The call walks the rows in 20 tiles of 5000. At each tile the body leaves, in the output tile, the value
  `clipAffine (Σ_q f[n, q] · w[q, c]) ss[0, c] ss[1, c]` at every entry; the tiles are disjoint row ranges that
  together cover the array, so after the call the output array holds that one function of the three input arrays.
-/
import proofs.«119352_j15083925143721_1_alg».proof.Proof.Gen.KernelIdeal.Frame
import proofs.«119352_j15083925143721_1_alg».proof.Proof.KPay
import proofs.«119352_j15083925143721_1_alg».proof.Proof.LibLoadAt
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem
open Idealize.ShloMosaic.ValueIdx
open Idealize.ShloMosaic.Pipeline (Dat)
open scoped BigOperators

namespace Cert.KernelIdeal.KReg1

open Cert.KernelIdeal Cert.KernelIdeal.Gen Cert.KernelIdeal.KPay

/-- The zero offsets, however spelt. -/
theorem hz : (![0, 0] : Fin 2 → Nat) = fun _ => 0 := funext fun a => by fin_cases a <;> rfl

/-- The body's stored value at an entry: the row of the tile times the weight column, scaled, shifted and clipped. -/
theorem pay_apply (v0 : Vec Ideal S5000x24 .f32) (v2 : Vec Ideal S24x144 .f32) (v5 v7 : Vec Ideal S1x144 .f32)
    (p : Fin 5000) (c : Fin 144) :
    k1_pay1 (F := Ideal) v0 v2 v5 v7 (ix2 p c)
      = clipAffine (∑ q : Fin 24, v0 (ix2 p q) * v2 (ix2 q c)) (v5 (ix2 (0 : Fin 1) c)) (v7 (ix2 (0 : Fin 1) c)) := by
  unfold k1_pay1 clipAffine
  refine (minimumf_apply _ _ _).trans ?_
  refine congrArg (min _ ·) ?_
  refine (maximumf_apply _ _ _).trans ?_
  refine congrArg (max _ ·) ?_
  refine (addf_apply _ _ _).trans ?_
  refine congrArg₂ (· + ·) ?_ ?_
  · refine (mulf_apply _ _ _).trans ?_
    refine congrArg₂ (· * ·) ?_ ?_
    · exact Cert.PlainDot.matmul_zero_apply plain1 none _ _ p c
    · refine (broadcastTo_1b_ab_apply _ _ p c).trans ?_
      rw [shapeCast_self]
  · refine (broadcastTo_1b_ab_apply _ _ p c).trans ?_
    rw [shapeCast_self]

/-- What the body leaves in the output tile, entry by entry, from the three input blocks. -/
theorem out_apply (x0 : Vec Ideal S5000x24 .f32) (x1 : Vec Ideal S24x144 .f32) (x2 : Vec Ideal S2x144 .f32)
    (p : Fin 5000) (c : Fin 144) :
    out1_3 (F := Ideal) x0 x1 x2 (ix2 p c)
      = clipAffine (∑ q : Fin 24, x0 (ix2 p q) * x1 (ix2 q c)) (x2 (ix2 (0 : Fin 2) c)) (x2 (ix2 (1 : Fin 2) c)) := by
  unfold out1_3
  rw [View.canon_unit_zero hz]
  simp only [View.ld_unit_zero (S := S5000x24) hz, View.ld_unit_zero (S := S24x144) hz]
  refine (pay_apply _ _ _ _ p c).trans ?_
  rw [Cert.LoadAt.ld_unit2 x2 _ (0 : Fin 1) c (0 : Fin 2) c rfl (by simp),
    Cert.LoadAt.ld_unit2 x2 _ (0 : Fin 1) c (1 : Fin 2) c rfl (by simp)]

/-- The whole output array as a function of the three input arrays. -/
def X1 (f : FVec Ideal S100000x24 .f32) (w : FVec Ideal S24x144 .f32) (ss : FVec Ideal S2x144 .f32) :
    FVec Ideal S100000x144 .f32 :=
  fun j => clipAffine (∑ q : Fin 24, f (ix2 (j 0) q) * w (ix2 q (j 1))) (ss (ix2 (0 : Fin 2) (j 1))) (ss (ix2 (1 : Fin 2) (j 1)))

/-- The whole-array function at an entry. -/
theorem X1_apply (f : FVec Ideal S100000x24 .f32) (w : FVec Ideal S24x144 .f32) (ss : FVec Ideal S2x144 .f32)
    (n : Fin 100000) (c : Fin 144) :
    X1 f w ss (ix2 n c) = clipAffine (∑ q : Fin 24, f (ix2 n q) * w (ix2 q c)) (ss (ix2 (0 : Fin 2) c)) (ss (ix2 (1 : Fin 2) c)) := rfl

/-- One entry of a block is the entry of the whole-array function at the array index the block places it at. -/
theorem point_eq (x0 : Vec Ideal S5000x24 .f32) (x1 : Vec Ideal S24x144 .f32) (x2 : Vec Ideal S2x144 .f32)
    (f : FVec Ideal S100000x24 .f32) (w : FVec Ideal S24x144 .f32) (ss : FVec Ideal S2x144 .f32)
    (y : S5000x144.Idx) (i : S100000x144.Idx)
    (h0 : ∀ q : Fin 24, x0 (ix2 (y 0) q) = f (ix2 (i 0) q))
    (h1 : x1 = w) (h2 : x2 = ss) (hc : (i 1).val = (y 1).val) :
    out1_3 (F := Ideal) x0 x1 x2 y = X1 f w ss i := by
  obtain ⟨p, c, rfl⟩ : ∃ (p : Fin 5000) (c : Fin 144), y = ix2 p c := ⟨y 0, y 1, eq_ix2 y⟩
  rw [out_apply]
  subst h1 h2
  have hi : i 1 = c := Fin.ext hc
  unfold X1
  rw [hi]
  refine congrArg (fun s => clipAffine s _ _) ?_
  exact Finset.sum_congr rfl fun q _ => by rw [← h0 q]

variable (V : (c : Dev nD) → (b : Ref sig .tc) → Buf (Elt Ideal) ((c : Thread nD τ).loc b))

/-- The index maps over the 20 tiles: the row-tiled windows sit at block row `t`, the others at block (0, 0). -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What tile `t` writes back is tile `t` of the whole-array function of the input arrays. -/
theorem flushed_eq (c : Dev nD) (t : Fin cfg1.N) :
    (dat1 V c).flushed 3 t
      = ((cfg1.win 3).blk t).view.read (Elt Ideal) (X1 (V c main_arg0) (V c main_arg1) (V c main_v19)) := by
  show (cfg1.win 3).cut (grid1.coords t) ((dat1 V c).after 3 t) = _
  rw [after1_3]
  obtain ⟨e0, e1, e2, e3, e4, e5, e6, e7⟩ := idx_facts t
  funext j
  show out1_3 (iblk1 V c 0 t) (iblk1 V c 1 t) (iblk1 V c 2 t) j
    = X1 (V c main_arg0) (V c main_arg1) (V c main_v19) (((cfg1.win 3).blk t).view.emb j)
  refine point_eq _ _ _ _ _ _ j _ (fun q => ?_) ?_ ?_ ?_
  · show V c main_arg0 (((cfg1.win 0).blk t).view.emb (ix2 (j 0) q)) = V c main_arg0 _
    refine congrArg (V c main_arg0) (funext fun a => Fin.ext ?_)
    match a with
    | ⟨0, _⟩ => show win1_0.index t (0 : Fin 2) * 5000 + 1 * (j 0).val = win1_3.index t (0 : Fin 2) * 5000 + 1 * (j 0).val; rw [e0]
    | ⟨1, _⟩ => show win1_0.index t (1 : Fin 2) * 24 + 1 * q.val = q.val; rw [e1]; omega
  · funext y
    show V c main_arg1 (((cfg1.win 1).blk t).view.emb y) = V c main_arg1 y
    refine congrArg (V c main_arg1) (funext fun a => Fin.ext ?_)
    match a with
    | ⟨0, _⟩ => show win1_1.index t (0 : Fin 2) * 24 + 1 * (y 0).val = (y 0).val; rw [e2]; omega
    | ⟨1, _⟩ => show win1_1.index t (1 : Fin 2) * 144 + 1 * (y 1).val = (y 1).val; rw [e3]; omega
  · funext y
    show V c main_v19 (((cfg1.win 2).blk t).view.emb y) = V c main_v19 y
    refine congrArg (V c main_v19) (funext fun a => Fin.ext ?_)
    match a with
    | ⟨0, _⟩ => show win1_2.index t (0 : Fin 2) * 2 + 1 * (y 0).val = (y 0).val; rw [e4]; omega
    | ⟨1, _⟩ => show win1_2.index t (1 : Fin 2) * 144 + 1 * (y 1).val = (y 1).val; rw [e5]; omega
  · show win1_3.index t (1 : Fin 2) * 144 + 1 * (j 1).val = (j 1).val
    rw [e7]; omega

/-- An index of the array is in tile `t` iff each coordinate is in the tile's range on its axis. -/
theorem mem_blk (t : Fin cfg1.N) (i : S100000x144.Idx) :
    i ∈ ((cfg1.win 3).blk t).view.set ↔ ∀ a : Fin 2, win1_3.index t a * S5000x144.size a ≤ (i a).val ∧ (i a).val < win1_3.index t a * S5000x144.size a + S5000x144.size a := by
  show i ∈ ((View.whole main_v20).slice (win1_3.rect t)).set ↔ _
  rw [View.set_slice_whole, Rect.mem_set_unit]
  exact Iff.rfl

/-- Every index of the output array is in some tile: row `r` is in tile `r / 5000`. -/
theorem cover (i : S100000x144.Idx) :
    ∃ t : Fin cfg1.N, (cfg1.win 3).flush t = true ∧ i ∈ ((cfg1.win 3).blk t).view.set := by
  have hN : grid1.N = 20 := N_1
  have hi0 : (i 0).val < 100000 := (i 0).isLt
  have hi1 : (i 1).val < 144 := (i 1).isLt
  let t : Fin cfg1.N := ⟨(i 0).val / 5000, by show _ < grid1.N; omega⟩
  obtain ⟨-, -, -, -, -, -, e6, e7⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 144 ≤ (i 1).val ∧ (i 1).val < win1_3.index t (1 : Fin 2) * 144 + 144; omega

/-- After the call the output array is the whole-array function of the three input arrays. -/
theorem final1 (c : Dev nD) :
    (dat1 V c).arrAt 3 cfg1.N = X1 (V c main_arg0) (V c main_arg1) (V c main_v19) :=
  (dat1 V c).arrAt_eq_of_cover 3 (X1 (V c main_arg0) (V c main_arg1) (V c main_v19)) (fun t _ => flushed_eq V c t) cover

end Cert.KernelIdeal.KReg1
end
-- ==== Proof.KReg4.lean ====
/-
  The last elementwise call: each row of the 100000×144 input scaled and shifted per column by the two rows of a
  2×144 statistics array and clipped to [0, 6], times the 144×24 weight, each column scaled and shifted by the two
  rows of a 2×24 statistics array, plus the residual 100000×24 array.

  The call walks the rows in 20 tiles of 5000; the tiles are disjoint row ranges that together cover the output, so
  after the call the output array holds one function of the five input arrays.
-/
import proofs.«119352_j15083925143721_1_alg».proof.Proof.Gen.KernelIdeal.Frame
import proofs.«119352_j15083925143721_1_alg».proof.Proof.KPay
import proofs.«119352_j15083925143721_1_alg».proof.Proof.LibLoadAt
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.TcCoe Idealize.SL.Sem
open Idealize.ShloMosaic.ValueIdx
open Idealize.ShloMosaic.Pipeline (Dat)
open scoped BigOperators

namespace Cert.KernelIdeal.KReg4

open Cert.KernelIdeal Cert.KernelIdeal.Gen Cert.KernelIdeal.KPay

/-- The zero offsets, however spelt. -/
theorem hz : (![0, 0] : Fin 2 → Nat) = fun _ => 0 := funext fun a => by fin_cases a <;> rfl

/-- The body's stored value at an entry. -/
theorem pay_apply (v0 v2 : Vec Ideal S1x144 .f32) (v4 : Vec Ideal S5000x144 .f32) (v15 : Vec Ideal S144x24 .f32)
    (v18 v20 : Vec Ideal S1x24 .f32) (v26 : Vec Ideal S5000x24 .f32) (p : Fin 5000) (c : Fin 24) :
    k4_pay1 (F := Ideal) v0 v2 v4 v15 v18 v20 v26 (ix2 p c)
      = (∑ q : Fin 144, clipAffine (v4 (ix2 p q)) (v0 (ix2 (0 : Fin 1) q)) (v2 (ix2 (0 : Fin 1) q)) * v15 (ix2 q c))
          * v18 (ix2 (0 : Fin 1) c) + v20 (ix2 (0 : Fin 1) c) + v26 (ix2 p c) := by
  unfold k4_pay1
  refine (addf_apply _ _ _).trans ?_
  refine congrArg (· + v26 (ix2 p c)) ?_
  refine (addf_apply _ _ _).trans ?_
  refine congrArg₂ (· + ·) ?_ ?_
  · refine (mulf_apply _ _ _).trans ?_
    refine congrArg₂ (· * ·) ?_ ?_
    · refine (Cert.PlainDot.matmul_zero_apply plain3 none _ _ p c).trans ?_
      refine Finset.sum_congr rfl fun q _ => ?_
      refine congrArg (· * v15 (ix2 q c)) ?_
      unfold clipAffine
      refine (minimumf_apply _ _ _).trans ?_
      refine congrArg (min _ ·) ?_
      refine (maximumf_apply _ _ _).trans ?_
      refine congrArg (max _ ·) ?_
      refine (addf_apply _ _ _).trans ?_
      refine congrArg₂ (· + ·) ?_ ?_
      · refine (mulf_apply _ _ _).trans ?_
        refine congrArg₂ (· * ·) ?_ ?_
        · rw [shapeCast_self]
        · refine (broadcastTo_1b_ab_apply _ _ p q).trans ?_
          rw [shapeCast_self]
      · refine (broadcastTo_1b_ab_apply _ _ p q).trans ?_
        rw [shapeCast_self]
    · refine (broadcastTo_1b_ab_apply _ _ p c).trans ?_
      rw [shapeCast_self]
  · refine (broadcastTo_1b_ab_apply _ _ p c).trans ?_
    rw [shapeCast_self]

/-- What the body leaves in the output tile, entry by entry, from the five input blocks. -/
theorem out_apply (x0 : Vec Ideal S5000x144 .f32) (x1 : Vec Ideal S2x144 .f32) (x2 : Vec Ideal S144x24 .f32)
    (x3 : Vec Ideal S2x24 .f32) (x4 : Vec Ideal S5000x24 .f32) (p : Fin 5000) (c : Fin 24) :
    out4_5 (F := Ideal) x0 x1 x2 x3 x4 (ix2 p c)
      = (∑ q : Fin 144, clipAffine (x0 (ix2 p q)) (x1 (ix2 (0 : Fin 2) q)) (x1 (ix2 (1 : Fin 2) q)) * x2 (ix2 q c))
          * x3 (ix2 (0 : Fin 2) c) + x3 (ix2 (1 : Fin 2) c) + x4 (ix2 p c) := by
  unfold out4_5
  rw [View.canon_unit_zero hz]
  simp only [View.ld_unit_zero (S := S5000x144) hz, View.ld_unit_zero (S := S144x24) hz, View.ld_unit_zero (S := S5000x24) hz]
  refine (pay_apply _ _ _ _ _ _ _ p c).trans ?_
  rw [Cert.LoadAt.ld_unit2 x3 _ (0 : Fin 1) c (0 : Fin 2) c rfl (by simp),
    Cert.LoadAt.ld_unit2 x3 _ (0 : Fin 1) c (1 : Fin 2) c rfl (by simp)]
  refine congrArg (fun s => s * x3 (ix2 (0 : Fin 2) c) + x3 (ix2 (1 : Fin 2) c) + x4 (ix2 p c)) ?_
  refine Finset.sum_congr rfl fun q _ => ?_
  rw [Cert.LoadAt.ld_unit2 x1 _ (0 : Fin 1) q (0 : Fin 2) q rfl (by simp),
    Cert.LoadAt.ld_unit2 x1 _ (0 : Fin 1) q (1 : Fin 2) q rfl (by simp)]

/-- The whole output array as a function of the five input arrays. -/
def Out4 (x : FVec Ideal S100000x144 .f32) (ss2 : FVec Ideal S2x144 .f32) (w3 : FVec Ideal S144x24 .f32)
    (ss3 : FVec Ideal S2x24 .f32) (f : FVec Ideal S100000x24 .f32) : FVec Ideal S100000x24 .f32 :=
  fun j => (∑ q : Fin 144, clipAffine (x (ix2 (j 0) q)) (ss2 (ix2 (0 : Fin 2) q)) (ss2 (ix2 (1 : Fin 2) q)) * w3 (ix2 q (j 1)))
    * ss3 (ix2 (0 : Fin 2) (j 1)) + ss3 (ix2 (1 : Fin 2) (j 1)) + f (ix2 (j 0) (j 1))

/-- The whole-array function at an entry. -/
theorem Out4_apply (x : FVec Ideal S100000x144 .f32) (ss2 : FVec Ideal S2x144 .f32) (w3 : FVec Ideal S144x24 .f32)
    (ss3 : FVec Ideal S2x24 .f32) (f : FVec Ideal S100000x24 .f32) (n : Fin 100000) (c : Fin 24) :
    Out4 x ss2 w3 ss3 f (ix2 n c)
      = (∑ q : Fin 144, clipAffine (x (ix2 n q)) (ss2 (ix2 (0 : Fin 2) q)) (ss2 (ix2 (1 : Fin 2) q)) * w3 (ix2 q c))
          * ss3 (ix2 (0 : Fin 2) c) + ss3 (ix2 (1 : Fin 2) c) + f (ix2 n c) := rfl

/-- One entry of a tile is the entry of the whole-array function at the array index the tile places it at. -/
theorem point_eq (x0 : Vec Ideal S5000x144 .f32) (x1 : Vec Ideal S2x144 .f32) (x2 : Vec Ideal S144x24 .f32)
    (x3 : Vec Ideal S2x24 .f32) (x4 : Vec Ideal S5000x24 .f32)
    (x : FVec Ideal S100000x144 .f32) (ss2 : FVec Ideal S2x144 .f32) (w3 : FVec Ideal S144x24 .f32)
    (ss3 : FVec Ideal S2x24 .f32) (f : FVec Ideal S100000x24 .f32)
    (y : S5000x24.Idx) (i : S100000x24.Idx)
    (h0 : ∀ q : Fin 144, x0 (ix2 (y 0) q) = x (ix2 (i 0) q))
    (h1 : x1 = ss2) (h2 : x2 = w3) (h3 : x3 = ss3)
    (h4 : ∀ q : Fin 24, x4 (ix2 (y 0) q) = f (ix2 (i 0) q)) (hc : (i 1).val = (y 1).val) :
    out4_5 (F := Ideal) x0 x1 x2 x3 x4 y = Out4 x ss2 w3 ss3 f i := by
  obtain ⟨p, c, rfl⟩ : ∃ (p : Fin 5000) (c : Fin 24), y = ix2 p c := ⟨y 0, y 1, eq_ix2 y⟩
  rw [out_apply]
  subst h1 h2 h3
  have hi : i 1 = c := Fin.ext hc
  unfold Out4
  rw [hi]
  refine congrArg₂ (fun s r => s * x3 (ix2 (0 : Fin 2) c) + x3 (ix2 (1 : Fin 2) c) + r) ?_ (h4 c)
  exact Finset.sum_congr rfl fun q _ => by rw [← h0 q]

variable (V : (c : Dev nD) → (b : Ref sig .tc) → Buf (Elt Ideal) ((c : Thread nD τ).loc b))

/-- The index maps over the 20 tiles: the row-tiled windows sit at block row `t`, the others at block (0, 0). -/
theorem idx_facts : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = win4_5.index t (0 : Fin 2) ∧ win4_4.index t (1 : Fin 2) = 0
    ∧ win4_5.index t (0 : Fin 2) = t.val ∧ win4_5.index t (1 : Fin 2) = 0 :=
  (by decide +kernel : ∀ t : Fin grid4.N, _)

/-- What tile `t` writes back is tile `t` of the whole-array function of the input arrays. -/
theorem flushed_eq (c : Dev nD) (t : Fin cfg4.N) :
    (dat4 V c).flushed 5 t
      = ((cfg4.win 5).blk t).view.read (Elt Ideal)
          (Out4 (V c main_v46) (V c main_v66) (V c main_arg7) (V c main_v86) (V c main_arg0)) := by
  show (cfg4.win 5).cut (grid4.coords t) ((dat4 V c).after 5 t) = _
  rw [after4_5]
  obtain ⟨e0, e1, e2, e3, e4, e5, e6, e7, e8, e9, e10, e11⟩ := idx_facts t
  funext j
  show out4_5 (iblk4 V c 0 t) (iblk4 V c 1 t) (iblk4 V c 2 t) (iblk4 V c 3 t) (iblk4 V c 4 t) j
    = Out4 (V c main_v46) (V c main_v66) (V c main_arg7) (V c main_v86) (V c main_arg0) (((cfg4.win 5).blk t).view.emb j)
  refine point_eq _ _ _ _ _ _ _ _ _ _ j _ (fun q => ?_) ?_ ?_ ?_ (fun q => ?_) ?_
  · show V c main_v46 (((cfg4.win 0).blk t).view.emb (ix2 (j 0) q)) = V c main_v46 _
    refine congrArg (V c main_v46) (funext fun a => Fin.ext ?_)
    match a with
    | ⟨0, _⟩ => show win4_0.index t (0 : Fin 2) * 5000 + 1 * (j 0).val = win4_5.index t (0 : Fin 2) * 5000 + 1 * (j 0).val; rw [e0]
    | ⟨1, _⟩ => show win4_0.index t (1 : Fin 2) * 144 + 1 * q.val = q.val; rw [e1]; omega
  · funext y
    show V c main_v66 (((cfg4.win 1).blk t).view.emb y) = V c main_v66 y
    refine congrArg (V c main_v66) (funext fun a => Fin.ext ?_)
    match a with
    | ⟨0, _⟩ => show win4_1.index t (0 : Fin 2) * 2 + 1 * (y 0).val = (y 0).val; rw [e2]; omega
    | ⟨1, _⟩ => show win4_1.index t (1 : Fin 2) * 144 + 1 * (y 1).val = (y 1).val; rw [e3]; omega
  · funext y
    show V c main_arg7 (((cfg4.win 2).blk t).view.emb y) = V c main_arg7 y
    refine congrArg (V c main_arg7) (funext fun a => Fin.ext ?_)
    match a with
    | ⟨0, _⟩ => show win4_2.index t (0 : Fin 2) * 144 + 1 * (y 0).val = (y 0).val; rw [e4]; omega
    | ⟨1, _⟩ => show win4_2.index t (1 : Fin 2) * 24 + 1 * (y 1).val = (y 1).val; rw [e5]; omega
  · funext y
    show V c main_v86 (((cfg4.win 3).blk t).view.emb y) = V c main_v86 y
    refine congrArg (V c main_v86) (funext fun a => Fin.ext ?_)
    match a with
    | ⟨0, _⟩ => show win4_3.index t (0 : Fin 2) * 2 + 1 * (y 0).val = (y 0).val; rw [e6]; omega
    | ⟨1, _⟩ => show win4_3.index t (1 : Fin 2) * 24 + 1 * (y 1).val = (y 1).val; rw [e7]; omega
  · show V c main_arg0 (((cfg4.win 4).blk t).view.emb (ix2 (j 0) q)) = V c main_arg0 _
    refine congrArg (V c main_arg0) (funext fun a => Fin.ext ?_)
    match a with
    | ⟨0, _⟩ => show win4_4.index t (0 : Fin 2) * 5000 + 1 * (j 0).val = win4_5.index t (0 : Fin 2) * 5000 + 1 * (j 0).val; rw [e8]
    | ⟨1, _⟩ => show win4_4.index t (1 : Fin 2) * 24 + 1 * q.val = q.val; rw [e9]; omega
  · show win4_5.index t (1 : Fin 2) * 24 + 1 * (j 1).val = (j 1).val
    rw [e11]; omega

/-- An index of the array is in tile `t` iff each coordinate is in the tile's range on its axis. -/
theorem mem_blk (t : Fin cfg4.N) (i : S100000x24.Idx) :
    i ∈ ((cfg4.win 5).blk t).view.set ↔ ∀ a : Fin 2, win4_5.index t a * S5000x24.size a ≤ (i a).val ∧ (i a).val < win4_5.index t a * S5000x24.size a + S5000x24.size a := by
  show i ∈ ((View.whole main_v87).slice (win4_5.rect t)).set ↔ _
  rw [View.set_slice_whole, Rect.mem_set_unit]
  exact Iff.rfl

/-- Every index of the output array is in some tile: row `r` is in tile `r / 5000`. -/
theorem cover (i : S100000x24.Idx) :
    ∃ t : Fin cfg4.N, (cfg4.win 5).flush t = true ∧ i ∈ ((cfg4.win 5).blk t).view.set := by
  have hN : grid4.N = 20 := N_4
  have hi0 : (i 0).val < 100000 := (i 0).isLt
  have hi1 : (i 1).val < 24 := (i 1).isLt
  let t : Fin cfg4.N := ⟨(i 0).val / 5000, by show _ < grid4.N; omega⟩
  obtain ⟨-, -, -, -, -, -, -, -, -, -, e10, e11⟩ := idx_facts t
  have ht : t.val = (i 0).val / 5000 := rfl
  refine ⟨t, flush4_5 t, ?_⟩
  rw [mem_blk]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 24 ≤ (i 1).val ∧ (i 1).val < win4_5.index t (1 : Fin 2) * 24 + 24; omega

/-- After the call the output array is the whole-array function of the five input arrays. -/
theorem final4 (c : Dev nD) :
    (dat4 V c).arrAt 5 cfg4.N = Out4 (V c main_v46) (V c main_v66) (V c main_arg7) (V c main_v86) (V c main_arg0) :=
  (dat4 V c).arrAt_eq_of_cover 5 (Out4 (V c main_v46) (V c main_v66) (V c main_arg7) (V c main_v86) (V c main_arg0))
    (fun t _ => flushed_eq V c t) cover

end Cert.KernelIdeal.KReg4
end
-- ==== Proof.KHostDefs.lean ====
/-
  The host side of the idealized kernel's program: its whole-array functions.

  Between its five pipelined calls the program runs four stretches of whole-array operations. The first, third and
  fourth turn a two-row table of column statistics (row 0 the column sums, row 1 the column sums of squares, over
  100000 rows) and a gain and a bias per column into a two-row table of a scale and a shift per column:
  mean = sum / n, meansq = sumsq / n, inv = rsqrt (meansq - mean * mean + eps), scale = gain * inv,
  shift = bias - mean * scale. The second gathers rows of an activation (a zero row appended) along one index vector
  and rows of a 9-row weight table along another, multiplies the two entrywise and adds each product row into the row of
  a zero table that a third index vector names; a negative index counts from the end. This module names those
  functions, each the literal composition of its stretch's operations, and reads the scale-and-shift tables entry by
  entry.
-/
import proofs.«119352_j15083925143721_1_alg».proof.Proof.Gen.KernelIdeal
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

noncomputable section

namespace Cert.KernelIdeal.KHost

open Idealize.ShloMosaic Idealize.ShloMosaic.ValueIdx
open Cert.KernelIdeal Cert.KernelIdeal.Gen

/-! ## The scale-and-shift table of 144 columns -/

/-- The row count 100000, at every column. -/
def cnt144 : FVec Ideal S144 .f32 := broadcastInDim S144 ![] bcast_S_S144 (constant (F := Ideal) S_ .f32 0x47C35000#32)
/-- The stabilizer 1e-5, at every column. -/
def eps144 : FVec Ideal S144 .f32 := broadcastInDim S144 ![] bcast_S_S144 (constant (F := Ideal) S_ .f32 0x3727C5AC#32)
/-- Row 0 of the statistics over the row count: the column means. -/
def mean144 (st : FVec Ideal S2x144 .f32) : FVec Ideal S144 .f32 :=
  Host.divf (shapeCast S144 (extractStridedSlice S1x144 ![0, 0] st slices_S2x144_S1x144_0_0) shapeCasts_S1x144_S144) cnt144
/-- Row 1 of the statistics over the row count: the column means of squares. -/
def msq144 (st : FVec Ideal S2x144 .f32) : FVec Ideal S144 .f32 :=
  Host.divf (shapeCast S144 (extractStridedSlice S1x144 ![1, 0] st slices_S2x144_S1x144_1_0) shapeCasts_S1x144_S144) cnt144
/-- The reciprocal square root of the stabilized column variances. -/
def inv144 (st : FVec Ideal S2x144 .f32) : FVec Ideal S144 .f32 :=
  Host.rsqrt (addf (subf (msq144 st) (mulf (mean144 st) (mean144 st))) eps144)
/-- The column scales: gain times the reciprocal deviation. -/
def scale144 (st : FVec Ideal S2x144 .f32) (g : FVec Ideal S144 .f32) : FVec Ideal S144 .f32 := mulf g (inv144 st)
/-- The column shifts: bias minus mean times scale. -/
def shift144 (st : FVec Ideal S2x144 .f32) (g b : FVec Ideal S144 .f32) : FVec Ideal S144 .f32 :=
  subf b (mulf (mean144 st) (scale144 st g))
/-- The scale row stacked on the shift row. -/
def ssOf144 (st : FVec Ideal S2x144 .f32) (g b : FVec Ideal S144 .f32) : FVec Ideal S2x144 .f32 :=
  concatenate S2x144 0
    [⟨S1x144, broadcastInDim S1x144 ![1] bcast_S144_S1x144_1 (scale144 st g)⟩,
     ⟨S1x144, broadcastInDim S1x144 ![1] bcast_S144_S1x144_1 (shift144 st g b)⟩]
    concatenates_S1x144_S1x144_S2x144_d0

/-! ## The scale-and-shift table of 24 columns -/

/-- The row count 100000, at every column. -/
def cnt24 : FVec Ideal S24 .f32 := broadcastInDim S24 ![] bcast_S_S24 (constant (F := Ideal) S_ .f32 0x47C35000#32)
/-- The stabilizer 1e-5, at every column. -/
def eps24 : FVec Ideal S24 .f32 := broadcastInDim S24 ![] bcast_S_S24 (constant (F := Ideal) S_ .f32 0x3727C5AC#32)
/-- Row 0 of the statistics over the row count: the column means. -/
def mean24 (st : FVec Ideal S2x24 .f32) : FVec Ideal S24 .f32 :=
  Host.divf (shapeCast S24 (extractStridedSlice S1x24 ![0, 0] st slices_S2x24_S1x24_0_0) shapeCasts_S1x24_S24) cnt24
/-- Row 1 of the statistics over the row count: the column means of squares. -/
def msq24 (st : FVec Ideal S2x24 .f32) : FVec Ideal S24 .f32 :=
  Host.divf (shapeCast S24 (extractStridedSlice S1x24 ![1, 0] st slices_S2x24_S1x24_1_0) shapeCasts_S1x24_S24) cnt24
/-- The reciprocal square root of the stabilized column variances. -/
def inv24 (st : FVec Ideal S2x24 .f32) : FVec Ideal S24 .f32 :=
  Host.rsqrt (addf (subf (msq24 st) (mulf (mean24 st) (mean24 st))) eps24)
/-- The column scales: gain times the reciprocal deviation. -/
def scale24 (st : FVec Ideal S2x24 .f32) (g : FVec Ideal S24 .f32) : FVec Ideal S24 .f32 := mulf g (inv24 st)
/-- The column shifts: bias minus mean times scale. -/
def shift24 (st : FVec Ideal S2x24 .f32) (g b : FVec Ideal S24 .f32) : FVec Ideal S24 .f32 :=
  subf b (mulf (mean24 st) (scale24 st g))
/-- The scale row stacked on the shift row. -/
def ssOf24 (st : FVec Ideal S2x24 .f32) (g b : FVec Ideal S24 .f32) : FVec Ideal S2x24 .f32 :=
  concatenate S2x24 0
    [⟨S1x24, broadcastInDim S1x24 ![1] bcast_S24_S1x24_1 (scale24 st g)⟩,
     ⟨S1x24, broadcastInDim S1x24 ![1] bcast_S24_S1x24_1 (shift24 st g b)⟩]
    concatenates_S1x24_S1x24_S2x24_d0

/-! ## The gather, multiply and scatter-add over 900000 index triples -/

/-- An index vector with `k` added to its negative entries, as a one-column table. -/
def wrapIdx (k : BitVec 32) (i : IVec S900000 32) : IVec S900000x1 32 :=
  broadcastInDim S900000x1 ![0] bcast_S900000_S900000x1_0
    (select (cmpi .slt i (broadcastInDim S900000 ![] bcast_S_S900000 (constantI S_ 32 0#32)))
      (addi i (broadcastInDim S900000 ![] bcast_S_S900000 (constantI S_ 32 k))) i)

/-- The activation with a zero row appended. -/
def padRow (x : FVec Ideal S100000x144 .f32) : FVec Ideal S100001x144 .f32 :=
  concatenate S100001x144 0
    [⟨S100000x144, x⟩, ⟨S1x144, broadcastInDim S1x144 ![] bcast_S_S1x144 (constant (F := Ideal) S_ .f32 0x00000000#32)⟩]
    concatenates_S100000x144_S1x144_S100001x144_d0

/-- Per index triple, the activation row at the first index times the weight row at the third. -/
def prodRows (x : FVec Ideal S100000x144 .f32) (w2 : FVec Ideal S9x144 .f32) (in_idx off_id : IVec S900000 32) :
    FVec Ideal S900000x144 .f32 :=
  mulf (Host.gather gather_S100001x144_S900000x1_S900000x144_1_0_n_n_0_1_1144 (padRow x) (wrapIdx 100001#32 in_idx))
    (Host.gather gather_S9x144_S900000x1_S900000x144_1_0_n_n_0_1_1144 w2 (wrapIdx 9#32 off_id))

/-- The product rows added into the rows of a zero table the second index names, the table's last row dropped. -/
def convOf (x : FVec Ideal S100000x144 .f32) (w2 : FVec Ideal S9x144 .f32) (in_idx out_idx off_id : IVec S900000 32) :
    FVec Ideal S100000x144 .f32 :=
  extractStridedSlice S100000x144 ![0, 0]
    (Host.scatterAdd scatter_S100001x144_S900000x1_S900000x144_1_0_0_1
      (broadcastInDim S100001x144 ![] bcast_S_S100001x144 (constant (F := Ideal) S_ .f32 0x00000000#32))
      (wrapIdx 100001#32 out_idx) (prodRows x w2 in_idx off_id))
    slices_S100001x144_S100000x144_0_0

end Cert.KernelIdeal.KHost

end
-- ==== Proof.KHostRead.lean ====
/-
  The host side of the idealized kernel's program: the scale-and-shift tables read entry by entry.

  Row 0 of a table holds, per column, gain * rsqrt (sumsq / n - (sum / n) * (sum / n) + eps); row 1 holds
  bias - (sum / n) * that scale; sum and sumsq are rows 0 and 1 of the statistics, n = 100000 and eps = 1e-5 the two
  binary32 constants of the program, left as the extended reals they denote.
-/
import proofs.«119352_j15083925143721_1_alg».proof.Proof.KHostDefs
import Idealize.ShloMosaic.Lib.Pipeline.Value
import Idealize.ShloMosaic.Lib.ValueLayout
import Idealize.ShloMosaic.Lib.ValueIdx
import Idealize.ShloMosaic.PureOps.Ideal
import Idealize.ShloMosaic.PureOps.Ideal.Laws

noncomputable section

namespace Cert.KernelIdeal.KHost

open Idealize.ShloMosaic Idealize.ShloMosaic.ValueIdx
open Cert.KernelIdeal Cert.KernelIdeal.Gen

/-! ## The scale-and-shift tables entry by entry -/

/-- A two-row stack read in its first row. -/
theorem stack_row0 {n : ℕ} (x y : FVec Ideal ⟨2, ![1, n]⟩ .f32) (h : Shape.Concatenates [⟨2, ![1, n]⟩, ⟨2, ![1, n]⟩] ⟨2, ![2, n]⟩ 0)
    (c : Fin n) :
    concatenate ⟨2, ![2, n]⟩ 0 [⟨⟨2, ![1, n]⟩, x⟩, ⟨⟨2, ![1, n]⟩, y⟩] h (ix2 (0 : Fin 2) c) = x (ix2 (0 : Fin 1) c) :=
  concatenate_pair_apply_left 0 x y h (ix2 (0 : Fin 2) c) rfl (ix2 (0 : Fin 1) c) (fun a => by
    match a with
    | ⟨0, _⟩ => rfl
    | ⟨1, _⟩ => rfl)

/-- A two-row stack read in its second row. -/
theorem stack_row1 {n : ℕ} (x y : FVec Ideal ⟨2, ![1, n]⟩ .f32) (h : Shape.Concatenates [⟨2, ![1, n]⟩, ⟨2, ![1, n]⟩] ⟨2, ![2, n]⟩ 0)
    (c : Fin n) :
    concatenate ⟨2, ![2, n]⟩ 0 [⟨⟨2, ![1, n]⟩, x⟩, ⟨⟨2, ![1, n]⟩, y⟩] h (ix2 (1 : Fin 2) c) = y (ix2 (0 : Fin 1) c) :=
  concatenate_pair_apply_right 0 x y h (ix2 (1 : Fin 2) c) rfl rfl (ix2 (0 : Fin 1) c) (fun a ha => by
    match a, ha with
    | ⟨0, _⟩, ha => exact absurd rfl ha
    | ⟨1, _⟩, _ => rfl) rfl

/-- A vector laid out as a one-row table reads, in that row, its own entry. -/
theorem row_of_vec {n : ℕ} (x : FVec Ideal ⟨1, ![n]⟩ .f32) (h : (⟨1, ![n]⟩ : Shape).BroadcastsInDim ⟨2, ![1, n]⟩ ![1]) (c : Fin n) :
    broadcastInDim ⟨2, ![1, n]⟩ ![1] h x (ix2 (0 : Fin 1) c) = x (ix1 c) :=
  broadcastInDim_apply ![1] h x (ix2 (0 : Fin 1) c) (ix1 c) (fun a => by
    match a with
    | ⟨0, _⟩ =>
      show c.val = if n = 1 then 0 else c.val
      split
      · omega
      · rfl)

/-- The column means, entry by entry. -/
theorem mean144_apply (st : FVec Ideal S2x144 .f32) (c : Fin 144) :
    mean144 st (ix1 c) = Ideal.div (st (ix2 (0 : Fin 2) c)) (Ideal.ofBits .f32 0x47C35000#32) :=
  congrArg (Ideal.div · (Ideal.ofBits .f32 0x47C35000#32))
    ((shapeCast_1a_a_apply _ shapeCasts_S1x144_S144 c).trans
      (slice2_axis0_apply 0 st slices_S2x144_S1x144_0_0 (0 : Fin 1) c (0 : Fin 2) rfl))

/-- The column means of squares, entry by entry. -/
theorem msq144_apply (st : FVec Ideal S2x144 .f32) (c : Fin 144) :
    msq144 st (ix1 c) = Ideal.div (st (ix2 (1 : Fin 2) c)) (Ideal.ofBits .f32 0x47C35000#32) :=
  congrArg (Ideal.div · (Ideal.ofBits .f32 0x47C35000#32))
    ((shapeCast_1a_a_apply _ shapeCasts_S1x144_S144 c).trans
      (slice2_axis0_apply 1 st slices_S2x144_S1x144_1_0 (0 : Fin 1) c (1 : Fin 2) rfl))

/-- The reciprocal deviations, entry by entry. -/
theorem inv144_apply (st : FVec Ideal S2x144 .f32) (c : Fin 144) :
    inv144 st (ix1 c)
      = Ideal.rsqrt (Ideal.div (st (ix2 (1 : Fin 2) c)) (Ideal.ofBits .f32 0x47C35000#32)
          - Ideal.div (st (ix2 (0 : Fin 2) c)) (Ideal.ofBits .f32 0x47C35000#32)
            * Ideal.div (st (ix2 (0 : Fin 2) c)) (Ideal.ofBits .f32 0x47C35000#32)
          + Ideal.ofBits .f32 0x3727C5AC#32) := by
  show Ideal.rsqrt (msq144 st (ix1 c) - mean144 st (ix1 c) * mean144 st (ix1 c) + Ideal.ofBits .f32 0x3727C5AC#32) = _
  rw [mean144_apply, msq144_apply]

/-- Row 0 of the table: the column's scale. -/
theorem ssOf144_row0 (st : FVec Ideal S2x144 .f32) (g b : FVec Ideal S144 .f32) (c : Fin 144) :
    ssOf144 st g b (ix2 (0 : Fin 2) c)
      = g (ix1 c) * Ideal.rsqrt (Ideal.div (st (ix2 (1 : Fin 2) c)) (Ideal.ofBits .f32 0x47C35000#32)
          - Ideal.div (st (ix2 (0 : Fin 2) c)) (Ideal.ofBits .f32 0x47C35000#32)
            * Ideal.div (st (ix2 (0 : Fin 2) c)) (Ideal.ofBits .f32 0x47C35000#32)
          + Ideal.ofBits .f32 0x3727C5AC#32) := by
  unfold ssOf144
  refine (stack_row0 _ _ _ c).trans ((row_of_vec _ _ c).trans ?_)
  show g (ix1 c) * inv144 st (ix1 c) = _
  rw [inv144_apply]

/-- Row 1 of the table: the column's shift. -/
theorem ssOf144_row1 (st : FVec Ideal S2x144 .f32) (g b : FVec Ideal S144 .f32) (c : Fin 144) :
    ssOf144 st g b (ix2 (1 : Fin 2) c)
      = b (ix1 c) - Ideal.div (st (ix2 (0 : Fin 2) c)) (Ideal.ofBits .f32 0x47C35000#32)
          * (g (ix1 c) * Ideal.rsqrt (Ideal.div (st (ix2 (1 : Fin 2) c)) (Ideal.ofBits .f32 0x47C35000#32)
            - Ideal.div (st (ix2 (0 : Fin 2) c)) (Ideal.ofBits .f32 0x47C35000#32)
              * Ideal.div (st (ix2 (0 : Fin 2) c)) (Ideal.ofBits .f32 0x47C35000#32)
            + Ideal.ofBits .f32 0x3727C5AC#32)) := by
  unfold ssOf144
  refine (stack_row1 _ _ _ c).trans ((row_of_vec _ _ c).trans ?_)
  show b (ix1 c) - mean144 st (ix1 c) * (g (ix1 c) * inv144 st (ix1 c)) = _
  rw [mean144_apply, inv144_apply]

/-- The column means, entry by entry. -/
theorem mean24_apply (st : FVec Ideal S2x24 .f32) (c : Fin 24) :
    mean24 st (ix1 c) = Ideal.div (st (ix2 (0 : Fin 2) c)) (Ideal.ofBits .f32 0x47C35000#32) :=
  congrArg (Ideal.div · (Ideal.ofBits .f32 0x47C35000#32))
    ((shapeCast_1a_a_apply _ shapeCasts_S1x24_S24 c).trans
      (slice2_axis0_apply 0 st slices_S2x24_S1x24_0_0 (0 : Fin 1) c (0 : Fin 2) rfl))

/-- The column means of squares, entry by entry. -/
theorem msq24_apply (st : FVec Ideal S2x24 .f32) (c : Fin 24) :
    msq24 st (ix1 c) = Ideal.div (st (ix2 (1 : Fin 2) c)) (Ideal.ofBits .f32 0x47C35000#32) :=
  congrArg (Ideal.div · (Ideal.ofBits .f32 0x47C35000#32))
    ((shapeCast_1a_a_apply _ shapeCasts_S1x24_S24 c).trans
      (slice2_axis0_apply 1 st slices_S2x24_S1x24_1_0 (0 : Fin 1) c (1 : Fin 2) rfl))

/-- The reciprocal deviations, entry by entry. -/
theorem inv24_apply (st : FVec Ideal S2x24 .f32) (c : Fin 24) :
    inv24 st (ix1 c)
      = Ideal.rsqrt (Ideal.div (st (ix2 (1 : Fin 2) c)) (Ideal.ofBits .f32 0x47C35000#32)
          - Ideal.div (st (ix2 (0 : Fin 2) c)) (Ideal.ofBits .f32 0x47C35000#32)
            * Ideal.div (st (ix2 (0 : Fin 2) c)) (Ideal.ofBits .f32 0x47C35000#32)
          + Ideal.ofBits .f32 0x3727C5AC#32) := by
  show Ideal.rsqrt (msq24 st (ix1 c) - mean24 st (ix1 c) * mean24 st (ix1 c) + Ideal.ofBits .f32 0x3727C5AC#32) = _
  rw [mean24_apply, msq24_apply]

/-- Row 0 of the table: the column's scale. -/
theorem ssOf24_row0 (st : FVec Ideal S2x24 .f32) (g b : FVec Ideal S24 .f32) (c : Fin 24) :
    ssOf24 st g b (ix2 (0 : Fin 2) c)
      = g (ix1 c) * Ideal.rsqrt (Ideal.div (st (ix2 (1 : Fin 2) c)) (Ideal.ofBits .f32 0x47C35000#32)
          - Ideal.div (st (ix2 (0 : Fin 2) c)) (Ideal.ofBits .f32 0x47C35000#32)
            * Ideal.div (st (ix2 (0 : Fin 2) c)) (Ideal.ofBits .f32 0x47C35000#32)
          + Ideal.ofBits .f32 0x3727C5AC#32) := by
  unfold ssOf24
  refine (stack_row0 _ _ _ c).trans ((row_of_vec _ _ c).trans ?_)
  show g (ix1 c) * inv24 st (ix1 c) = _
  rw [inv24_apply]

/-- Row 1 of the table: the column's shift. -/
theorem ssOf24_row1 (st : FVec Ideal S2x24 .f32) (g b : FVec Ideal S24 .f32) (c : Fin 24) :
    ssOf24 st g b (ix2 (1 : Fin 2) c)
      = b (ix1 c) - Ideal.div (st (ix2 (0 : Fin 2) c)) (Ideal.ofBits .f32 0x47C35000#32)
          * (g (ix1 c) * Ideal.rsqrt (Ideal.div (st (ix2 (1 : Fin 2) c)) (Ideal.ofBits .f32 0x47C35000#32)
            - Ideal.div (st (ix2 (0 : Fin 2) c)) (Ideal.ofBits .f32 0x47C35000#32)
              * Ideal.div (st (ix2 (0 : Fin 2) c)) (Ideal.ofBits .f32 0x47C35000#32)
            + Ideal.ofBits .f32 0x3727C5AC#32)) := by
  unfold ssOf24
  refine (stack_row1 _ _ _ c).trans ((row_of_vec _ _ c).trans ?_)
  show b (ix1 c) - mean24 st (ix1 c) * (g (ix1 c) * inv24 st (ix1 c)) = _
  rw [mean24_apply, inv24_apply]

end Cert.KernelIdeal.KHost

end
-- ==== Proof.Spec.lean ====
/-
  The two programs as functions of their arguments, entry by entry over the extended reals, with no program in sight.

  A matrix is a function of a row and a column.  Both programs compute  y = BN3(relu6(BN2(conv(relu6(BN1(f·w1)))))·w3) + f
  where BN normalises each column over the 100000 rows.  The kernel's programs spell a batch normalisation as
  h·scale + shift with scale = g·rsqrt(SS/n − (S/n)² + ε), shift = b − (S/n)·scale from the column's sum S and sum of
  squares SS; the reference spells it (h − S/n)·rsqrt(Σ(h − S/n)²/n + ε)·g + b.  The sparse convolution between the
  first and second normalisation is the same operation in both and is carried as one function 'conv'.
-/
import Idealize.ShloMosaic.PureOps.Ideal

noncomputable section

namespace Cert.Spec

open Idealize.ShloMosaic

/-- The row count 100000, the variance offset 1e-5 (as the f32 word denotes it), and the clipping bounds 0 and 6. -/
abbrev Nw : EReal := Ideal.ofBits .f32 0x47C35000#32
abbrev Ew : EReal := Ideal.ofBits .f32 0x3727C5AC#32
abbrev lo : EReal := Ideal.ofBits .f32 0x00000000#32
abbrev hi : EReal := Ideal.ofBits .f32 0x40C00000#32

/-- A matrix product, entry by entry. -/
def mm {M K N : ℕ} (a : Fin M → Fin K → EReal) (w : Fin K → Fin N → EReal) (p : Fin M) (c : Fin N) : EReal :=
  ∑ q : Fin K, a p q * w q c

/-- A column's sum and sum of squares over the rows. -/
def colSum {R C : ℕ} (h : Fin R → Fin C → EReal) (c : Fin C) : EReal := ∑ n : Fin R, h n c
def colSumSq {R C : ℕ} (h : Fin R → Fin C → EReal) (c : Fin C) : EReal := ∑ n : Fin R, h n c * h n c

/-- The kernel's scale and shift of a column from its sum, its sum of squares, the gain and the offset. -/
def scaleK (S SS g : EReal) : EReal := g * Ideal.rsqrt (Ideal.div SS Nw - Ideal.div S Nw * Ideal.div S Nw + Ew)
def shiftK (S SS g b : EReal) : EReal := b - Ideal.div S Nw * scaleK S SS g

/-- Clipping to [0, 6]. -/
def clip (x : EReal) : EReal := min hi (max lo x)

/-- Batch normalisation as the kernel's programs spell it. -/
def bnK {R C : ℕ} (h : Fin R → Fin C → EReal) (g b : Fin C → EReal) (n : Fin R) (c : Fin C) : EReal :=
  h n c * scaleK (colSum h c) (colSumSq h c) (g c) + shiftK (colSum h c) (colSumSq h c) (g c) (b c)

/-- Batch normalisation as the reference spells it. -/
def bnR {R C : ℕ} (h : Fin R → Fin C → EReal) (g b : Fin C → EReal) (n : Fin R) (c : Fin C) : EReal :=
  (h n c - Ideal.div (colSum h c) Nw)
    * Ideal.rsqrt (Ideal.div (∑ j : Fin R, (h j c - Ideal.div (colSum h c) Nw) * (h j c - Ideal.div (colSum h c) Nw)) Nw + Ew)
    * g c + b c

/-- The whole block with the kernel's spelling of the three normalisations. -/
def outK (f : Fin 100000 → Fin 24 → EReal) (w1 : Fin 24 → Fin 144 → EReal) (g1 b1 : Fin 144 → EReal)
    (conv : (Fin 100000 → Fin 144 → EReal) → Fin 100000 → Fin 144 → EReal) (g2 b2 : Fin 144 → EReal)
    (w3 : Fin 144 → Fin 24 → EReal) (g3 b3 : Fin 24 → EReal) (n : Fin 100000) (c : Fin 24) : EReal :=
  bnK (mm (fun n c => clip (bnK (conv fun n c => clip (bnK (mm f w1) g1 b1 n c)) g2 b2 n c)) w3) g3 b3 n c + f n c

/-- The whole block with the reference's spelling. -/
def outR (f : Fin 100000 → Fin 24 → EReal) (w1 : Fin 24 → Fin 144 → EReal) (g1 b1 : Fin 144 → EReal)
    (conv : (Fin 100000 → Fin 144 → EReal) → Fin 100000 → Fin 144 → EReal) (g2 b2 : Fin 144 → EReal)
    (w3 : Fin 144 → Fin 24 → EReal) (g3 b3 : Fin 24 → EReal) (n : Fin 100000) (c : Fin 24) : EReal :=
  bnR (mm (fun n c => clip (bnR (conv fun n c => clip (bnR (mm f w1) g1 b1 n c)) g2 b2 n c)) w3) g3 b3 n c + f n c

end Cert.Spec

end
-- ==== Proof.KStages.lean ====
/-
  The kernel's stages joined, array by array, to the entry-by-entry specification.

  A matrix A is viewed as the function (n, c) ↦ A(n, c) and back.  Given statistics tables whose rows are a column's
  sum and sum of squares, the scale-and-shift table built from them holds the specification's scale and shift, so the
  first elementwise call's output is clip ∘ BN of the product, the projected entry is the product of clip ∘ BN of the
  convolved array with the weights, and the last call's output is BN of that product plus the residual.
-/
import proofs.«119352_j15083925143721_1_alg».proof.Proof.KReg1
import proofs.«119352_j15083925143721_1_alg».proof.Proof.KReg4
import proofs.«119352_j15083925143721_1_alg».proof.Proof.KHostRead
import proofs.«119352_j15083925143721_1_alg».proof.Proof.Spec

noncomputable section

namespace Cert.KernelIdeal.KStages

open Idealize.ShloMosaic Idealize.ShloMosaic.ValueIdx
open Cert.KernelIdeal Cert.KernelIdeal.KPay Cert.KernelIdeal.KHost Cert.KernelIdeal.KReg1 Cert.KernelIdeal.KReg4 Cert.Spec

/-- A matrix as a function of a row and a column, a vector as a function of a position, and a matrix back. -/
abbrev cur {a b : ℕ} (A : (⟨2, ![a, b]⟩ : Shape).Idx → EReal) : Fin a → Fin b → EReal := fun n c => A (ix2 n c)
abbrev vec {a : ℕ} (g : (⟨1, ![a]⟩ : Shape).Idx → EReal) : Fin a → EReal := fun c => g (ix1 c)
abbrev arr {a b : ℕ} (x : Fin a → Fin b → EReal) : (⟨2, ![a, b]⟩ : Shape).Idx → EReal := fun j => x (j 0) (j 1)

theorem arr_cur {a b : ℕ} (A : (⟨2, ![a, b]⟩ : Shape).Idx → EReal) : arr (cur A) = A :=
  funext fun j => congrArg A (eq_ix2 j).symm

/-- Scaling, shifting and clipping with the specification's scale and shift is clip ∘ BN. -/
theorem clipAffine_bn {R C : ℕ} (h : Fin R → Fin C → EReal) (g b : Fin C → EReal) (n : Fin R) (c : Fin C) :
    clipAffine (h n c) (scaleK (colSum h c) (colSumSq h c) (g c)) (shiftK (colSum h c) (colSumSq h c) (g c) (b c))
      = clip (bnK h g b n c) := rfl

/-- The 144-column scale-and-shift table of a statistics table holds the specification's scale and shift. -/
theorem ss144_row0 (st : FVec Ideal S2x144 .f32) (g b : FVec Ideal S144 .f32) (c : Fin 144) :
    ssOf144 st g b (ix2 (0 : Fin 2) c) = scaleK (st (ix2 (0 : Fin 2) c)) (st (ix2 (1 : Fin 2) c)) (g (ix1 c)) :=
  ssOf144_row0 st g b c
theorem ss144_row1 (st : FVec Ideal S2x144 .f32) (g b : FVec Ideal S144 .f32) (c : Fin 144) :
    ssOf144 st g b (ix2 (1 : Fin 2) c) = shiftK (st (ix2 (0 : Fin 2) c)) (st (ix2 (1 : Fin 2) c)) (g (ix1 c)) (b (ix1 c)) :=
  ssOf144_row1 st g b c
theorem ss24_row0 (st : FVec Ideal S2x24 .f32) (g b : FVec Ideal S24 .f32) (c : Fin 24) :
    ssOf24 st g b (ix2 (0 : Fin 2) c) = scaleK (st (ix2 (0 : Fin 2) c)) (st (ix2 (1 : Fin 2) c)) (g (ix1 c)) :=
  ssOf24_row0 st g b c
theorem ss24_row1 (st : FVec Ideal S2x24 .f32) (g b : FVec Ideal S24 .f32) (c : Fin 24) :
    ssOf24 st g b (ix2 (1 : Fin 2) c) = shiftK (st (ix2 (0 : Fin 2) c)) (st (ix2 (1 : Fin 2) c)) (g (ix1 c)) (b (ix1 c)) :=
  ssOf24_row1 st g b c

/-- The first elementwise call's output is clip ∘ BN of the product f·w. -/
theorem X1_bn (f : FVec Ideal S100000x24 .f32) (w : FVec Ideal S24x144 .f32) (st : FVec Ideal S2x144 .f32) (g b : FVec Ideal S144 .f32)
    (h0 : ∀ l, st (ix2 (0 : Fin 2) l) = colSum (mm (cur f) (cur w)) l)
    (h1 : ∀ l, st (ix2 (1 : Fin 2) l) = colSumSq (mm (cur f) (cur w)) l) :
    X1 f w (ssOf144 st g b) = arr fun n l => clip (bnK (mm (cur f) (cur w)) (vec g) (vec b) n l) := by
  funext j
  obtain ⟨n, l, rfl⟩ : ∃ (n : Fin 100000) (l : Fin 144), j = ix2 n l := ⟨j 0, j 1, eq_ix2 j⟩
  rw [X1_apply, ss144_row0, ss144_row1, h0, h1]
  exact clipAffine_bn (mm (cur f) (cur w)) (vec g) (vec b) n l

/-- An entry of the convolved array scaled, shifted and clipped by its table is clip ∘ BN of the array. -/
theorem x2_bn (cv : FVec Ideal S100000x144 .f32) (st : FVec Ideal S2x144 .f32) (g b : FVec Ideal S144 .f32)
    (h0 : ∀ l, st (ix2 (0 : Fin 2) l) = colSum (cur cv) l)
    (h1 : ∀ l, st (ix2 (1 : Fin 2) l) = colSumSq (cur cv) l) (n : Fin 100000) (q : Fin 144) :
    clipAffine (cv (ix2 n q)) (ssOf144 st g b (ix2 (0 : Fin 2) q)) (ssOf144 st g b (ix2 (1 : Fin 2) q))
      = clip (bnK (cur cv) (vec g) (vec b) n q) := by
  rw [ss144_row0, ss144_row1, h0, h1]
  exact clipAffine_bn (cur cv) (vec g) (vec b) n q

/-- The projected array: clip ∘ BN of the convolved array times the weights. -/
abbrev proj3 (cv : FVec Ideal S100000x144 .f32) (g b : FVec Ideal S144 .f32) (w3 : FVec Ideal S144x24 .f32) : Fin 100000 → Fin 24 → EReal :=
  mm (fun n q => clip (bnK (cur cv) (vec g) (vec b) n q)) (cur w3)

/-- The last call's output is BN of the projected array plus the residual. -/
theorem Out4_bn (cv : FVec Ideal S100000x144 .f32) (st2 : FVec Ideal S2x144 .f32) (g2 b2 : FVec Ideal S144 .f32)
    (w3 : FVec Ideal S144x24 .f32) (st3 : FVec Ideal S2x24 .f32) (g3 b3 : FVec Ideal S24 .f32) (f : FVec Ideal S100000x24 .f32)
    (h0 : ∀ l, st2 (ix2 (0 : Fin 2) l) = colSum (cur cv) l)
    (h1 : ∀ l, st2 (ix2 (1 : Fin 2) l) = colSumSq (cur cv) l)
    (k0 : ∀ l, st3 (ix2 (0 : Fin 2) l) = colSum (proj3 cv g2 b2 w3) l)
    (k1 : ∀ l, st3 (ix2 (1 : Fin 2) l) = colSumSq (proj3 cv g2 b2 w3) l) (n : Fin 100000) (l : Fin 24) :
    Out4 cv (ssOf144 st2 g2 b2) w3 (ssOf24 st3 g3 b3) f (ix2 n l)
      = bnK (proj3 cv g2 b2 w3) (vec g3) (vec b3) n l + f (ix2 n l) := by
  rw [Out4_apply, ss24_row0, ss24_row1, k0, k1]
  have e : (∑ q : Fin 144, clipAffine (cv (ix2 n q)) (ssOf144 st2 g2 b2 (ix2 (0 : Fin 2) q)) (ssOf144 st2 g2 b2 (ix2 (1 : Fin 2) q)) * w3 (ix2 q l))
      = proj3 cv g2 b2 w3 n l :=
    Finset.sum_congr rfl fun q _ => by rw [x2_bn cv st2 g2 b2 h0 h1 n q]
  rw [e]
  rfl

end Cert.KernelIdeal.KStages

end
-- ==== Proof.KHost.lean ====
/-
  The host side of the idealized kernel's program: what each stretch leaves.

  The contents of the program's buffers at the ten boundaries between its five pipelined calls and four stretches of
  host operations are a fold from the launch memory. Here each stretch's result buffer is read as the stretch's
  whole-array function of the contents the stretch started from.
-/
import proofs.«119352_j15083925143721_1_alg».proof.Proof.Gen.KernelIdeal.Frame
import proofs.«119352_j15083925143721_1_alg».proof.Proof.KHostDefs
import Idealize.ShloMosaic.Lib.StableHlo.Run

set_option maxRecDepth 16384

noncomputable section

namespace Cert.KernelIdeal.KHost

open Idealize.ShloMosaic Idealize.ShloMosaic.TcCoe Idealize.SL.Sem
open Cert.KernelIdeal Cert.KernelIdeal.Gen

/-! ## What the statistics stretches leave -/

variable (m : (ℓ : Loc nD τ sig) → Buf (Elt Ideal) ℓ) (ρ : Dev nD → PrngReg)

/-- After the first stretch the table read by the second call is the scale-and-shift table of the first call's statistics. -/
theorem W2_v19 (c : Dev nD) :
    W2 m ρ c (Proc.devRef .tc main_v19)
      = ssOf144 (W1 m ρ c (Proc.devRef .tc main_v0)) (W1 m ρ c (Proc.devRef .tc main_arg2)) (W1 m ρ c (Proc.devRef .tc main_arg3)) := by
  show StableHlo.after hostOps1 (W1 m ρ c) (Proc.devRef .tc main_v19) = _
  after_results_simp
  rfl

/-- After the third stretch the table read by the fourth call is the scale-and-shift table of the third call's statistics. -/
theorem W6_v66 (c : Dev nD) :
    W6 m ρ c (Proc.devRef .tc main_v66)
      = ssOf144 (W5 m ρ c (Proc.devRef .tc main_v47)) (W5 m ρ c (Proc.devRef .tc main_arg5)) (W5 m ρ c (Proc.devRef .tc main_arg6)) := by
  show StableHlo.after hostOps3 (W5 m ρ c) (Proc.devRef .tc main_v66) = _
  after_results_simp
  rfl

/-- After the fourth stretch the table read by the fifth call is the scale-and-shift table of the fourth call's statistics. -/
theorem W8_v86 (c : Dev nD) :
    W8 m ρ c (Proc.devRef .tc main_v86)
      = ssOf24 (W7 m ρ c (Proc.devRef .tc main_v67)) (W7 m ρ c (Proc.devRef .tc main_arg8)) (W7 m ρ c (Proc.devRef .tc main_arg9)) := by
  show StableHlo.after hostOps4 (W7 m ρ c) (Proc.devRef .tc main_v86) = _
  after_results_simp
  rfl

/-- After the second stretch the activation read by the third, fourth and fifth calls is the gather, multiply and
    scatter-add of the second call's result along the three index arguments. -/
theorem W4_v46 (c : Dev nD) :
    W4 m ρ c (Proc.devRef .tc main_v46)
      = convOf (W3 m ρ c (Proc.devRef .tc main_v20)) (W3 m ρ c (Proc.devRef .tc main_arg4))
          (W3 m ρ c (Proc.devRef .tc main_arg10)) (W3 m ρ c (Proc.devRef .tc main_arg11)) (W3 m ρ c (Proc.devRef .tc main_arg12)) := by
  show StableHlo.after hostOps2 (W3 m ρ c) (Proc.devRef .tc main_v46) = _
  after_results_simp
  rfl

end Cert.KernelIdeal.KHost

end
-- ==== Proof.KHostWalk.lean ====
/-
  The host side of the idealized kernel's program: what passes through.

  The contents of the program's buffers at the ten boundaries between its five pipelined calls and four stretches of
  host operations are a fold from the launch memory. Here every buffer a call reads that no step in between writes is
  walked back to where it was last written: an argument to the launch memory, a stretch's result to the boundary
  right after that stretch.
-/
import proofs.«119352_j15083925143721_1_alg».proof.Proof.Gen.KernelIdeal.Frame
import Idealize.ShloMosaic.Lib.StableHlo.Run

set_option maxRecDepth 16384

noncomputable section

namespace Cert.KernelIdeal.KHost

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ) (ρ : Dev nD → PrngReg)

/-- A stretch of host operations leaves a buffer that none of them writes as it was: closes
    `after ops V b = V b` (a boundary after a stretch against the boundary before it) for a literal `b`. -/
macro "host_keeps" : tactic =>
  `(tactic| exact StableHlo.after_of_forall_not_mem _ _ (List.forall_iff_forall_mem.mp (by
      simp only [hostOps1, hostOps2, hostOps3, hostOps4, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What passes through: an argument's buffer read back to the launch memory

Each boundary's contents at an argument's buffer are the launch memory's: a stretch of host operations writes none of the
arguments, and a pipelined call either does not touch the buffer or reads it through an input window, which leaves its
array as it was. -/
theorem W1_arg0 (c : Dev nD) : W1 m ρ c (Proc.devRef .tc main_arg0) = m ((c : Thread nD τ).loc main_arg0) :=
  (show W1 m ρ c (Proc.devRef .tc main_arg0) = W0 m ρ c (Proc.devRef .tc main_arg0) from (W1_arr m ρ c 0).trans (((dat0 (V0 m ρ) c).arrAt_in 0 rfl _).trans (A_eq0 (V0 m ρ) c 0)))
theorem W2_arg0 (c : Dev nD) : W2 m ρ c (Proc.devRef .tc main_arg0) = m ((c : Thread nD τ).loc main_arg0) :=
  (show W2 m ρ c (Proc.devRef .tc main_arg0) = W1 m ρ c (Proc.devRef .tc main_arg0) from by host_keeps).trans (W1_arg0 m ρ c)
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) from (W3_arr m ρ c 0).trans (((dat1 (V2 m ρ) c).arrAt_in 0 rfl _).trans (A_eq1 (V2 m ρ) c 0))).trans (W2_arg0 m ρ c)
theorem W4_arg0 (c : Dev nD) : W4 m ρ c (Proc.devRef .tc main_arg0) = m ((c : Thread nD τ).loc main_arg0) :=
  (show W4 m ρ c (Proc.devRef .tc main_arg0) = W3 m ρ c (Proc.devRef .tc main_arg0) from by host_keeps).trans (W3_arg0 m ρ c)
theorem W5_arg0 (c : Dev nD) : W5 m ρ c (Proc.devRef .tc main_arg0) = m ((c : Thread nD τ).loc main_arg0) :=
  (show W5 m ρ c (Proc.devRef .tc main_arg0) = W4 m ρ c (Proc.devRef .tc main_arg0) from W5_of_ne m ρ c main_arg0 (by decide)).trans (W4_arg0 m ρ c)
theorem W6_arg0 (c : Dev nD) : W6 m ρ c (Proc.devRef .tc main_arg0) = m ((c : Thread nD τ).loc main_arg0) :=
  (show W6 m ρ c (Proc.devRef .tc main_arg0) = W5 m ρ c (Proc.devRef .tc main_arg0) from by host_keeps).trans (W5_arg0 m ρ c)
theorem W7_arg0 (c : Dev nD) : W7 m ρ c (Proc.devRef .tc main_arg0) = m ((c : Thread nD τ).loc main_arg0) :=
  (show W7 m ρ c (Proc.devRef .tc main_arg0) = W6 m ρ c (Proc.devRef .tc main_arg0) from W7_of_ne m ρ c main_arg0 (by decide)).trans (W6_arg0 m ρ c)
theorem W8_arg0 (c : Dev nD) : W8 m ρ c (Proc.devRef .tc main_arg0) = m ((c : Thread nD τ).loc main_arg0) :=
  (show W8 m ρ c (Proc.devRef .tc main_arg0) = W7 m ρ c (Proc.devRef .tc main_arg0) from by host_keeps).trans (W7_arg0 m ρ c)
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) from (W1_arr m ρ c 1).trans (((dat0 (V0 m ρ) c).arrAt_in 1 rfl _).trans (A_eq0 (V0 m ρ) c 1)))
theorem W2_arg1 (c : Dev nD) : W2 m ρ c (Proc.devRef .tc main_arg1) = m ((c : Thread nD τ).loc main_arg1) :=
  (show W2 m ρ c (Proc.devRef .tc main_arg1) = W1 m ρ c (Proc.devRef .tc main_arg1) from by host_keeps).trans (W1_arg1 m ρ c)
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) from W1_of_ne m ρ c main_arg2 (by decide))
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) from W1_of_ne m ρ c main_arg3 (by decide))
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) from W1_of_ne m ρ c main_arg4 (by decide))
theorem W2_arg4 (c : Dev nD) : W2 m ρ c (Proc.devRef .tc main_arg4) = m ((c : Thread nD τ).loc main_arg4) :=
  (show W2 m ρ c (Proc.devRef .tc main_arg4) = W1 m ρ c (Proc.devRef .tc main_arg4) from by host_keeps).trans (W1_arg4 m ρ c)
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) from W3_of_ne m ρ c main_arg4 (by decide)).trans (W2_arg4 m ρ c)
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) from W1_of_ne m ρ c main_arg5 (by decide))
theorem W2_arg5 (c : Dev nD) : W2 m ρ c (Proc.devRef .tc main_arg5) = m ((c : Thread nD τ).loc main_arg5) :=
  (show W2 m ρ c (Proc.devRef .tc main_arg5) = W1 m ρ c (Proc.devRef .tc main_arg5) from by host_keeps).trans (W1_arg5 m ρ c)
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) from W3_of_ne m ρ c main_arg5 (by decide)).trans (W2_arg5 m ρ c)
theorem W4_arg5 (c : Dev nD) : W4 m ρ c (Proc.devRef .tc main_arg5) = m ((c : Thread nD τ).loc main_arg5) :=
  (show W4 m ρ c (Proc.devRef .tc main_arg5) = W3 m ρ c (Proc.devRef .tc main_arg5) from by host_keeps).trans (W3_arg5 m ρ c)
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) from W5_of_ne m ρ c main_arg5 (by decide)).trans (W4_arg5 m ρ c)
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) from W1_of_ne m ρ c main_arg6 (by decide))
theorem W2_arg6 (c : Dev nD) : W2 m ρ c (Proc.devRef .tc main_arg6) = m ((c : Thread nD τ).loc main_arg6) :=
  (show W2 m ρ c (Proc.devRef .tc main_arg6) = W1 m ρ c (Proc.devRef .tc main_arg6) from by host_keeps).trans (W1_arg6 m ρ c)
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) from W3_of_ne m ρ c main_arg6 (by decide)).trans (W2_arg6 m ρ c)
theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from by host_keeps).trans (W3_arg6 m ρ c)
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) from W5_of_ne m ρ c main_arg6 (by decide)).trans (W4_arg6 m ρ c)
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) from W1_of_ne m ρ c main_arg7 (by decide))
theorem W2_arg7 (c : Dev nD) : W2 m ρ c (Proc.devRef .tc main_arg7) = m ((c : Thread nD τ).loc main_arg7) :=
  (show W2 m ρ c (Proc.devRef .tc main_arg7) = W1 m ρ c (Proc.devRef .tc main_arg7) from by host_keeps).trans (W1_arg7 m ρ c)
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) from W3_of_ne m ρ c main_arg7 (by decide)).trans (W2_arg7 m ρ c)
theorem W4_arg7 (c : Dev nD) : W4 m ρ c (Proc.devRef .tc main_arg7) = m ((c : Thread nD τ).loc main_arg7) :=
  (show W4 m ρ c (Proc.devRef .tc main_arg7) = W3 m ρ c (Proc.devRef .tc main_arg7) from by host_keeps).trans (W3_arg7 m ρ c)
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) from W5_of_ne m ρ c main_arg7 (by decide)).trans (W4_arg7 m ρ c)
theorem W6_arg7 (c : Dev nD) : W6 m ρ c (Proc.devRef .tc main_arg7) = m ((c : Thread nD τ).loc main_arg7) :=
  (show W6 m ρ c (Proc.devRef .tc main_arg7) = W5 m ρ c (Proc.devRef .tc main_arg7) from by host_keeps).trans (W5_arg7 m ρ c)
theorem W7_arg7 (c : Dev nD) : W7 m ρ c (Proc.devRef .tc main_arg7) = m ((c : Thread nD τ).loc main_arg7) :=
  (show W7 m ρ c (Proc.devRef .tc main_arg7) = W6 m ρ c (Proc.devRef .tc main_arg7) from (W7_arr m ρ c 2).trans (((dat3 (V6 m ρ) c).arrAt_in 2 rfl _).trans (A_eq3 (V6 m ρ) c 2))).trans (W6_arg7 m ρ c)
theorem W8_arg7 (c : Dev nD) : W8 m ρ c (Proc.devRef .tc main_arg7) = m ((c : Thread nD τ).loc main_arg7) :=
  (show W8 m ρ c (Proc.devRef .tc main_arg7) = W7 m ρ c (Proc.devRef .tc main_arg7) from by host_keeps).trans (W7_arg7 m ρ c)
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) from W1_of_ne m ρ c main_arg8 (by decide))
theorem W2_arg8 (c : Dev nD) : W2 m ρ c (Proc.devRef .tc main_arg8) = m ((c : Thread nD τ).loc main_arg8) :=
  (show W2 m ρ c (Proc.devRef .tc main_arg8) = W1 m ρ c (Proc.devRef .tc main_arg8) from by host_keeps).trans (W1_arg8 m ρ c)
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) from W3_of_ne m ρ c main_arg8 (by decide)).trans (W2_arg8 m ρ c)
theorem W4_arg8 (c : Dev nD) : W4 m ρ c (Proc.devRef .tc main_arg8) = m ((c : Thread nD τ).loc main_arg8) :=
  (show W4 m ρ c (Proc.devRef .tc main_arg8) = W3 m ρ c (Proc.devRef .tc main_arg8) from by host_keeps).trans (W3_arg8 m ρ c)
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) from W5_of_ne m ρ c main_arg8 (by decide)).trans (W4_arg8 m ρ c)
theorem W6_arg8 (c : Dev nD) : W6 m ρ c (Proc.devRef .tc main_arg8) = m ((c : Thread nD τ).loc main_arg8) :=
  (show W6 m ρ c (Proc.devRef .tc main_arg8) = W5 m ρ c (Proc.devRef .tc main_arg8) from by host_keeps).trans (W5_arg8 m ρ c)
theorem W7_arg8 (c : Dev nD) : W7 m ρ c (Proc.devRef .tc main_arg8) = m ((c : Thread nD τ).loc main_arg8) :=
  (show W7 m ρ c (Proc.devRef .tc main_arg8) = W6 m ρ c (Proc.devRef .tc main_arg8) from W7_of_ne m ρ c main_arg8 (by decide)).trans (W6_arg8 m ρ c)
theorem W1_arg9 (c : Dev nD) : W1 m ρ c (Proc.devRef .tc main_arg9) = m ((c : Thread nD τ).loc main_arg9) :=
  (show W1 m ρ c (Proc.devRef .tc main_arg9) = W0 m ρ c (Proc.devRef .tc main_arg9) from W1_of_ne m ρ c main_arg9 (by decide))
theorem W2_arg9 (c : Dev nD) : W2 m ρ c (Proc.devRef .tc main_arg9) = m ((c : Thread nD τ).loc main_arg9) :=
  (show W2 m ρ c (Proc.devRef .tc main_arg9) = W1 m ρ c (Proc.devRef .tc main_arg9) from by host_keeps).trans (W1_arg9 m ρ c)
theorem W3_arg9 (c : Dev nD) : W3 m ρ c (Proc.devRef .tc main_arg9) = m ((c : Thread nD τ).loc main_arg9) :=
  (show W3 m ρ c (Proc.devRef .tc main_arg9) = W2 m ρ c (Proc.devRef .tc main_arg9) from W3_of_ne m ρ c main_arg9 (by decide)).trans (W2_arg9 m ρ c)
theorem W4_arg9 (c : Dev nD) : W4 m ρ c (Proc.devRef .tc main_arg9) = m ((c : Thread nD τ).loc main_arg9) :=
  (show W4 m ρ c (Proc.devRef .tc main_arg9) = W3 m ρ c (Proc.devRef .tc main_arg9) from by host_keeps).trans (W3_arg9 m ρ c)
theorem W5_arg9 (c : Dev nD) : W5 m ρ c (Proc.devRef .tc main_arg9) = m ((c : Thread nD τ).loc main_arg9) :=
  (show W5 m ρ c (Proc.devRef .tc main_arg9) = W4 m ρ c (Proc.devRef .tc main_arg9) from W5_of_ne m ρ c main_arg9 (by decide)).trans (W4_arg9 m ρ c)
theorem W6_arg9 (c : Dev nD) : W6 m ρ c (Proc.devRef .tc main_arg9) = m ((c : Thread nD τ).loc main_arg9) :=
  (show W6 m ρ c (Proc.devRef .tc main_arg9) = W5 m ρ c (Proc.devRef .tc main_arg9) from by host_keeps).trans (W5_arg9 m ρ c)
theorem W7_arg9 (c : Dev nD) : W7 m ρ c (Proc.devRef .tc main_arg9) = m ((c : Thread nD τ).loc main_arg9) :=
  (show W7 m ρ c (Proc.devRef .tc main_arg9) = W6 m ρ c (Proc.devRef .tc main_arg9) from W7_of_ne m ρ c main_arg9 (by decide)).trans (W6_arg9 m ρ c)
theorem W1_arg10 (c : Dev nD) : W1 m ρ c (Proc.devRef .tc main_arg10) = m ((c : Thread nD τ).loc main_arg10) :=
  (show W1 m ρ c (Proc.devRef .tc main_arg10) = W0 m ρ c (Proc.devRef .tc main_arg10) from W1_of_ne m ρ c main_arg10 (by decide))
theorem W2_arg10 (c : Dev nD) : W2 m ρ c (Proc.devRef .tc main_arg10) = m ((c : Thread nD τ).loc main_arg10) :=
  (show W2 m ρ c (Proc.devRef .tc main_arg10) = W1 m ρ c (Proc.devRef .tc main_arg10) from by host_keeps).trans (W1_arg10 m ρ c)
theorem W3_arg10 (c : Dev nD) : W3 m ρ c (Proc.devRef .tc main_arg10) = m ((c : Thread nD τ).loc main_arg10) :=
  (show W3 m ρ c (Proc.devRef .tc main_arg10) = W2 m ρ c (Proc.devRef .tc main_arg10) from W3_of_ne m ρ c main_arg10 (by decide)).trans (W2_arg10 m ρ c)
theorem W1_arg11 (c : Dev nD) : W1 m ρ c (Proc.devRef .tc main_arg11) = m ((c : Thread nD τ).loc main_arg11) :=
  (show W1 m ρ c (Proc.devRef .tc main_arg11) = W0 m ρ c (Proc.devRef .tc main_arg11) from W1_of_ne m ρ c main_arg11 (by decide))
theorem W2_arg11 (c : Dev nD) : W2 m ρ c (Proc.devRef .tc main_arg11) = m ((c : Thread nD τ).loc main_arg11) :=
  (show W2 m ρ c (Proc.devRef .tc main_arg11) = W1 m ρ c (Proc.devRef .tc main_arg11) from by host_keeps).trans (W1_arg11 m ρ c)
theorem W3_arg11 (c : Dev nD) : W3 m ρ c (Proc.devRef .tc main_arg11) = m ((c : Thread nD τ).loc main_arg11) :=
  (show W3 m ρ c (Proc.devRef .tc main_arg11) = W2 m ρ c (Proc.devRef .tc main_arg11) from W3_of_ne m ρ c main_arg11 (by decide)).trans (W2_arg11 m ρ c)
theorem W1_arg12 (c : Dev nD) : W1 m ρ c (Proc.devRef .tc main_arg12) = m ((c : Thread nD τ).loc main_arg12) :=
  (show W1 m ρ c (Proc.devRef .tc main_arg12) = W0 m ρ c (Proc.devRef .tc main_arg12) from W1_of_ne m ρ c main_arg12 (by decide))
theorem W2_arg12 (c : Dev nD) : W2 m ρ c (Proc.devRef .tc main_arg12) = m ((c : Thread nD τ).loc main_arg12) :=
  (show W2 m ρ c (Proc.devRef .tc main_arg12) = W1 m ρ c (Proc.devRef .tc main_arg12) from by host_keeps).trans (W1_arg12 m ρ c)
theorem W3_arg12 (c : Dev nD) : W3 m ρ c (Proc.devRef .tc main_arg12) = m ((c : Thread nD τ).loc main_arg12) :=
  (show W3 m ρ c (Proc.devRef .tc main_arg12) = W2 m ρ c (Proc.devRef .tc main_arg12) from W3_of_ne m ρ c main_arg12 (by decide)).trans (W2_arg12 m ρ c)

/-! ## What passes through: the tables and the gathered activation between the calls that read them -/

/-- The gathered activation reaches the fourth call as the second stretch left it. -/
theorem W6_v46 (c : Dev nD) : W6 m ρ c (Proc.devRef .tc main_v46) = W4 m ρ c (Proc.devRef .tc main_v46) :=
  (show W6 m ρ c (Proc.devRef .tc main_v46) = W5 m ρ c (Proc.devRef .tc main_v46) from by host_keeps).trans
    (show W5 m ρ c (Proc.devRef .tc main_v46) = W4 m ρ c (Proc.devRef .tc main_v46) from (W5_arr m ρ c 0).trans (((dat2 (V4 m ρ) c).arrAt_in 0 rfl _).trans (A_eq2 (V4 m ρ) c 0)))
/-- The gathered activation reaches the fifth call as the second stretch left it. -/
theorem W8_v46 (c : Dev nD) : W8 m ρ c (Proc.devRef .tc main_v46) = W4 m ρ c (Proc.devRef .tc main_v46) :=
  (show W8 m ρ c (Proc.devRef .tc main_v46) = W7 m ρ c (Proc.devRef .tc main_v46) from by host_keeps).trans
    ((show W7 m ρ c (Proc.devRef .tc main_v46) = W6 m ρ c (Proc.devRef .tc main_v46) from (W7_arr m ρ c 0).trans (((dat3 (V6 m ρ) c).arrAt_in 0 rfl _).trans (A_eq3 (V6 m ρ) c 0))).trans (W6_v46 m ρ c))
/-- The second scale-and-shift table reaches the fifth call as the third stretch left it. -/
theorem W8_v66 (c : Dev nD) : W8 m ρ c (Proc.devRef .tc main_v66) = W6 m ρ c (Proc.devRef .tc main_v66) :=
  (show W8 m ρ c (Proc.devRef .tc main_v66) = W7 m ρ c (Proc.devRef .tc main_v66) from by host_keeps).trans
    (show W7 m ρ c (Proc.devRef .tc main_v66) = W6 m ρ c (Proc.devRef .tc main_v66) from (W7_arr m ρ c 1).trans (((dat3 (V6 m ρ) c).arrAt_in 1 rfl _).trans (A_eq3 (V6 m ρ) c 1)))

end Cert.KernelIdeal.KHost

end
-- ==== Proof.KChain.lean ====
/-
  The idealized kernel's result as the entry-by-entry specification.

  The contents of the program's buffers at the boundaries between its five pipelined calls and four stretches of host
  operations are followed from the launch memory to the result: the first call's statistics of f·w1, the first
  scale-and-shift table, the clipped normalised product, the sparse convolution, its statistics and table, the
  statistics of the projected array and their table, and the last call's output — which is, entry by entry, the
  specification's function of the argument arrays.
-/
import proofs.«119352_j15083925143721_1_alg».proof.Proof.KReg0
import proofs.«119352_j15083925143721_1_alg».proof.Proof.KReg2
import proofs.«119352_j15083925143721_1_alg».proof.Proof.KReg3
import proofs.«119352_j15083925143721_1_alg».proof.Proof.KStages
import proofs.«119352_j15083925143721_1_alg».proof.Proof.KHost
import proofs.«119352_j15083925143721_1_alg».proof.Proof.KHostWalk

noncomputable section

namespace Cert.KernelIdeal.KChain

open Idealize.ShloMosaic Idealize.ShloMosaic.TcCoe Idealize.SL.Sem Idealize.ShloMosaic.ValueIdx
open Cert.KernelIdeal Cert.KernelIdeal.Gen Cert.KernelIdeal.KPay Cert.KernelIdeal.KHost Cert.KernelIdeal.KStages Cert.Spec
open Cert.KernelIdeal.KReg1 (X1)
open Cert.KernelIdeal.KReg4 (Out4)

variable (m : (ℓ : Loc nD τ sig) → Buf (Elt Ideal) ℓ) (ρ : Dev nD → PrngReg) (c : Dev nD)

/-- The argument arrays at launch. -/
abbrev a0 : FVec Ideal S100000x24 .f32 := m ((c : Thread nD τ).loc main_arg0)
abbrev a1 : FVec Ideal S24x144 .f32 := m ((c : Thread nD τ).loc main_arg1)
abbrev a2 : FVec Ideal S144 .f32 := m ((c : Thread nD τ).loc main_arg2)
abbrev a3 : FVec Ideal S144 .f32 := m ((c : Thread nD τ).loc main_arg3)
abbrev a4 : FVec Ideal S9x144 .f32 := m ((c : Thread nD τ).loc main_arg4)
abbrev a5 : FVec Ideal S144 .f32 := m ((c : Thread nD τ).loc main_arg5)
abbrev a6 : FVec Ideal S144 .f32 := m ((c : Thread nD τ).loc main_arg6)
abbrev a7 : FVec Ideal S144x24 .f32 := m ((c : Thread nD τ).loc main_arg7)
abbrev a8 : FVec Ideal S24 .f32 := m ((c : Thread nD τ).loc main_arg8)
abbrev a9 : FVec Ideal S24 .f32 := m ((c : Thread nD τ).loc main_arg9)
abbrev a10 : IVec S900000 32 := m ((c : Thread nD τ).loc main_arg10)
abbrev a11 : IVec S900000 32 := m ((c : Thread nD τ).loc main_arg11)
abbrev a12 : IVec S900000 32 := m ((c : Thread nD τ).loc main_arg12)

/-- The sparse convolution as a function of a matrix given row by column. -/
abbrev convP : (Fin 100000 → Fin 144 → EReal) → Fin 100000 → Fin 144 → EReal :=
  fun x n l => convOf (fun j => x (j 0) (j 1)) (a4 m c) (a10 m c) (a11 m c) (a12 m c) (ix2 n l)

/-- The product f·w1 and the clipped normalised product. -/
abbrev H1 : Fin 100000 → Fin 144 → EReal := mm (cur (a0 m c)) (cur (a1 m c))
abbrev x1 : Fin 100000 → Fin 144 → EReal := fun n l => clip (bnK (H1 m c) (vec (a2 m c)) (vec (a3 m c)) n l)

/-! ## The buffers at the boundaries -/

abbrev st1 : FVec Ideal S2x144 .f32 := W1 m ρ c (Proc.devRef .tc main_v0)
abbrev x1arr : FVec Ideal S100000x144 .f32 := W3 m ρ c (Proc.devRef .tc main_v20)
abbrev cv : FVec Ideal S100000x144 .f32 := W4 m ρ c (Proc.devRef .tc main_v46)
abbrev st2 : FVec Ideal S2x144 .f32 := W5 m ρ c (Proc.devRef .tc main_v47)
abbrev st3 : FVec Ideal S2x24 .f32 := W7 m ρ c (Proc.devRef .tc main_v67)

/-- The first call leaves the statistics of f·w1. -/
theorem st1_eq : st1 m ρ c = KReg0.stats (V0 m ρ) c := (W1_arr m ρ c 2).trans (KReg0.final0 (V0 m ρ) c)
theorem st1_row0 (l : Fin 144) : st1 m ρ c (ix2 (0 : Fin 2) l) = colSum (H1 m c) l := by
  rw [st1_eq]; exact KReg0.stats_row0 (V0 m ρ) c l
theorem st1_row1 (l : Fin 144) : st1 m ρ c (ix2 (1 : Fin 2) l) = colSumSq (H1 m c) l := by
  rw [st1_eq]; exact KReg0.stats_row1 (V0 m ρ) c l

/-- The second call leaves the clipped normalised product. -/
theorem x1arr_eq : x1arr m ρ c = arr (x1 m c) := by
  refine (W3_arr m ρ c 3).trans ((KReg1.final1 (V2 m ρ) c).trans ?_)
  show X1 (W2 m ρ c (Proc.devRef .tc main_arg0)) (W2 m ρ c (Proc.devRef .tc main_arg1)) (W2 m ρ c (Proc.devRef .tc main_v19)) = _
  rw [W2_arg0, W2_arg1, W2_v19, W1_arg2, W1_arg3]
  exact X1_bn (a0 m c) (a1 m c) (st1 m ρ c) (a2 m c) (a3 m c) (st1_row0 m ρ c) (st1_row1 m ρ c)

/-- The second stretch leaves the sparse convolution of it. -/
theorem cv_eq : cv m ρ c = convOf (arr (x1 m c)) (a4 m c) (a10 m c) (a11 m c) (a12 m c) := by
  show W4 m ρ c (Proc.devRef .tc main_v46) = _
  rw [W4_v46, W3_arg4, W3_arg10, W3_arg11, W3_arg12]
  exact congrArg (fun x => convOf x (a4 m c) (a10 m c) (a11 m c) (a12 m c)) (x1arr_eq m ρ c)
theorem cv_cur : cur (cv m ρ c) = convP m c (x1 m c) := by rw [cv_eq]

/-- The third call leaves the statistics of the convolved array. -/
theorem st2_eq : st2 m ρ c = KReg2.stats (V4 m ρ) c := (W5_arr m ρ c 1).trans (KReg2.final2 (V4 m ρ) c)
theorem st2_row0 (l : Fin 144) : st2 m ρ c (ix2 (0 : Fin 2) l) = colSum (cur (cv m ρ c)) l := by
  rw [st2_eq]; exact KReg2.stats_row0 (V4 m ρ) c l
theorem st2_row1 (l : Fin 144) : st2 m ρ c (ix2 (1 : Fin 2) l) = colSumSq (cur (cv m ρ c)) l := by
  rw [st2_eq]; exact KReg2.stats_row1 (V4 m ρ) c l

/-- The second scale-and-shift table. -/
theorem ss2_eq : (W6 m ρ c (Proc.devRef .tc main_v66) : FVec Ideal S2x144 .f32) = ssOf144 (st2 m ρ c) (a5 m c) (a6 m c) := by
  rw [W6_v66, W5_arg5, W5_arg6]

/-- The fourth call's projected entry is the specification's. -/
theorem pr_eq (n : Fin 100000) (l : Fin 24) : KReg3.pr (V6 m ρ) c n l = proj3 (cv m ρ c) (a5 m c) (a6 m c) (a7 m c) n l := by
  have e46 : KReg3.inp (V6 m ρ) c = cv m ρ c := W6_v46 m ρ c
  have e66 : KReg3.ssA (V6 m ρ) c = ssOf144 (st2 m ρ c) (a5 m c) (a6 m c) := ss2_eq m ρ c
  have e7 : KReg3.wts (V6 m ρ) c = a7 m c := W6_arg7 m ρ c
  unfold KReg3.pr
  rw [e46, e66, e7]
  exact Finset.sum_congr rfl fun q _ => by
    rw [x2_bn (cv m ρ c) (st2 m ρ c) (a5 m c) (a6 m c) (st2_row0 m ρ c) (st2_row1 m ρ c) n q]

/-- The fourth call leaves the statistics of the projected array. -/
theorem st3_eq : st3 m ρ c = KReg3.stats (V6 m ρ) c := (W7_arr m ρ c 3).trans (KReg3.final3 (V6 m ρ) c)
theorem st3_row0 (l : Fin 24) : st3 m ρ c (ix2 (0 : Fin 2) l) = colSum (proj3 (cv m ρ c) (a5 m c) (a6 m c) (a7 m c)) l := by
  rw [st3_eq]
  exact (KReg3.stats_row0 (V6 m ρ) c l).trans (Finset.sum_congr rfl fun n _ => pr_eq m ρ c n l)
theorem st3_row1 (l : Fin 24) : st3 m ρ c (ix2 (1 : Fin 2) l) = colSumSq (proj3 (cv m ρ c) (a5 m c) (a6 m c) (a7 m c)) l := by
  rw [st3_eq]
  exact (KReg3.stats_row1 (V6 m ρ) c l).trans (Finset.sum_congr rfl fun n _ => by rw [pr_eq m ρ c n l])

/-- The last call leaves the specification's function of the arguments. -/
theorem result_apply (n : Fin 100000) (l : Fin 24) :
    (W9 m ρ c (Proc.devRef .tc main_v87) : FVec Ideal S100000x24 .f32) (ix2 n l)
      = outK (cur (a0 m c)) (cur (a1 m c)) (vec (a2 m c)) (vec (a3 m c)) (convP m c) (vec (a5 m c)) (vec (a6 m c))
          (cur (a7 m c)) (vec (a8 m c)) (vec (a9 m c)) n l := by
  have e : (W9 m ρ c (Proc.devRef .tc main_v87) : FVec Ideal S100000x24 .f32)
      = Out4 (cv m ρ c) (ssOf144 (st2 m ρ c) (a5 m c) (a6 m c)) (a7 m c) (ssOf24 (st3 m ρ c) (a8 m c) (a9 m c)) (a0 m c) := by
    refine (W9_arr m ρ c 5).trans ((KReg4.final4 (V8 m ρ) c).trans ?_)
    show Out4 (W8 m ρ c (Proc.devRef .tc main_v46)) (W8 m ρ c (Proc.devRef .tc main_v66)) (W8 m ρ c (Proc.devRef .tc main_arg7))
      (W8 m ρ c (Proc.devRef .tc main_v86)) (W8 m ρ c (Proc.devRef .tc main_arg0)) = _
    rw [W8_v46, W8_v66, ss2_eq, W8_arg7, W8_v86, W7_arg8, W7_arg9, W8_arg0]
  rw [e, Out4_bn (cv m ρ c) (st2 m ρ c) (a5 m c) (a6 m c) (a7 m c) (st3 m ρ c) (a8 m c) (a9 m c) (a0 m c)
    (st2_row0 m ρ c) (st2_row1 m ρ c) (st3_row0 m ρ c) (st3_row1 m ρ c) n l]
  unfold outK proj3
  rw [cv_cur]

/-- The result array as a whole. -/
theorem result_eq :
    (W9 m ρ c (Proc.devRef .tc main_v87) : FVec Ideal S100000x24 .f32)
      = arr (outK (cur (a0 m c)) (cur (a1 m c)) (vec (a2 m c)) (vec (a3 m c)) (convP m c) (vec (a5 m c)) (vec (a6 m c))
          (cur (a7 m c)) (vec (a8 m c)) (vec (a9 m c))) := by
  funext j
  obtain ⟨n, l, rfl⟩ : ∃ (n : Fin 100000) (l : Fin 24), j = ix2 n l := ⟨j 0, j 1, eq_ix2 j⟩
  exact result_apply m ρ c n l

end Cert.KernelIdeal.KChain

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.RefOps.lean ====
/-
  The reference program as a straight line: its host operations listed in order, stage by stage, with the outlined
  functions' operations inline at their call sites; the program shown equal to that line; and the side conditions
  under which such a line runs.
-/
import proofs.«119352_j15083925143721_1_alg».proof.Proof.Gen.ReferenceIdeal
import proofs.«119352_j15083925143721_1_alg».proof.Proof.LibHostWalk
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.HostWalk

variable {F : FTy → Type} [FloatOps F]

/-! ## The operations, stage by stage -/

/-- %0: the first product. -/
def opsH1 : List (HloOp τ sig (Elt F)) :=
  [ StableHlo.binary main_arg0 main_arg1 main_v0 ((fun l r => Host.dotGeneral dot_S100000x24_S24x144_S100000x144_1_0_0_1_n_n none l r) : (⟨S100000x24, .f32⟩ : BufTy).Contents (Elt F) → (⟨S24x144, .f32⟩ : BufTy).Contents (Elt F) → (⟨S100000x144, .f32⟩ : BufTy).Contents (Elt F)) ]

/-- %cst … %19: the first normalisation, its variance function inlined. -/
def opsBn1 : List (HloOp τ sig (Elt F)) :=
  [ StableHlo.nullary main_cst (constant S_ .f32 0x00000000#32),
    StableHlo.binary main_v0 main_cst main_v1 ((fun x v => Host.reduceAdd x v reducesTo_S100000x144_S144_d0 h_S_) : (⟨S100000x144, .f32⟩ : BufTy).Contents (Elt F) → (⟨S_, .f32⟩ : BufTy).Contents (Elt F) → (⟨S144, .f32⟩ : BufTy).Contents (Elt F)),
    StableHlo.nullary main_cst_0 (constant S_ .f32 0x47C35000#32),
    StableHlo.unary main_cst_0 main_v2 (broadcastInDim S144 ![] bcast_S_S144 : (⟨S_, .f32⟩ : BufTy).Contents (Elt F) → (⟨S144, .f32⟩ : BufTy).Contents (Elt F)),
    StableHlo.binary main_v1 main_v2 main_v3 (Host.divf : (⟨S144, .f32⟩ : BufTy).Contents (Elt F) → (⟨S144, .f32⟩ : BufTy).Contents (Elt F) → (⟨S144, .f32⟩ : BufTy).Contents (Elt F)),
    StableHlo.nullary main_c (constantI S_ 32 0#32),
    StableHlo.TRef.nullary main_call0.cst (constant S_ .f32 0x00000000#32),
    StableHlo.TRef.binary (TRef.of main_v0 : TRef sig ⟨S100000x144, .f32⟩) main_call0.cst main_call0.v0 (fun x v => Host.reduceAdd x v reducesTo_S100000x144_S144_d0 h_S_),
    StableHlo.TRef.unary main_call0.v0 main_call0.v1 (broadcastInDim S1x144 ![1] bcast_S144_S1x144_1),
    StableHlo.TRef.nullary main_call0.cst_0 (constant S_ .f32 0x47C35000#32),
    StableHlo.TRef.unary main_call0.cst_0 main_call0.v2 (broadcastInDim S1x144 ![] bcast_S_S1x144),
    StableHlo.TRef.binary main_call0.v1 main_call0.v2 main_call0.v3 Host.divf,
    StableHlo.TRef.unary main_call0.v3 main_call0.v4 (broadcastInDim S100000x144 ![0, 1] bcast_S1x144_S100000x144_0_1),
    StableHlo.TRef.binary (TRef.of main_v0 : TRef sig ⟨S100000x144, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x144_S144_d0 h_S_),
    StableHlo.TRef.unary main_call0.v8 main_call0.v10 (broadcastInDim S144 ![] bcast_S_S144),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S144 ![] bcast_S_S144),
    StableHlo.TRef.ternary main_call0.v12 main_call0.v11 main_call0.call0.v1 main_call0.call0.v2 (fun p a b => select (broadcastInDim S144 ![] bcast_S_S144 p) a b),
    StableHlo.unary main_v3 main_v5 (broadcastInDim S1x144 ![1] bcast_S144_S1x144_1 : (⟨S144, .f32⟩ : BufTy).Contents (Elt F) → (⟨S1x144, .f32⟩ : BufTy).Contents (Elt F)),
    StableHlo.unary main_v5 main_v6 (broadcastInDim S100000x144 ![0, 1] bcast_S1x144_S100000x144_0_1 : (⟨S1x144, .f32⟩ : BufTy).Contents (Elt F) → (⟨S100000x144, .f32⟩ : BufTy).Contents (Elt F)),
    StableHlo.binary main_v0 main_v6 main_v7 (subf : (⟨S100000x144, .f32⟩ : BufTy).Contents (Elt F) → (⟨S100000x144, .f32⟩ : BufTy).Contents (Elt F) → (⟨S100000x144, .f32⟩ : BufTy).Contents (Elt F)),
    StableHlo.nullary main_cst_1 (constant S_ .f32 0x3727C5AC#32),
    StableHlo.unary main_cst_1 main_v8 (broadcastInDim S144 ![] bcast_S_S144 : (⟨S_, .f32⟩ : BufTy).Contents (Elt F) → (⟨S144, .f32⟩ : BufTy).Contents (Elt F)),
    StableHlo.binary main_v4 main_v8 main_v9 (addf : (⟨S144, .f32⟩ : BufTy).Contents (Elt F) → (⟨S144, .f32⟩ : BufTy).Contents (Elt F) → (⟨S144, .f32⟩ : BufTy).Contents (Elt F)),
    StableHlo.unary main_v9 main_v10 (Host.rsqrt : (⟨S144, .f32⟩ : BufTy).Contents (Elt F) → (⟨S144, .f32⟩ : BufTy).Contents (Elt F)),
    StableHlo.unary main_v10 main_v11 (broadcastInDim S1x144 ![1] bcast_S144_S1x144_1 : (⟨S144, .f32⟩ : BufTy).Contents (Elt F) → (⟨S1x144, .f32⟩ : BufTy).Contents (Elt F)),
    StableHlo.unary main_v11 main_v12 (broadcastInDim S100000x144 ![0, 1] bcast_S1x144_S100000x144_0_1 : (⟨S1x144, .f32⟩ : BufTy).Contents (Elt F) → (⟨S100000x144, .f32⟩ : BufTy).Contents (Elt F)),
    StableHlo.binary main_v7 main_v12 main_v13 (mulf : (⟨S100000x144, .f32⟩ : BufTy).Contents (Elt F) → (⟨S100000x144, .f32⟩ : BufTy).Contents (Elt F) → (⟨S100000x144, .f32⟩ : BufTy).Contents (Elt F)),
    StableHlo.unary main_arg2 main_v14 (broadcastInDim S1x144 ![1] bcast_S144_S1x144_1 : (⟨S144, .f32⟩ : BufTy).Contents (Elt F) → (⟨S1x144, .f32⟩ : BufTy).Contents (Elt F)),
    StableHlo.unary main_v14 main_v15 (broadcastInDim S100000x144 ![0, 1] bcast_S1x144_S100000x144_0_1 : (⟨S1x144, .f32⟩ : BufTy).Contents (Elt F) → (⟨S100000x144, .f32⟩ : BufTy).Contents (Elt F)),
    StableHlo.binary main_v13 main_v15 main_v16 (mulf : (⟨S100000x144, .f32⟩ : BufTy).Contents (Elt F) → (⟨S100000x144, .f32⟩ : BufTy).Contents (Elt F) → (⟨S100000x144, .f32⟩ : BufTy).Contents (Elt F)),
    StableHlo.unary main_arg3 main_v17 (broadcastInDim S1x144 ![1] bcast_S144_S1x144_1 : (⟨S144, .f32⟩ : BufTy).Contents (Elt F) → (⟨S1x144, .f32⟩ : BufTy).Contents (Elt F)),
    StableHlo.unary main_v17 main_v18 (broadcastInDim S100000x144 ![0, 1] bcast_S1x144_S100000x144_0_1 : (⟨S1x144, .f32⟩ : BufTy).Contents (Elt F) → (⟨S100000x144, .f32⟩ : BufTy).Contents (Elt F)),
    StableHlo.binary main_v16 main_v18 main_v19 (addf : (⟨S100000x144, .f32⟩ : BufTy).Contents (Elt F) → (⟨S100000x144, .f32⟩ : BufTy).Contents (Elt F) → (⟨S100000x144, .f32⟩ : BufTy).Contents (Elt F)) ]

/-- %cst_2, %cst_3, %20: the first clip, inlined. -/
def opsClip1 : List (HloOp τ sig (Elt F)) :=
  [ StableHlo.nullary main_cst_2 (constant S_ .f32 0x00000000#32),
    StableHlo.nullary main_cst_3 (constant S_ .f32 0x40C00000#32),
    StableHlo.TRef.unary (TRef.of main_cst_2 : TRef sig ⟨S_, .f32⟩) main_call1.v0 id,
    StableHlo.TRef.unary main_call1.v0 main_call1.v1 (broadcastInDim S100000x144 ![] bcast_S_S100000x144),
    StableHlo.TRef.binary main_call1.v1 (TRef.of main_v19 : TRef sig ⟨S100000x144, .f32⟩) main_call1.v2 maximumf,
    StableHlo.TRef.unary (TRef.of main_cst_3 : TRef sig ⟨S_, .f32⟩) main_call1.v3 id,
    StableHlo.TRef.unary main_call1.v3 main_call1.v4 (broadcastInDim S100000x144 ![] bcast_S_S100000x144),
    StableHlo.TRef.binary main_call1.v4 main_call1.v2 main_call1.v5 minimumf ]

/-- %cst_4 … %45: the zero row, the index normalisations, the two gathers, the product, the scatter-add. -/
def opsConvA : List (HloOp τ sig (Elt F)) :=
  [ StableHlo.nullary main_cst_4 (constant S_ .f32 0x00000000#32),
    StableHlo.unary main_cst_4 main_v21 (broadcastInDim S1x144 ![] bcast_S_S1x144 : (⟨S_, .f32⟩ : BufTy).Contents (Elt F) → (⟨S1x144, .f32⟩ : BufTy).Contents (Elt F)),
    StableHlo.binary main_v20 main_v21 main_v22 ((fun a b => concatenate S100001x144 0 [⟨S100000x144, a⟩, ⟨S1x144, b⟩] concatenates_S100000x144_S1x144_S100001x144_d0) : (⟨S100000x144, .f32⟩ : BufTy).Contents (Elt F) → (⟨S1x144, .f32⟩ : BufTy).Contents (Elt F) → (⟨S100001x144, .f32⟩ : BufTy).Contents (Elt F)),
    StableHlo.nullary main_c_5 (constantI S_ 32 0#32),
    StableHlo.unary main_c_5 main_v23 (broadcastInDim S900000 ![] bcast_S_S900000 : (⟨S_, .i32⟩ : BufTy).Contents (Elt F) → (⟨S900000, .i32⟩ : BufTy).Contents (Elt F)),
    StableHlo.binary main_arg10 main_v23 main_v24 (cmpi .slt : (⟨S900000, .i32⟩ : BufTy).Contents (Elt F) → (⟨S900000, .i32⟩ : BufTy).Contents (Elt F) → (⟨S900000, .i1⟩ : BufTy).Contents (Elt F)),
    StableHlo.nullary main_c_6 (constantI S_ 32 100001#32),
    StableHlo.unary main_c_6 main_v25 (broadcastInDim S900000 ![] bcast_S_S900000 : (⟨S_, .i32⟩ : BufTy).Contents (Elt F) → (⟨S900000, .i32⟩ : BufTy).Contents (Elt F)),
    StableHlo.binary main_arg10 main_v25 main_v26 (addi : (⟨S900000, .i32⟩ : BufTy).Contents (Elt F) → (⟨S900000, .i32⟩ : BufTy).Contents (Elt F) → (⟨S900000, .i32⟩ : BufTy).Contents (Elt F)),
    StableHlo.ternary main_v24 main_v26 main_arg10 main_v27 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v27 main_v28 (broadcastInDim S900000x1 ![0] bcast_S900000_S900000x1_0 : (⟨S900000, .i32⟩ : BufTy).Contents (Elt F) → (⟨S900000x1, .i32⟩ : BufTy).Contents (Elt F)),
    StableHlo.binary main_v22 main_v28 main_v29 ((fun x i => Host.gather gather_S100001x144_S900000x1_S900000x144_1_0_n_n_0_1_1144 x i) : (⟨S100001x144, .f32⟩ : BufTy).Contents (Elt F) → (⟨S900000x1, .i32⟩ : BufTy).Contents (Elt F) → (⟨S900000x144, .f32⟩ : BufTy).Contents (Elt F)),
    StableHlo.nullary main_c_7 (constantI S_ 32 0#32),
    StableHlo.unary main_c_7 main_v30 (broadcastInDim S900000 ![] bcast_S_S900000 : (⟨S_, .i32⟩ : BufTy).Contents (Elt F) → (⟨S900000, .i32⟩ : BufTy).Contents (Elt F)),
    StableHlo.binary main_arg12 main_v30 main_v31 (cmpi .slt : (⟨S900000, .i32⟩ : BufTy).Contents (Elt F) → (⟨S900000, .i32⟩ : BufTy).Contents (Elt F) → (⟨S900000, .i1⟩ : BufTy).Contents (Elt F)),
    StableHlo.nullary main_c_8 (constantI S_ 32 9#32),
    StableHlo.unary main_c_8 main_v32 (broadcastInDim S900000 ![] bcast_S_S900000 : (⟨S_, .i32⟩ : BufTy).Contents (Elt F) → (⟨S900000, .i32⟩ : BufTy).Contents (Elt F)),
    StableHlo.binary main_arg12 main_v32 main_v33 (addi : (⟨S900000, .i32⟩ : BufTy).Contents (Elt F) → (⟨S900000, .i32⟩ : BufTy).Contents (Elt F) → (⟨S900000, .i32⟩ : BufTy).Contents (Elt F)),
    StableHlo.ternary main_v31 main_v33 main_arg12 main_v34 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v34 main_v35 (broadcastInDim S900000x1 ![0] bcast_S900000_S900000x1_0 : (⟨S900000, .i32⟩ : BufTy).Contents (Elt F) → (⟨S900000x1, .i32⟩ : BufTy).Contents (Elt F)),
    StableHlo.binary main_arg4 main_v35 main_v36 ((fun x i => Host.gather gather_S9x144_S900000x1_S900000x144_1_0_n_n_0_1_1144 x i) : (⟨S9x144, .f32⟩ : BufTy).Contents (Elt F) → (⟨S900000x1, .i32⟩ : BufTy).Contents (Elt F) → (⟨S900000x144, .f32⟩ : BufTy).Contents (Elt F)),
    StableHlo.binary main_v29 main_v36 main_v37 (mulf : (⟨S900000x144, .f32⟩ : BufTy).Contents (Elt F) → (⟨S900000x144, .f32⟩ : BufTy).Contents (Elt F) → (⟨S900000x144, .f32⟩ : BufTy).Contents (Elt F)),
    StableHlo.nullary main_cst_9 (constant S_ .f32 0x00000000#32),
    StableHlo.unary main_cst_9 main_v38 (broadcastInDim S100001x144 ![] bcast_S_S100001x144 : (⟨S_, .f32⟩ : BufTy).Contents (Elt F) → (⟨S100001x144, .f32⟩ : BufTy).Contents (Elt F)),
    StableHlo.nullary main_c_10 (constantI S_ 32 0#32),
    StableHlo.unary main_c_10 main_v39 (broadcastInDim S900000 ![] bcast_S_S900000 : (⟨S_, .i32⟩ : BufTy).Contents (Elt F) → (⟨S900000, .i32⟩ : BufTy).Contents (Elt F)),
    StableHlo.binary main_arg11 main_v39 main_v40 (cmpi .slt : (⟨S900000, .i32⟩ : BufTy).Contents (Elt F) → (⟨S900000, .i32⟩ : BufTy).Contents (Elt F) → (⟨S900000, .i1⟩ : BufTy).Contents (Elt F)),
    StableHlo.nullary main_c_11 (constantI S_ 32 100001#32),
    StableHlo.unary main_c_11 main_v41 (broadcastInDim S900000 ![] bcast_S_S900000 : (⟨S_, .i32⟩ : BufTy).Contents (Elt F) → (⟨S900000, .i32⟩ : BufTy).Contents (Elt F)),
    StableHlo.binary main_arg11 main_v41 main_v42 (addi : (⟨S900000, .i32⟩ : BufTy).Contents (Elt F) → (⟨S900000, .i32⟩ : BufTy).Contents (Elt F) → (⟨S900000, .i32⟩ : BufTy).Contents (Elt F)),
    StableHlo.ternary main_v40 main_v42 main_arg11 main_v43 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v43 main_v44 (broadcastInDim S900000x1 ![0] bcast_S900000_S900000x1_0 : (⟨S900000, .i32⟩ : BufTy).Contents (Elt F) → (⟨S900000x1, .i32⟩ : BufTy).Contents (Elt F)),
    StableHlo.ternary main_v38 main_v44 main_v37 main_v45 ((fun x i u => Host.scatterAdd scatter_S100001x144_S900000x1_S900000x144_1_0_0_1 x i u) : (⟨S100001x144, .f32⟩ : BufTy).Contents (Elt F) → (⟨S900000x1, .i32⟩ : BufTy).Contents (Elt F) → (⟨S900000x144, .f32⟩ : BufTy).Contents (Elt F) → (⟨S100001x144, .f32⟩ : BufTy).Contents (Elt F)) ]

/-- %46: the first 100000 rows. -/
def opsSlice : List (HloOp τ sig (Elt F)) :=
  [ StableHlo.unary main_v45 main_v46 ((extractStridedSlice S100000x144 ![0, 0] · slices_S100001x144_S100000x144_0_0) : (⟨S100001x144, .f32⟩ : BufTy).Contents (Elt F) → (⟨S100000x144, .f32⟩ : BufTy).Contents (Elt F)) ]

/-- %cst_12 … %65: the second normalisation. -/
def opsBn2 : List (HloOp τ sig (Elt F)) :=
  [ StableHlo.nullary main_cst_12 (constant S_ .f32 0x00000000#32),
    StableHlo.binary main_v46 main_cst_12 main_v47 ((fun x v => Host.reduceAdd x v reducesTo_S100000x144_S144_d0 h_S_) : (⟨S100000x144, .f32⟩ : BufTy).Contents (Elt F) → (⟨S_, .f32⟩ : BufTy).Contents (Elt F) → (⟨S144, .f32⟩ : BufTy).Contents (Elt F)),
    StableHlo.nullary main_cst_13 (constant S_ .f32 0x47C35000#32),
    StableHlo.unary main_cst_13 main_v48 (broadcastInDim S144 ![] bcast_S_S144 : (⟨S_, .f32⟩ : BufTy).Contents (Elt F) → (⟨S144, .f32⟩ : BufTy).Contents (Elt F)),
    StableHlo.binary main_v47 main_v48 main_v49 (Host.divf : (⟨S144, .f32⟩ : BufTy).Contents (Elt F) → (⟨S144, .f32⟩ : BufTy).Contents (Elt F) → (⟨S144, .f32⟩ : BufTy).Contents (Elt F)),
    StableHlo.nullary main_c_14 (constantI S_ 32 0#32),
    StableHlo.TRef.nullary main_call2.cst (constant S_ .f32 0x00000000#32),
    StableHlo.TRef.binary (TRef.of main_v46 : TRef sig ⟨S100000x144, .f32⟩) main_call2.cst main_call2.v0 (fun x v => Host.reduceAdd x v reducesTo_S100000x144_S144_d0 h_S_),
    StableHlo.TRef.unary main_call2.v0 main_call2.v1 (broadcastInDim S1x144 ![1] bcast_S144_S1x144_1),
    StableHlo.TRef.nullary main_call2.cst_0 (constant S_ .f32 0x47C35000#32),
    StableHlo.TRef.unary main_call2.cst_0 main_call2.v2 (broadcastInDim S1x144 ![] bcast_S_S1x144),
    StableHlo.TRef.binary main_call2.v1 main_call2.v2 main_call2.v3 Host.divf,
    StableHlo.TRef.unary main_call2.v3 main_call2.v4 (broadcastInDim S100000x144 ![0, 1] bcast_S1x144_S100000x144_0_1),
    StableHlo.TRef.binary (TRef.of main_v46 : TRef sig ⟨S100000x144, .f32⟩) main_call2.v4 main_call2.v5 subf,
    StableHlo.TRef.binary main_call2.v5 main_call2.v5 main_call2.v6 mulf,
    StableHlo.TRef.unary (TRef.of main_c_14 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x144_S144_d0 h_S_),
    StableHlo.TRef.unary main_call2.v8 main_call2.v10 (broadcastInDim S144 ![] bcast_S_S144),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S144 ![] bcast_S_S144),
    StableHlo.TRef.ternary main_call2.v12 main_call2.v11 main_call2.call0.v1 main_call2.call0.v2 (fun p a b => select (broadcastInDim S144 ![] bcast_S_S144 p) a b),
    StableHlo.unary main_v49 main_v51 (broadcastInDim S1x144 ![1] bcast_S144_S1x144_1 : (⟨S144, .f32⟩ : BufTy).Contents (Elt F) → (⟨S1x144, .f32⟩ : BufTy).Contents (Elt F)),
    StableHlo.unary main_v51 main_v52 (broadcastInDim S100000x144 ![0, 1] bcast_S1x144_S100000x144_0_1 : (⟨S1x144, .f32⟩ : BufTy).Contents (Elt F) → (⟨S100000x144, .f32⟩ : BufTy).Contents (Elt F)),
    StableHlo.binary main_v46 main_v52 main_v53 (subf : (⟨S100000x144, .f32⟩ : BufTy).Contents (Elt F) → (⟨S100000x144, .f32⟩ : BufTy).Contents (Elt F) → (⟨S100000x144, .f32⟩ : BufTy).Contents (Elt F)),
    StableHlo.nullary main_cst_15 (constant S_ .f32 0x3727C5AC#32),
    StableHlo.unary main_cst_15 main_v54 (broadcastInDim S144 ![] bcast_S_S144 : (⟨S_, .f32⟩ : BufTy).Contents (Elt F) → (⟨S144, .f32⟩ : BufTy).Contents (Elt F)),
    StableHlo.binary main_v50 main_v54 main_v55 (addf : (⟨S144, .f32⟩ : BufTy).Contents (Elt F) → (⟨S144, .f32⟩ : BufTy).Contents (Elt F) → (⟨S144, .f32⟩ : BufTy).Contents (Elt F)),
    StableHlo.unary main_v55 main_v56 (Host.rsqrt : (⟨S144, .f32⟩ : BufTy).Contents (Elt F) → (⟨S144, .f32⟩ : BufTy).Contents (Elt F)),
    StableHlo.unary main_v56 main_v57 (broadcastInDim S1x144 ![1] bcast_S144_S1x144_1 : (⟨S144, .f32⟩ : BufTy).Contents (Elt F) → (⟨S1x144, .f32⟩ : BufTy).Contents (Elt F)),
    StableHlo.unary main_v57 main_v58 (broadcastInDim S100000x144 ![0, 1] bcast_S1x144_S100000x144_0_1 : (⟨S1x144, .f32⟩ : BufTy).Contents (Elt F) → (⟨S100000x144, .f32⟩ : BufTy).Contents (Elt F)),
    StableHlo.binary main_v53 main_v58 main_v59 (mulf : (⟨S100000x144, .f32⟩ : BufTy).Contents (Elt F) → (⟨S100000x144, .f32⟩ : BufTy).Contents (Elt F) → (⟨S100000x144, .f32⟩ : BufTy).Contents (Elt F)),
    StableHlo.unary main_arg5 main_v60 (broadcastInDim S1x144 ![1] bcast_S144_S1x144_1 : (⟨S144, .f32⟩ : BufTy).Contents (Elt F) → (⟨S1x144, .f32⟩ : BufTy).Contents (Elt F)),
    StableHlo.unary main_v60 main_v61 (broadcastInDim S100000x144 ![0, 1] bcast_S1x144_S100000x144_0_1 : (⟨S1x144, .f32⟩ : BufTy).Contents (Elt F) → (⟨S100000x144, .f32⟩ : BufTy).Contents (Elt F)),
    StableHlo.binary main_v59 main_v61 main_v62 (mulf : (⟨S100000x144, .f32⟩ : BufTy).Contents (Elt F) → (⟨S100000x144, .f32⟩ : BufTy).Contents (Elt F) → (⟨S100000x144, .f32⟩ : BufTy).Contents (Elt F)),
    StableHlo.unary main_arg6 main_v63 (broadcastInDim S1x144 ![1] bcast_S144_S1x144_1 : (⟨S144, .f32⟩ : BufTy).Contents (Elt F) → (⟨S1x144, .f32⟩ : BufTy).Contents (Elt F)),
    StableHlo.unary main_v63 main_v64 (broadcastInDim S100000x144 ![0, 1] bcast_S1x144_S100000x144_0_1 : (⟨S1x144, .f32⟩ : BufTy).Contents (Elt F) → (⟨S100000x144, .f32⟩ : BufTy).Contents (Elt F)),
    StableHlo.binary main_v62 main_v64 main_v65 (addf : (⟨S100000x144, .f32⟩ : BufTy).Contents (Elt F) → (⟨S100000x144, .f32⟩ : BufTy).Contents (Elt F) → (⟨S100000x144, .f32⟩ : BufTy).Contents (Elt F)) ]

/-- %cst_16, %cst_17, %66: the second clip. -/
def opsClip2 : List (HloOp τ sig (Elt F)) :=
  [ StableHlo.nullary main_cst_16 (constant S_ .f32 0x00000000#32),
    StableHlo.nullary main_cst_17 (constant S_ .f32 0x40C00000#32),
    StableHlo.TRef.unary (TRef.of main_cst_16 : TRef sig ⟨S_, .f32⟩) main_call3.v0 id,
    StableHlo.TRef.unary main_call3.v0 main_call3.v1 (broadcastInDim S100000x144 ![] bcast_S_S100000x144),
    StableHlo.TRef.binary main_call3.v1 (TRef.of main_v65 : TRef sig ⟨S100000x144, .f32⟩) main_call3.v2 maximumf,
    StableHlo.TRef.unary (TRef.of main_cst_17 : TRef sig ⟨S_, .f32⟩) main_call3.v3 id,
    StableHlo.TRef.unary main_call3.v3 main_call3.v4 (broadcastInDim S100000x144 ![] bcast_S_S100000x144),
    StableHlo.TRef.binary main_call3.v4 main_call3.v2 main_call3.v5 minimumf ]

/-- %67: the second product. -/
def opsH3 : List (HloOp τ sig (Elt F)) :=
  [ StableHlo.binary main_v66 main_arg7 main_v67 ((fun l r => Host.dotGeneral dot_S100000x144_S144x24_S100000x24_1_0_0_1_n_n none l r) : (⟨S100000x144, .f32⟩ : BufTy).Contents (Elt F) → (⟨S144x24, .f32⟩ : BufTy).Contents (Elt F) → (⟨S100000x24, .f32⟩ : BufTy).Contents (Elt F)) ]

/-- %cst_18 … %86: the third normalisation, on 24 columns. -/
def opsBn3 : List (HloOp τ sig (Elt F)) :=
  [ StableHlo.nullary main_cst_18 (constant S_ .f32 0x00000000#32),
    StableHlo.binary main_v67 main_cst_18 main_v68 ((fun x v => Host.reduceAdd x v reducesTo_S100000x24_S24_d0 h_S_) : (⟨S100000x24, .f32⟩ : BufTy).Contents (Elt F) → (⟨S_, .f32⟩ : BufTy).Contents (Elt F) → (⟨S24, .f32⟩ : BufTy).Contents (Elt F)),
    StableHlo.nullary main_cst_19 (constant S_ .f32 0x47C35000#32),
    StableHlo.unary main_cst_19 main_v69 (broadcastInDim S24 ![] bcast_S_S24 : (⟨S_, .f32⟩ : BufTy).Contents (Elt F) → (⟨S24, .f32⟩ : BufTy).Contents (Elt F)),
    StableHlo.binary main_v68 main_v69 main_v70 (Host.divf : (⟨S24, .f32⟩ : BufTy).Contents (Elt F) → (⟨S24, .f32⟩ : BufTy).Contents (Elt F) → (⟨S24, .f32⟩ : BufTy).Contents (Elt F)),
    StableHlo.nullary main_c_20 (constantI S_ 32 0#32),
    StableHlo.TRef.nullary main_call4.cst (constant S_ .f32 0x00000000#32),
    StableHlo.TRef.binary (TRef.of main_v67 : TRef sig ⟨S100000x24, .f32⟩) main_call4.cst main_call4.v0 (fun x v => Host.reduceAdd x v reducesTo_S100000x24_S24_d0 h_S_),
    StableHlo.TRef.unary main_call4.v0 main_call4.v1 (broadcastInDim S1x24 ![1] bcast_S24_S1x24_1),
    StableHlo.TRef.nullary main_call4.cst_0 (constant S_ .f32 0x47C35000#32),
    StableHlo.TRef.unary main_call4.cst_0 main_call4.v2 (broadcastInDim S1x24 ![] bcast_S_S1x24),
    StableHlo.TRef.binary main_call4.v1 main_call4.v2 main_call4.v3 Host.divf,
    StableHlo.TRef.unary main_call4.v3 main_call4.v4 (broadcastInDim S100000x24 ![0, 1] bcast_S1x24_S100000x24_0_1),
    StableHlo.TRef.binary (TRef.of main_v67 : TRef sig ⟨S100000x24, .f32⟩) main_call4.v4 main_call4.v5 subf,
    StableHlo.TRef.binary main_call4.v5 main_call4.v5 main_call4.v6 mulf,
    StableHlo.TRef.unary (TRef.of main_c_20 : TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x24_S24_d0 h_S_),
    StableHlo.TRef.unary main_call4.v8 main_call4.v10 (broadcastInDim S24 ![] bcast_S_S24),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S24 ![] bcast_S_S24),
    StableHlo.TRef.ternary main_call4.v12 main_call4.v11 main_call4.call0.v1 main_call4.call0.v2 (fun p a b => select (broadcastInDim S24 ![] bcast_S_S24 p) a b),
    StableHlo.unary main_v70 main_v72 (broadcastInDim S1x24 ![1] bcast_S24_S1x24_1 : (⟨S24, .f32⟩ : BufTy).Contents (Elt F) → (⟨S1x24, .f32⟩ : BufTy).Contents (Elt F)),
    StableHlo.unary main_v72 main_v73 (broadcastInDim S100000x24 ![0, 1] bcast_S1x24_S100000x24_0_1 : (⟨S1x24, .f32⟩ : BufTy).Contents (Elt F) → (⟨S100000x24, .f32⟩ : BufTy).Contents (Elt F)),
    StableHlo.binary main_v67 main_v73 main_v74 (subf : (⟨S100000x24, .f32⟩ : BufTy).Contents (Elt F) → (⟨S100000x24, .f32⟩ : BufTy).Contents (Elt F) → (⟨S100000x24, .f32⟩ : BufTy).Contents (Elt F)),
    StableHlo.nullary main_cst_21 (constant S_ .f32 0x3727C5AC#32),
    StableHlo.unary main_cst_21 main_v75 (broadcastInDim S24 ![] bcast_S_S24 : (⟨S_, .f32⟩ : BufTy).Contents (Elt F) → (⟨S24, .f32⟩ : BufTy).Contents (Elt F)),
    StableHlo.binary main_v71 main_v75 main_v76 (addf : (⟨S24, .f32⟩ : BufTy).Contents (Elt F) → (⟨S24, .f32⟩ : BufTy).Contents (Elt F) → (⟨S24, .f32⟩ : BufTy).Contents (Elt F)),
    StableHlo.unary main_v76 main_v77 (Host.rsqrt : (⟨S24, .f32⟩ : BufTy).Contents (Elt F) → (⟨S24, .f32⟩ : BufTy).Contents (Elt F)),
    StableHlo.unary main_v77 main_v78 (broadcastInDim S1x24 ![1] bcast_S24_S1x24_1 : (⟨S24, .f32⟩ : BufTy).Contents (Elt F) → (⟨S1x24, .f32⟩ : BufTy).Contents (Elt F)),
    StableHlo.unary main_v78 main_v79 (broadcastInDim S100000x24 ![0, 1] bcast_S1x24_S100000x24_0_1 : (⟨S1x24, .f32⟩ : BufTy).Contents (Elt F) → (⟨S100000x24, .f32⟩ : BufTy).Contents (Elt F)),
    StableHlo.binary main_v74 main_v79 main_v80 (mulf : (⟨S100000x24, .f32⟩ : BufTy).Contents (Elt F) → (⟨S100000x24, .f32⟩ : BufTy).Contents (Elt F) → (⟨S100000x24, .f32⟩ : BufTy).Contents (Elt F)),
    StableHlo.unary main_arg8 main_v81 (broadcastInDim S1x24 ![1] bcast_S24_S1x24_1 : (⟨S24, .f32⟩ : BufTy).Contents (Elt F) → (⟨S1x24, .f32⟩ : BufTy).Contents (Elt F)),
    StableHlo.unary main_v81 main_v82 (broadcastInDim S100000x24 ![0, 1] bcast_S1x24_S100000x24_0_1 : (⟨S1x24, .f32⟩ : BufTy).Contents (Elt F) → (⟨S100000x24, .f32⟩ : BufTy).Contents (Elt F)),
    StableHlo.binary main_v80 main_v82 main_v83 (mulf : (⟨S100000x24, .f32⟩ : BufTy).Contents (Elt F) → (⟨S100000x24, .f32⟩ : BufTy).Contents (Elt F) → (⟨S100000x24, .f32⟩ : BufTy).Contents (Elt F)),
    StableHlo.unary main_arg9 main_v84 (broadcastInDim S1x24 ![1] bcast_S24_S1x24_1 : (⟨S24, .f32⟩ : BufTy).Contents (Elt F) → (⟨S1x24, .f32⟩ : BufTy).Contents (Elt F)),
    StableHlo.unary main_v84 main_v85 (broadcastInDim S100000x24 ![0, 1] bcast_S1x24_S100000x24_0_1 : (⟨S1x24, .f32⟩ : BufTy).Contents (Elt F) → (⟨S100000x24, .f32⟩ : BufTy).Contents (Elt F)),
    StableHlo.binary main_v83 main_v85 main_v86 (addf : (⟨S100000x24, .f32⟩ : BufTy).Contents (Elt F) → (⟨S100000x24, .f32⟩ : BufTy).Contents (Elt F) → (⟨S100000x24, .f32⟩ : BufTy).Contents (Elt F)) ]

/-- %87: the residual sum. -/
def opsFinal : List (HloOp τ sig (Elt F)) :=
  [ StableHlo.binary main_v86 main_arg0 main_v87 (addf : (⟨S100000x24, .f32⟩ : BufTy).Contents (Elt F) → (⟨S100000x24, .f32⟩ : BufTy).Contents (Elt F) → (⟨S100000x24, .f32⟩ : BufTy).Contents (Elt F)) ]

/-! ## The program is that straight line -/

/-- The first window's operations, the second's, and all of them, in order. -/
def ops0 : List (HloOp τ sig (Elt F)) := opsH1 ++ (opsBn1 ++ (opsClip1 ++ opsConvA))
def ops1 : List (HloOp τ sig (Elt F)) := opsSlice ++ (opsBn2 ++ (opsClip2 ++ (opsH3 ++ (opsBn3 ++ opsFinal))))
def ops : List (HloOp τ sig (Elt F)) := ops0 ++ ops1

-- a chain of some ninety binds re-associated: the rewriting under the chain recurses once per statement
set_option maxRecDepth 16384 in
set_option maxHeartbeats 4000000 in
/-- The first window is its operations in a line: the outlined functions unfolded at their calls, sequencing
    re-associated. -/
theorem part0_eq (c : Dev nD) : main_part0 (F := F) c = seq ops0 := by
  simp only [main_part0, fn_var.body, fn_where.body, fn_clip.body, ops0, opsH1, opsBn1, opsClip1, opsConvA,
    List.cons_append, List.nil_append, seq, bind_assoc, pure_bind]
  rfl

set_option maxRecDepth 16384 in
set_option maxHeartbeats 4000000 in
/-- The second window likewise. -/
theorem part1_eq (c : Dev nD) : main_part1 (F := F) c = seq ops1 := by
  simp only [main_part1, fn_var.body, fn_where.body, fn_clip.body, fn_var_0.body, fn_where_1.body, ops1, opsSlice, opsBn2,
    opsClip2, opsH3, opsBn3, opsFinal, List.cons_append, List.nil_append, seq, bind_assoc, pure_bind]

theorem main_eq (c : Dev nD) : main (F := F) c = seq ops := by
  rw [ops, seq_append, ← part0_eq c, ← part1_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide
theorem opsH1_sub : (opsH1 : List (HloOp τ sig (Elt F))).Forall fun op => op.bufs ⊆ tcRefs τ sig := by
  unfold opsH1
  exact binary_bufs_sub ..
theorem opsH1_fresh : ∀ op ∈ (opsH1 : List (HloOp τ sig (Elt F))), op.fresh = ∅ := by
  unfold opsH1
  intro _ h; (repeat (cases h with | head => rfl | tail _ h => ?_)); exact nomatch h
theorem opsBn1_sub : (opsBn1 : List (HloOp τ sig (Elt F))).Forall fun op => op.bufs ⊆ tcRefs τ sig := by
  unfold opsBn1
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsBn1_fresh : ∀ op ∈ (opsBn1 : List (HloOp τ sig (Elt F))), op.fresh = ∅ := by
  unfold opsBn1
  intro _ h; (repeat (cases h with | head => rfl | tail _ h => ?_)); exact nomatch h
theorem opsClip1_sub : (opsClip1 : List (HloOp τ sig (Elt F))).Forall fun op => op.bufs ⊆ tcRefs τ sig := by
  unfold opsClip1
  exact ⟨nullary_bufs_sub .., nullary_bufs_sub .., unary_bufs_sub .., unary_bufs_sub .., binary_bufs_sub .., unary_bufs_sub .., unary_bufs_sub .., binary_bufs_sub ..⟩
theorem opsClip1_fresh : ∀ op ∈ (opsClip1 : List (HloOp τ sig (Elt F))), op.fresh = ∅ := by
  unfold opsClip1
  intro _ h; (repeat (cases h with | head => rfl | tail _ h => ?_)); exact nomatch h
theorem opsConvA_sub : (opsConvA : List (HloOp τ sig (Elt F))).Forall fun op => op.bufs ⊆ tcRefs τ sig := by
  unfold opsConvA
  exact ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem opsConvA_fresh : ∀ op ∈ (opsConvA : List (HloOp τ sig (Elt F))), op.fresh = ∅ := by
  unfold opsConvA
  intro _ h; (repeat (cases h with | head => rfl | tail _ h => ?_)); exact nomatch h
theorem opsSlice_sub : (opsSlice : List (HloOp τ sig (Elt F))).Forall fun op => op.bufs ⊆ tcRefs τ sig := by
  unfold opsSlice
  exact unary_bufs_sub ..
theorem opsSlice_fresh : ∀ op ∈ (opsSlice : List (HloOp τ sig (Elt F))), op.fresh = ∅ := by
  unfold opsSlice
  intro _ h; (repeat (cases h with | head => rfl | tail _ h => ?_)); exact nomatch h
theorem opsBn2_sub : (opsBn2 : List (HloOp τ sig (Elt F))).Forall fun op => op.bufs ⊆ tcRefs τ sig := by
  unfold opsBn2
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsBn2_fresh : ∀ op ∈ (opsBn2 : List (HloOp τ sig (Elt F))), op.fresh = ∅ := by
  unfold opsBn2
  intro _ h; (repeat (cases h with | head => rfl | tail _ h => ?_)); exact nomatch h
theorem opsClip2_sub : (opsClip2 : List (HloOp τ sig (Elt F))).Forall fun op => op.bufs ⊆ tcRefs τ sig := by
  unfold opsClip2
  exact ⟨nullary_bufs_sub .., nullary_bufs_sub .., unary_bufs_sub .., unary_bufs_sub .., binary_bufs_sub .., unary_bufs_sub .., unary_bufs_sub .., binary_bufs_sub ..⟩
theorem opsClip2_fresh : ∀ op ∈ (opsClip2 : List (HloOp τ sig (Elt F))), op.fresh = ∅ := by
  unfold opsClip2
  intro _ h; (repeat (cases h with | head => rfl | tail _ h => ?_)); exact nomatch h
theorem opsH3_sub : (opsH3 : List (HloOp τ sig (Elt F))).Forall fun op => op.bufs ⊆ tcRefs τ sig := by
  unfold opsH3
  exact binary_bufs_sub ..
theorem opsH3_fresh : ∀ op ∈ (opsH3 : List (HloOp τ sig (Elt F))), op.fresh = ∅ := by
  unfold opsH3
  intro _ h; (repeat (cases h with | head => rfl | tail _ h => ?_)); exact nomatch h
theorem opsBn3_sub : (opsBn3 : List (HloOp τ sig (Elt F))).Forall fun op => op.bufs ⊆ tcRefs τ sig := by
  unfold opsBn3
  exact ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem opsBn3_fresh : ∀ op ∈ (opsBn3 : List (HloOp τ sig (Elt F))), op.fresh = ∅ := by
  unfold opsBn3
  intro _ h; (repeat (cases h with | head => rfl | tail _ h => ?_)); exact nomatch h
theorem opsFinal_sub : (opsFinal : List (HloOp τ sig (Elt F))).Forall fun op => op.bufs ⊆ tcRefs τ sig := by
  unfold opsFinal
  exact binary_bufs_sub ..
theorem opsFinal_fresh : ∀ op ∈ (opsFinal : List (HloOp τ sig (Elt F))), op.fresh = ∅ := by
  unfold opsFinal
  intro _ h; (repeat (cases h with | head => rfl | tail _ h => ?_)); exact nomatch h

theorem forall_append' {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem mem_append_fresh {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

theorem ops_sub : (ops : List (HloOp τ sig (Elt F))).Forall fun op => op.bufs ⊆ tcRefs τ sig :=
  forall_append' (forall_append' opsH1_sub (forall_append' opsBn1_sub (forall_append' opsClip1_sub opsConvA_sub)))
    (forall_append' opsSlice_sub (forall_append' opsBn2_sub (forall_append' opsClip2_sub (forall_append' opsH3_sub
      (forall_append' opsBn3_sub opsFinal_sub)))))

theorem ops_fresh : ∀ op ∈ (ops : List (HloOp τ sig (Elt F))), op.fresh = ∅ :=
  mem_append_fresh (mem_append_fresh opsH1_fresh (mem_append_fresh opsBn1_fresh (mem_append_fresh opsClip1_fresh opsConvA_fresh)))
    (mem_append_fresh opsSlice_fresh (mem_append_fresh opsBn2_fresh (mem_append_fresh opsClip2_fresh (mem_append_fresh opsH3_fresh
      (mem_append_fresh opsBn3_fresh opsFinal_fresh)))))

/-- The buffers after two lines run in turn. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.ReferenceIdeal.RefRun

end
-- ==== Proof.RefStages.lean ====
/-
  The reference's stages as whole-array functions at the extended reals — each the literal composition of the
  stage's operations —, and each stage's line of operations read back: its result buffer holds the stage function of
  the buffers it reads, and the argument buffers are as they were.
-/
import proofs.«119352_j15083925143721_1_alg».proof.Proof.RefOps
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.HostWalk

/-! ## The stages as whole-array functions, at the extended reals -/

/-- The first product: the rows of `a` against the columns of `w`. -/
def h1 (a : FVec Ideal S100000x24 .f32) (w : FVec Ideal S24x144 .f32) : FVec Ideal S100000x144 .f32 :=
  Host.dotGeneral (F := Ideal) dot_S100000x24_S24x144_S100000x144_1_0_0_1_n_n none a w

/-- The variance's normaliser: 100000 less the integer 0 converted. -/
def nrm : FVec Ideal S_ .f32 :=
  subf (constant (F := Ideal) S_ .f32 0x47C35000#32) (sitofp (F := Ideal) .f32 (constantI S_ 32 0#32))

/-- The column means: each column's sum over the 100000 rows, divided by 100000. -/
def mean144 (h : FVec Ideal S100000x144 .f32) : FVec Ideal S144 .f32 :=
  Host.divf (Host.reduceAdd h (constant (F := Ideal) S_ .f32 0x00000000#32) reducesTo_S100000x144_S144_d0 h_S_) (broadcastInDim S144 ![] bcast_S_S144 (constant (F := Ideal) S_ .f32 0x47C35000#32))

/-- The array less its column means, as the variance function computes them (the sums laid out as one row, divided
    there, and the row repeated down the columns). -/
def centred144 (h : FVec Ideal S100000x144 .f32) : FVec Ideal S100000x144 .f32 :=
  subf h (broadcastInDim S100000x144 ![0, 1] bcast_S1x144_S100000x144_0_1
    (Host.divf (broadcastInDim S1x144 ![1] bcast_S144_S1x144_1 (Host.reduceAdd h (constant (F := Ideal) S_ .f32 0x00000000#32) reducesTo_S100000x144_S144_d0 h_S_))
      (broadcastInDim S1x144 ![] bcast_S_S1x144 (constant (F := Ideal) S_ .f32 0x47C35000#32))))

/-- The column variances: the sum of the squared centred entries over the normaliser 100000 − 0 where that is
    positive, the quiet not-a-number elsewhere. -/
def var144 (h : FVec Ideal S100000x144 .f32) : FVec Ideal S144 .f32 :=
  select (broadcastInDim S144 ![] bcast_S_S144 (cmpf .ogt nrm (constant (F := Ideal) S_ .f32 0x00000000#32)))
    (Host.divf (Host.reduceAdd (mulf (centred144 h) (centred144 h)) (constant (F := Ideal) S_ .f32 0x00000000#32) reducesTo_S100000x144_S144_d0 h_S_)
      (broadcastInDim S144 ![] bcast_S_S144 nrm))
    (broadcastInDim S144 ![] bcast_S_S144 (constant (F := Ideal) S_ .f32 0x7FC00000#32))

/-- Batch normalisation over the rows: (h − mean) · rsqrt (var + ε) · g + b, the per-column vectors repeated down
    the columns. -/
def bn144 (h : FVec Ideal S100000x144 .f32) (g b : FVec Ideal S144 .f32) : FVec Ideal S100000x144 .f32 :=
  addf
    (mulf
      (mulf (subf h (broadcastInDim S100000x144 ![0, 1] bcast_S1x144_S100000x144_0_1 (broadcastInDim S1x144 ![1] bcast_S144_S1x144_1 (mean144 h))))
        (broadcastInDim S100000x144 ![0, 1] bcast_S1x144_S100000x144_0_1 (broadcastInDim S1x144 ![1] bcast_S144_S1x144_1 (Host.rsqrt (addf (var144 h) (broadcastInDim S144 ![] bcast_S_S144 (constant (F := Ideal) S_ .f32 0x3727C5AC#32)))))))
      (broadcastInDim S100000x144 ![0, 1] bcast_S1x144_S100000x144_0_1 (broadcastInDim S1x144 ![1] bcast_S144_S1x144_1 g)))
    (broadcastInDim S100000x144 ![0, 1] bcast_S1x144_S100000x144_0_1 (broadcastInDim S1x144 ![1] bcast_S144_S1x144_1 b))

/-- The clip to [0, 6]: the lesser of 6 and the greater of 0 and the entry. -/
def clip144 (x : FVec Ideal S100000x144 .f32) : FVec Ideal S100000x144 .f32 :=
  minimumf (broadcastInDim S100000x144 ![] bcast_S_S100000x144 (constant (F := Ideal) S_ .f32 0x40C00000#32))
    (maximumf (broadcastInDim S100000x144 ![] bcast_S_S100000x144 (constant (F := Ideal) S_ .f32 0x00000000#32)) x)

/-- The gather–multiply–scatter before its last row is dropped: a zero row appended to `x`, the three index vectors'
    negative entries raised by the extent they index, the rows of the extended `x` at `i` times the rows of `w` at
    `f`, added into zeros at the rows `o`. -/
def convPre (x : FVec Ideal S100000x144 .f32) (w : FVec Ideal S9x144 .f32) (i o f : IVec S900000 32) :
    FVec Ideal S100001x144 .f32 :=
  Host.scatterAdd scatter_S100001x144_S900000x1_S900000x144_1_0_0_1
    (broadcastInDim S100001x144 ![] bcast_S_S100001x144 (constant (F := Ideal) S_ .f32 0x00000000#32))
    (broadcastInDim S900000x1 ![0] bcast_S900000_S900000x1_0
      (select (cmpi .slt o (broadcastInDim S900000 ![] bcast_S_S900000 (constantI S_ 32 0#32)))
        (addi o (broadcastInDim S900000 ![] bcast_S_S900000 (constantI S_ 32 100001#32))) o))
    (mulf
      (Host.gather gather_S100001x144_S900000x1_S900000x144_1_0_n_n_0_1_1144
        (concatenate S100001x144 0 [⟨S100000x144, x⟩,
          ⟨S1x144, broadcastInDim S1x144 ![] bcast_S_S1x144 (constant (F := Ideal) S_ .f32 0x00000000#32)⟩]
          concatenates_S100000x144_S1x144_S100001x144_d0)
        (broadcastInDim S900000x1 ![0] bcast_S900000_S900000x1_0
      (select (cmpi .slt i (broadcastInDim S900000 ![] bcast_S_S900000 (constantI S_ 32 0#32)))
        (addi i (broadcastInDim S900000 ![] bcast_S_S900000 (constantI S_ 32 100001#32))) i)))
      (Host.gather gather_S9x144_S900000x1_S900000x144_1_0_n_n_0_1_1144 w
        (broadcastInDim S900000x1 ![0] bcast_S900000_S900000x1_0
      (select (cmpi .slt f (broadcastInDim S900000 ![] bcast_S_S900000 (constantI S_ 32 0#32)))
        (addi f (broadcastInDim S900000 ![] bcast_S_S900000 (constantI S_ 32 9#32))) f))))

/-- The gather–multiply–scatter: the first 100000 rows of `convPre`. -/
def conv (x : FVec Ideal S100000x144 .f32) (w : FVec Ideal S9x144 .f32) (i o f : IVec S900000 32) :
    FVec Ideal S100000x144 .f32 :=
  extractStridedSlice S100000x144 ![0, 0] (convPre x w i o f) slices_S100001x144_S100000x144_0_0

/-- The second product. -/
def h3 (x : FVec Ideal S100000x144 .f32) (w : FVec Ideal S144x24 .f32) : FVec Ideal S100000x24 .f32 :=
  Host.dotGeneral (F := Ideal) dot_S100000x144_S144x24_S100000x24_1_0_0_1_n_n none x w

/-- The column means: each column's sum over the 100000 rows, divided by 100000. -/
def mean24 (h : FVec Ideal S100000x24 .f32) : FVec Ideal S24 .f32 :=
  Host.divf (Host.reduceAdd h (constant (F := Ideal) S_ .f32 0x00000000#32) reducesTo_S100000x24_S24_d0 h_S_) (broadcastInDim S24 ![] bcast_S_S24 (constant (F := Ideal) S_ .f32 0x47C35000#32))

/-- The array less its column means, as the variance function computes them (the sums laid out as one row, divided
    there, and the row repeated down the columns). -/
def centred24 (h : FVec Ideal S100000x24 .f32) : FVec Ideal S100000x24 .f32 :=
  subf h (broadcastInDim S100000x24 ![0, 1] bcast_S1x24_S100000x24_0_1
    (Host.divf (broadcastInDim S1x24 ![1] bcast_S24_S1x24_1 (Host.reduceAdd h (constant (F := Ideal) S_ .f32 0x00000000#32) reducesTo_S100000x24_S24_d0 h_S_))
      (broadcastInDim S1x24 ![] bcast_S_S1x24 (constant (F := Ideal) S_ .f32 0x47C35000#32))))

/-- The column variances: the sum of the squared centred entries over the normaliser 100000 − 0 where that is
    positive, the quiet not-a-number elsewhere. -/
def var24 (h : FVec Ideal S100000x24 .f32) : FVec Ideal S24 .f32 :=
  select (broadcastInDim S24 ![] bcast_S_S24 (cmpf .ogt nrm (constant (F := Ideal) S_ .f32 0x00000000#32)))
    (Host.divf (Host.reduceAdd (mulf (centred24 h) (centred24 h)) (constant (F := Ideal) S_ .f32 0x00000000#32) reducesTo_S100000x24_S24_d0 h_S_)
      (broadcastInDim S24 ![] bcast_S_S24 nrm))
    (broadcastInDim S24 ![] bcast_S_S24 (constant (F := Ideal) S_ .f32 0x7FC00000#32))

/-- Batch normalisation over the rows: (h − mean) · rsqrt (var + ε) · g + b, the per-column vectors repeated down
    the columns. -/
def bn24 (h : FVec Ideal S100000x24 .f32) (g b : FVec Ideal S24 .f32) : FVec Ideal S100000x24 .f32 :=
  addf
    (mulf
      (mulf (subf h (broadcastInDim S100000x24 ![0, 1] bcast_S1x24_S100000x24_0_1 (broadcastInDim S1x24 ![1] bcast_S24_S1x24_1 (mean24 h))))
        (broadcastInDim S100000x24 ![0, 1] bcast_S1x24_S100000x24_0_1 (broadcastInDim S1x24 ![1] bcast_S24_S1x24_1 (Host.rsqrt (addf (var24 h) (broadcastInDim S24 ![] bcast_S_S24 (constant (F := Ideal) S_ .f32 0x3727C5AC#32)))))))
      (broadcastInDim S100000x24 ![0, 1] bcast_S1x24_S100000x24_0_1 (broadcastInDim S1x24 ![1] bcast_S24_S1x24_1 g)))
    (broadcastInDim S100000x24 ![0, 1] bcast_S1x24_S100000x24_0_1 (broadcastInDim S1x24 ![1] bcast_S24_S1x24_1 b))

/-- The whole reference: expand, normalise, clip; gather–multiply–scatter, normalise, clip; project, normalise; add the
    input. -/
def refOut (a0 : FVec Ideal S100000x24 .f32) (a1 : FVec Ideal S24x144 .f32) (a2 a3 : FVec Ideal S144 .f32)
    (a4 : FVec Ideal S9x144 .f32) (a5 a6 : FVec Ideal S144 .f32) (a7 : FVec Ideal S144x24 .f32) (a8 a9 : FVec Ideal S24 .f32)
    (a10 a11 a12 : IVec S900000 32) : FVec Ideal S100000x24 .f32 :=
  addf (bn24 (h3 (clip144 (bn144 (conv (clip144 (bn144 (h1 a0 a1) a2 a3)) a4 a10 a11 a12) a5 a6)) a7) a8 a9) a0

/-! ## Each stage's line read back

A stage's result buffer after its line, from any contents: the stage function of the contents of the buffers it reads;
and the thirteen argument buffers, which no operation writes, as they were. -/

section Read

-- the sums, products, gathers and the scatter stay folded while two spellings of one composed term are compared
attribute [local irreducible] Host.reduceAdd Host.gather Host.scatterAdd Host.divf Host.rsqrt broadcastInDim concatenate
  extractStridedSlice

set_option maxRecDepth 16384

theorem h1_read (V : Valuation τ sig (Elt Ideal)) :
    after (opsH1 (F := Ideal)) V (main_v0 : DevRef τ sig) = h1 (V (main_arg0 : DevRef τ sig)) (V (main_arg1 : DevRef τ sig)) := by
  walk_back [opsH1]
  rfl
set_option maxHeartbeats 4000000 in
theorem opsH1_args (V : Valuation τ sig (Elt Ideal)) :
    after (opsH1 (F := Ideal)) V (main_arg0 : DevRef τ sig) = V (main_arg0 : DevRef τ sig)
    ∧ after (opsH1 (F := Ideal)) V (main_arg1 : DevRef τ sig) = V (main_arg1 : DevRef τ sig)
    ∧ after (opsH1 (F := Ideal)) V (main_arg2 : DevRef τ sig) = V (main_arg2 : DevRef τ sig)
    ∧ after (opsH1 (F := Ideal)) V (main_arg3 : DevRef τ sig) = V (main_arg3 : DevRef τ sig)
    ∧ after (opsH1 (F := Ideal)) V (main_arg4 : DevRef τ sig) = V (main_arg4 : DevRef τ sig)
    ∧ after (opsH1 (F := Ideal)) V (main_arg5 : DevRef τ sig) = V (main_arg5 : DevRef τ sig)
    ∧ after (opsH1 (F := Ideal)) V (main_arg6 : DevRef τ sig) = V (main_arg6 : DevRef τ sig)
    ∧ after (opsH1 (F := Ideal)) V (main_arg7 : DevRef τ sig) = V (main_arg7 : DevRef τ sig)
    ∧ after (opsH1 (F := Ideal)) V (main_arg8 : DevRef τ sig) = V (main_arg8 : DevRef τ sig)
    ∧ after (opsH1 (F := Ideal)) V (main_arg9 : DevRef τ sig) = V (main_arg9 : DevRef τ sig)
    ∧ after (opsH1 (F := Ideal)) V (main_arg10 : DevRef τ sig) = V (main_arg10 : DevRef τ sig)
    ∧ after (opsH1 (F := Ideal)) V (main_arg11 : DevRef τ sig) = V (main_arg11 : DevRef τ sig)
    ∧ after (opsH1 (F := Ideal)) V (main_arg12 : DevRef τ sig) = V (main_arg12 : DevRef τ sig) := by
  refine ⟨?_, ?_, ?_, ?_, ?_, ?_, ?_, ?_, ?_, ?_, ?_, ?_, ?_⟩ <;> walk_back [opsH1]

theorem bn1_read (V : Valuation τ sig (Elt Ideal)) :
    after (opsBn1 (F := Ideal)) V (main_v19 : DevRef τ sig) = bn144 (V (main_v0 : DevRef τ sig)) (V (main_arg2 : DevRef τ sig)) (V (main_arg3 : DevRef τ sig)) := by
  walk_back [opsBn1]
  rfl
set_option maxHeartbeats 4000000 in
theorem opsBn1_args (V : Valuation τ sig (Elt Ideal)) :
    after (opsBn1 (F := Ideal)) V (main_arg0 : DevRef τ sig) = V (main_arg0 : DevRef τ sig)
    ∧ after (opsBn1 (F := Ideal)) V (main_arg1 : DevRef τ sig) = V (main_arg1 : DevRef τ sig)
    ∧ after (opsBn1 (F := Ideal)) V (main_arg2 : DevRef τ sig) = V (main_arg2 : DevRef τ sig)
    ∧ after (opsBn1 (F := Ideal)) V (main_arg3 : DevRef τ sig) = V (main_arg3 : DevRef τ sig)
    ∧ after (opsBn1 (F := Ideal)) V (main_arg4 : DevRef τ sig) = V (main_arg4 : DevRef τ sig)
    ∧ after (opsBn1 (F := Ideal)) V (main_arg5 : DevRef τ sig) = V (main_arg5 : DevRef τ sig)
    ∧ after (opsBn1 (F := Ideal)) V (main_arg6 : DevRef τ sig) = V (main_arg6 : DevRef τ sig)
    ∧ after (opsBn1 (F := Ideal)) V (main_arg7 : DevRef τ sig) = V (main_arg7 : DevRef τ sig)
    ∧ after (opsBn1 (F := Ideal)) V (main_arg8 : DevRef τ sig) = V (main_arg8 : DevRef τ sig)
    ∧ after (opsBn1 (F := Ideal)) V (main_arg9 : DevRef τ sig) = V (main_arg9 : DevRef τ sig)
    ∧ after (opsBn1 (F := Ideal)) V (main_arg10 : DevRef τ sig) = V (main_arg10 : DevRef τ sig)
    ∧ after (opsBn1 (F := Ideal)) V (main_arg11 : DevRef τ sig) = V (main_arg11 : DevRef τ sig)
    ∧ after (opsBn1 (F := Ideal)) V (main_arg12 : DevRef τ sig) = V (main_arg12 : DevRef τ sig) := by
  refine ⟨?_, ?_, ?_, ?_, ?_, ?_, ?_, ?_, ?_, ?_, ?_, ?_, ?_⟩ <;> walk_back [opsBn1]

theorem clip1_read (V : Valuation τ sig (Elt Ideal)) :
    after (opsClip1 (F := Ideal)) V (main_v20 : DevRef τ sig) = clip144 (V (main_v19 : DevRef τ sig)) := by
  walk_back [opsClip1]
  rfl
set_option maxHeartbeats 4000000 in
theorem opsClip1_args (V : Valuation τ sig (Elt Ideal)) :
    after (opsClip1 (F := Ideal)) V (main_arg0 : DevRef τ sig) = V (main_arg0 : DevRef τ sig)
    ∧ after (opsClip1 (F := Ideal)) V (main_arg1 : DevRef τ sig) = V (main_arg1 : DevRef τ sig)
    ∧ after (opsClip1 (F := Ideal)) V (main_arg2 : DevRef τ sig) = V (main_arg2 : DevRef τ sig)
    ∧ after (opsClip1 (F := Ideal)) V (main_arg3 : DevRef τ sig) = V (main_arg3 : DevRef τ sig)
    ∧ after (opsClip1 (F := Ideal)) V (main_arg4 : DevRef τ sig) = V (main_arg4 : DevRef τ sig)
    ∧ after (opsClip1 (F := Ideal)) V (main_arg5 : DevRef τ sig) = V (main_arg5 : DevRef τ sig)
    ∧ after (opsClip1 (F := Ideal)) V (main_arg6 : DevRef τ sig) = V (main_arg6 : DevRef τ sig)
    ∧ after (opsClip1 (F := Ideal)) V (main_arg7 : DevRef τ sig) = V (main_arg7 : DevRef τ sig)
    ∧ after (opsClip1 (F := Ideal)) V (main_arg8 : DevRef τ sig) = V (main_arg8 : DevRef τ sig)
    ∧ after (opsClip1 (F := Ideal)) V (main_arg9 : DevRef τ sig) = V (main_arg9 : DevRef τ sig)
    ∧ after (opsClip1 (F := Ideal)) V (main_arg10 : DevRef τ sig) = V (main_arg10 : DevRef τ sig)
    ∧ after (opsClip1 (F := Ideal)) V (main_arg11 : DevRef τ sig) = V (main_arg11 : DevRef τ sig)
    ∧ after (opsClip1 (F := Ideal)) V (main_arg12 : DevRef τ sig) = V (main_arg12 : DevRef τ sig) := by
  refine ⟨?_, ?_, ?_, ?_, ?_, ?_, ?_, ?_, ?_, ?_, ?_, ?_, ?_⟩ <;> walk_back [opsClip1]

theorem convA_read (V : Valuation τ sig (Elt Ideal)) :
    after (opsConvA (F := Ideal)) V (main_v45 : DevRef τ sig)
      = convPre (V (main_v20 : DevRef τ sig)) (V (main_arg4 : DevRef τ sig)) (V (main_arg10 : DevRef τ sig)) (V (main_arg11 : DevRef τ sig)) (V (main_arg12 : DevRef τ sig)) := by
  walk_back [opsConvA]
  rfl
set_option maxHeartbeats 4000000 in
theorem opsConvA_args (V : Valuation τ sig (Elt Ideal)) :
    after (opsConvA (F := Ideal)) V (main_arg0 : DevRef τ sig) = V (main_arg0 : DevRef τ sig)
    ∧ after (opsConvA (F := Ideal)) V (main_arg1 : DevRef τ sig) = V (main_arg1 : DevRef τ sig)
    ∧ after (opsConvA (F := Ideal)) V (main_arg2 : DevRef τ sig) = V (main_arg2 : DevRef τ sig)
    ∧ after (opsConvA (F := Ideal)) V (main_arg3 : DevRef τ sig) = V (main_arg3 : DevRef τ sig)
    ∧ after (opsConvA (F := Ideal)) V (main_arg4 : DevRef τ sig) = V (main_arg4 : DevRef τ sig)
    ∧ after (opsConvA (F := Ideal)) V (main_arg5 : DevRef τ sig) = V (main_arg5 : DevRef τ sig)
    ∧ after (opsConvA (F := Ideal)) V (main_arg6 : DevRef τ sig) = V (main_arg6 : DevRef τ sig)
    ∧ after (opsConvA (F := Ideal)) V (main_arg7 : DevRef τ sig) = V (main_arg7 : DevRef τ sig)
    ∧ after (opsConvA (F := Ideal)) V (main_arg8 : DevRef τ sig) = V (main_arg8 : DevRef τ sig)
    ∧ after (opsConvA (F := Ideal)) V (main_arg9 : DevRef τ sig) = V (main_arg9 : DevRef τ sig)
    ∧ after (opsConvA (F := Ideal)) V (main_arg10 : DevRef τ sig) = V (main_arg10 : DevRef τ sig)
    ∧ after (opsConvA (F := Ideal)) V (main_arg11 : DevRef τ sig) = V (main_arg11 : DevRef τ sig)
    ∧ after (opsConvA (F := Ideal)) V (main_arg12 : DevRef τ sig) = V (main_arg12 : DevRef τ sig) := by
  refine ⟨?_, ?_, ?_, ?_, ?_, ?_, ?_, ?_, ?_, ?_, ?_, ?_, ?_⟩ <;> walk_back [opsConvA]

theorem slice_read (V : Valuation τ sig (Elt Ideal)) :
    after (opsSlice (F := Ideal)) V (main_v46 : DevRef τ sig)
      = extractStridedSlice S100000x144 ![0, 0] (V (main_v45 : DevRef τ sig)) slices_S100001x144_S100000x144_0_0 := by
  walk_back [opsSlice]
set_option maxHeartbeats 4000000 in
theorem opsSlice_args (V : Valuation τ sig (Elt Ideal)) :
    after (opsSlice (F := Ideal)) V (main_arg0 : DevRef τ sig) = V (main_arg0 : DevRef τ sig)
    ∧ after (opsSlice (F := Ideal)) V (main_arg1 : DevRef τ sig) = V (main_arg1 : DevRef τ sig)
    ∧ after (opsSlice (F := Ideal)) V (main_arg2 : DevRef τ sig) = V (main_arg2 : DevRef τ sig)
    ∧ after (opsSlice (F := Ideal)) V (main_arg3 : DevRef τ sig) = V (main_arg3 : DevRef τ sig)
    ∧ after (opsSlice (F := Ideal)) V (main_arg4 : DevRef τ sig) = V (main_arg4 : DevRef τ sig)
    ∧ after (opsSlice (F := Ideal)) V (main_arg5 : DevRef τ sig) = V (main_arg5 : DevRef τ sig)
    ∧ after (opsSlice (F := Ideal)) V (main_arg6 : DevRef τ sig) = V (main_arg6 : DevRef τ sig)
    ∧ after (opsSlice (F := Ideal)) V (main_arg7 : DevRef τ sig) = V (main_arg7 : DevRef τ sig)
    ∧ after (opsSlice (F := Ideal)) V (main_arg8 : DevRef τ sig) = V (main_arg8 : DevRef τ sig)
    ∧ after (opsSlice (F := Ideal)) V (main_arg9 : DevRef τ sig) = V (main_arg9 : DevRef τ sig)
    ∧ after (opsSlice (F := Ideal)) V (main_arg10 : DevRef τ sig) = V (main_arg10 : DevRef τ sig)
    ∧ after (opsSlice (F := Ideal)) V (main_arg11 : DevRef τ sig) = V (main_arg11 : DevRef τ sig)
    ∧ after (opsSlice (F := Ideal)) V (main_arg12 : DevRef τ sig) = V (main_arg12 : DevRef τ sig) := by
  refine ⟨?_, ?_, ?_, ?_, ?_, ?_, ?_, ?_, ?_, ?_, ?_, ?_, ?_⟩ <;> walk_back [opsSlice]

theorem bn2_read (V : Valuation τ sig (Elt Ideal)) :
    after (opsBn2 (F := Ideal)) V (main_v65 : DevRef τ sig) = bn144 (V (main_v46 : DevRef τ sig)) (V (main_arg5 : DevRef τ sig)) (V (main_arg6 : DevRef τ sig)) := by
  walk_back [opsBn2]
  rfl
set_option maxHeartbeats 4000000 in
theorem opsBn2_args (V : Valuation τ sig (Elt Ideal)) :
    after (opsBn2 (F := Ideal)) V (main_arg0 : DevRef τ sig) = V (main_arg0 : DevRef τ sig)
    ∧ after (opsBn2 (F := Ideal)) V (main_arg1 : DevRef τ sig) = V (main_arg1 : DevRef τ sig)
    ∧ after (opsBn2 (F := Ideal)) V (main_arg2 : DevRef τ sig) = V (main_arg2 : DevRef τ sig)
    ∧ after (opsBn2 (F := Ideal)) V (main_arg3 : DevRef τ sig) = V (main_arg3 : DevRef τ sig)
    ∧ after (opsBn2 (F := Ideal)) V (main_arg4 : DevRef τ sig) = V (main_arg4 : DevRef τ sig)
    ∧ after (opsBn2 (F := Ideal)) V (main_arg5 : DevRef τ sig) = V (main_arg5 : DevRef τ sig)
    ∧ after (opsBn2 (F := Ideal)) V (main_arg6 : DevRef τ sig) = V (main_arg6 : DevRef τ sig)
    ∧ after (opsBn2 (F := Ideal)) V (main_arg7 : DevRef τ sig) = V (main_arg7 : DevRef τ sig)
    ∧ after (opsBn2 (F := Ideal)) V (main_arg8 : DevRef τ sig) = V (main_arg8 : DevRef τ sig)
    ∧ after (opsBn2 (F := Ideal)) V (main_arg9 : DevRef τ sig) = V (main_arg9 : DevRef τ sig)
    ∧ after (opsBn2 (F := Ideal)) V (main_arg10 : DevRef τ sig) = V (main_arg10 : DevRef τ sig)
    ∧ after (opsBn2 (F := Ideal)) V (main_arg11 : DevRef τ sig) = V (main_arg11 : DevRef τ sig)
    ∧ after (opsBn2 (F := Ideal)) V (main_arg12 : DevRef τ sig) = V (main_arg12 : DevRef τ sig) := by
  refine ⟨?_, ?_, ?_, ?_, ?_, ?_, ?_, ?_, ?_, ?_, ?_, ?_, ?_⟩ <;> walk_back [opsBn2]

theorem clip2_read (V : Valuation τ sig (Elt Ideal)) :
    after (opsClip2 (F := Ideal)) V (main_v66 : DevRef τ sig) = clip144 (V (main_v65 : DevRef τ sig)) := by
  walk_back [opsClip2]
  rfl
set_option maxHeartbeats 4000000 in
theorem opsClip2_args (V : Valuation τ sig (Elt Ideal)) :
    after (opsClip2 (F := Ideal)) V (main_arg0 : DevRef τ sig) = V (main_arg0 : DevRef τ sig)
    ∧ after (opsClip2 (F := Ideal)) V (main_arg1 : DevRef τ sig) = V (main_arg1 : DevRef τ sig)
    ∧ after (opsClip2 (F := Ideal)) V (main_arg2 : DevRef τ sig) = V (main_arg2 : DevRef τ sig)
    ∧ after (opsClip2 (F := Ideal)) V (main_arg3 : DevRef τ sig) = V (main_arg3 : DevRef τ sig)
    ∧ after (opsClip2 (F := Ideal)) V (main_arg4 : DevRef τ sig) = V (main_arg4 : DevRef τ sig)
    ∧ after (opsClip2 (F := Ideal)) V (main_arg5 : DevRef τ sig) = V (main_arg5 : DevRef τ sig)
    ∧ after (opsClip2 (F := Ideal)) V (main_arg6 : DevRef τ sig) = V (main_arg6 : DevRef τ sig)
    ∧ after (opsClip2 (F := Ideal)) V (main_arg7 : DevRef τ sig) = V (main_arg7 : DevRef τ sig)
    ∧ after (opsClip2 (F := Ideal)) V (main_arg8 : DevRef τ sig) = V (main_arg8 : DevRef τ sig)
    ∧ after (opsClip2 (F := Ideal)) V (main_arg9 : DevRef τ sig) = V (main_arg9 : DevRef τ sig)
    ∧ after (opsClip2 (F := Ideal)) V (main_arg10 : DevRef τ sig) = V (main_arg10 : DevRef τ sig)
    ∧ after (opsClip2 (F := Ideal)) V (main_arg11 : DevRef τ sig) = V (main_arg11 : DevRef τ sig)
    ∧ after (opsClip2 (F := Ideal)) V (main_arg12 : DevRef τ sig) = V (main_arg12 : DevRef τ sig) := by
  refine ⟨?_, ?_, ?_, ?_, ?_, ?_, ?_, ?_, ?_, ?_, ?_, ?_, ?_⟩ <;> walk_back [opsClip2]

theorem h3_read (V : Valuation τ sig (Elt Ideal)) :
    after (opsH3 (F := Ideal)) V (main_v67 : DevRef τ sig) = h3 (V (main_v66 : DevRef τ sig)) (V (main_arg7 : DevRef τ sig)) := by
  walk_back [opsH3]
  rfl
set_option maxHeartbeats 4000000 in
theorem opsH3_args (V : Valuation τ sig (Elt Ideal)) :
    after (opsH3 (F := Ideal)) V (main_arg0 : DevRef τ sig) = V (main_arg0 : DevRef τ sig)
    ∧ after (opsH3 (F := Ideal)) V (main_arg1 : DevRef τ sig) = V (main_arg1 : DevRef τ sig)
    ∧ after (opsH3 (F := Ideal)) V (main_arg2 : DevRef τ sig) = V (main_arg2 : DevRef τ sig)
    ∧ after (opsH3 (F := Ideal)) V (main_arg3 : DevRef τ sig) = V (main_arg3 : DevRef τ sig)
    ∧ after (opsH3 (F := Ideal)) V (main_arg4 : DevRef τ sig) = V (main_arg4 : DevRef τ sig)
    ∧ after (opsH3 (F := Ideal)) V (main_arg5 : DevRef τ sig) = V (main_arg5 : DevRef τ sig)
    ∧ after (opsH3 (F := Ideal)) V (main_arg6 : DevRef τ sig) = V (main_arg6 : DevRef τ sig)
    ∧ after (opsH3 (F := Ideal)) V (main_arg7 : DevRef τ sig) = V (main_arg7 : DevRef τ sig)
    ∧ after (opsH3 (F := Ideal)) V (main_arg8 : DevRef τ sig) = V (main_arg8 : DevRef τ sig)
    ∧ after (opsH3 (F := Ideal)) V (main_arg9 : DevRef τ sig) = V (main_arg9 : DevRef τ sig)
    ∧ after (opsH3 (F := Ideal)) V (main_arg10 : DevRef τ sig) = V (main_arg10 : DevRef τ sig)
    ∧ after (opsH3 (F := Ideal)) V (main_arg11 : DevRef τ sig) = V (main_arg11 : DevRef τ sig)
    ∧ after (opsH3 (F := Ideal)) V (main_arg12 : DevRef τ sig) = V (main_arg12 : DevRef τ sig) := by
  refine ⟨?_, ?_, ?_, ?_, ?_, ?_, ?_, ?_, ?_, ?_, ?_, ?_, ?_⟩ <;> walk_back [opsH3]

theorem bn3_read (V : Valuation τ sig (Elt Ideal)) :
    after (opsBn3 (F := Ideal)) V (main_v86 : DevRef τ sig) = bn24 (V (main_v67 : DevRef τ sig)) (V (main_arg8 : DevRef τ sig)) (V (main_arg9 : DevRef τ sig)) := by
  walk_back [opsBn3]
  rfl
set_option maxHeartbeats 4000000 in
theorem opsBn3_args (V : Valuation τ sig (Elt Ideal)) :
    after (opsBn3 (F := Ideal)) V (main_arg0 : DevRef τ sig) = V (main_arg0 : DevRef τ sig)
    ∧ after (opsBn3 (F := Ideal)) V (main_arg1 : DevRef τ sig) = V (main_arg1 : DevRef τ sig)
    ∧ after (opsBn3 (F := Ideal)) V (main_arg2 : DevRef τ sig) = V (main_arg2 : DevRef τ sig)
    ∧ after (opsBn3 (F := Ideal)) V (main_arg3 : DevRef τ sig) = V (main_arg3 : DevRef τ sig)
    ∧ after (opsBn3 (F := Ideal)) V (main_arg4 : DevRef τ sig) = V (main_arg4 : DevRef τ sig)
    ∧ after (opsBn3 (F := Ideal)) V (main_arg5 : DevRef τ sig) = V (main_arg5 : DevRef τ sig)
    ∧ after (opsBn3 (F := Ideal)) V (main_arg6 : DevRef τ sig) = V (main_arg6 : DevRef τ sig)
    ∧ after (opsBn3 (F := Ideal)) V (main_arg7 : DevRef τ sig) = V (main_arg7 : DevRef τ sig)
    ∧ after (opsBn3 (F := Ideal)) V (main_arg8 : DevRef τ sig) = V (main_arg8 : DevRef τ sig)
    ∧ after (opsBn3 (F := Ideal)) V (main_arg9 : DevRef τ sig) = V (main_arg9 : DevRef τ sig)
    ∧ after (opsBn3 (F := Ideal)) V (main_arg10 : DevRef τ sig) = V (main_arg10 : DevRef τ sig)
    ∧ after (opsBn3 (F := Ideal)) V (main_arg11 : DevRef τ sig) = V (main_arg11 : DevRef τ sig)
    ∧ after (opsBn3 (F := Ideal)) V (main_arg12 : DevRef τ sig) = V (main_arg12 : DevRef τ sig) := by
  refine ⟨?_, ?_, ?_, ?_, ?_, ?_, ?_, ?_, ?_, ?_, ?_, ?_, ?_⟩ <;> walk_back [opsBn3]

theorem final_read (V : Valuation τ sig (Elt Ideal)) :
    after (opsFinal (F := Ideal)) V (main_v87 : DevRef τ sig) = (addf (V (main_v86 : DevRef τ sig)) (V (main_arg0 : DevRef τ sig)) : FVec Ideal S100000x24 .f32) := by
  walk_back [opsFinal]
set_option maxHeartbeats 4000000 in
theorem opsFinal_args (V : Valuation τ sig (Elt Ideal)) :
    after (opsFinal (F := Ideal)) V (main_arg0 : DevRef τ sig) = V (main_arg0 : DevRef τ sig)
    ∧ after (opsFinal (F := Ideal)) V (main_arg1 : DevRef τ sig) = V (main_arg1 : DevRef τ sig)
    ∧ after (opsFinal (F := Ideal)) V (main_arg2 : DevRef τ sig) = V (main_arg2 : DevRef τ sig)
    ∧ after (opsFinal (F := Ideal)) V (main_arg3 : DevRef τ sig) = V (main_arg3 : DevRef τ sig)
    ∧ after (opsFinal (F := Ideal)) V (main_arg4 : DevRef τ sig) = V (main_arg4 : DevRef τ sig)
    ∧ after (opsFinal (F := Ideal)) V (main_arg5 : DevRef τ sig) = V (main_arg5 : DevRef τ sig)
    ∧ after (opsFinal (F := Ideal)) V (main_arg6 : DevRef τ sig) = V (main_arg6 : DevRef τ sig)
    ∧ after (opsFinal (F := Ideal)) V (main_arg7 : DevRef τ sig) = V (main_arg7 : DevRef τ sig)
    ∧ after (opsFinal (F := Ideal)) V (main_arg8 : DevRef τ sig) = V (main_arg8 : DevRef τ sig)
    ∧ after (opsFinal (F := Ideal)) V (main_arg9 : DevRef τ sig) = V (main_arg9 : DevRef τ sig)
    ∧ after (opsFinal (F := Ideal)) V (main_arg10 : DevRef τ sig) = V (main_arg10 : DevRef τ sig)
    ∧ after (opsFinal (F := Ideal)) V (main_arg11 : DevRef τ sig) = V (main_arg11 : DevRef τ sig)
    ∧ after (opsFinal (F := Ideal)) V (main_arg12 : DevRef τ sig) = V (main_arg12 : DevRef τ sig) := by
  refine ⟨?_, ?_, ?_, ?_, ?_, ?_, ?_, ?_, ?_, ?_, ?_, ?_, ?_⟩ <;> walk_back [opsFinal]

end Read

end Cert.ReferenceIdeal.RefRun

end
-- ==== Proof.RefRun.lean ====
/-
  The reference program's run: every execution ends with the result buffer at the composition of the stage functions
  applied to the thirteen arguments, the arguments unchanged.
-/
import proofs.«119352_j15083925143721_1_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.HostWalk

/-! ## The stage lemmas restated for rewriting

The same equations with the buffer read left out of the rewriting index (a literal buffer reference unfolds to its
components there, and the index then misses it): the rewriter finds them by unification instead. -/

theorem h1_read' (V : Valuation τ sig (Elt Ideal)) :
    after (opsH1 (F := Ideal)) V (no_index (main_v0 : DevRef τ sig)) = h1 (V (main_arg0 : DevRef τ sig)) (V (main_arg1 : DevRef τ sig)) := h1_read V
theorem opsH1_args' (V : Valuation τ sig (Elt Ideal)) :
    after (opsH1 (F := Ideal)) V (no_index (main_arg0 : DevRef τ sig)) = V (main_arg0 : DevRef τ sig)
    ∧ after (opsH1 (F := Ideal)) V (no_index (main_arg1 : DevRef τ sig)) = V (main_arg1 : DevRef τ sig)
    ∧ after (opsH1 (F := Ideal)) V (no_index (main_arg2 : DevRef τ sig)) = V (main_arg2 : DevRef τ sig)
    ∧ after (opsH1 (F := Ideal)) V (no_index (main_arg3 : DevRef τ sig)) = V (main_arg3 : DevRef τ sig)
    ∧ after (opsH1 (F := Ideal)) V (no_index (main_arg4 : DevRef τ sig)) = V (main_arg4 : DevRef τ sig)
    ∧ after (opsH1 (F := Ideal)) V (no_index (main_arg5 : DevRef τ sig)) = V (main_arg5 : DevRef τ sig)
    ∧ after (opsH1 (F := Ideal)) V (no_index (main_arg6 : DevRef τ sig)) = V (main_arg6 : DevRef τ sig)
    ∧ after (opsH1 (F := Ideal)) V (no_index (main_arg7 : DevRef τ sig)) = V (main_arg7 : DevRef τ sig)
    ∧ after (opsH1 (F := Ideal)) V (no_index (main_arg8 : DevRef τ sig)) = V (main_arg8 : DevRef τ sig)
    ∧ after (opsH1 (F := Ideal)) V (no_index (main_arg9 : DevRef τ sig)) = V (main_arg9 : DevRef τ sig)
    ∧ after (opsH1 (F := Ideal)) V (no_index (main_arg10 : DevRef τ sig)) = V (main_arg10 : DevRef τ sig)
    ∧ after (opsH1 (F := Ideal)) V (no_index (main_arg11 : DevRef τ sig)) = V (main_arg11 : DevRef τ sig)
    ∧ after (opsH1 (F := Ideal)) V (no_index (main_arg12 : DevRef τ sig)) = V (main_arg12 : DevRef τ sig) := opsH1_args V

theorem bn1_read' (V : Valuation τ sig (Elt Ideal)) :
    after (opsBn1 (F := Ideal)) V (no_index (main_v19 : DevRef τ sig)) = bn144 (V (main_v0 : DevRef τ sig)) (V (main_arg2 : DevRef τ sig)) (V (main_arg3 : DevRef τ sig)) := bn1_read V
theorem opsBn1_args' (V : Valuation τ sig (Elt Ideal)) :
    after (opsBn1 (F := Ideal)) V (no_index (main_arg0 : DevRef τ sig)) = V (main_arg0 : DevRef τ sig)
    ∧ after (opsBn1 (F := Ideal)) V (no_index (main_arg1 : DevRef τ sig)) = V (main_arg1 : DevRef τ sig)
    ∧ after (opsBn1 (F := Ideal)) V (no_index (main_arg2 : DevRef τ sig)) = V (main_arg2 : DevRef τ sig)
    ∧ after (opsBn1 (F := Ideal)) V (no_index (main_arg3 : DevRef τ sig)) = V (main_arg3 : DevRef τ sig)
    ∧ after (opsBn1 (F := Ideal)) V (no_index (main_arg4 : DevRef τ sig)) = V (main_arg4 : DevRef τ sig)
    ∧ after (opsBn1 (F := Ideal)) V (no_index (main_arg5 : DevRef τ sig)) = V (main_arg5 : DevRef τ sig)
    ∧ after (opsBn1 (F := Ideal)) V (no_index (main_arg6 : DevRef τ sig)) = V (main_arg6 : DevRef τ sig)
    ∧ after (opsBn1 (F := Ideal)) V (no_index (main_arg7 : DevRef τ sig)) = V (main_arg7 : DevRef τ sig)
    ∧ after (opsBn1 (F := Ideal)) V (no_index (main_arg8 : DevRef τ sig)) = V (main_arg8 : DevRef τ sig)
    ∧ after (opsBn1 (F := Ideal)) V (no_index (main_arg9 : DevRef τ sig)) = V (main_arg9 : DevRef τ sig)
    ∧ after (opsBn1 (F := Ideal)) V (no_index (main_arg10 : DevRef τ sig)) = V (main_arg10 : DevRef τ sig)
    ∧ after (opsBn1 (F := Ideal)) V (no_index (main_arg11 : DevRef τ sig)) = V (main_arg11 : DevRef τ sig)
    ∧ after (opsBn1 (F := Ideal)) V (no_index (main_arg12 : DevRef τ sig)) = V (main_arg12 : DevRef τ sig) := opsBn1_args V

theorem clip1_read' (V : Valuation τ sig (Elt Ideal)) :
    after (opsClip1 (F := Ideal)) V (no_index (main_v20 : DevRef τ sig)) = clip144 (V (main_v19 : DevRef τ sig)) := clip1_read V
theorem opsClip1_args' (V : Valuation τ sig (Elt Ideal)) :
    after (opsClip1 (F := Ideal)) V (no_index (main_arg0 : DevRef τ sig)) = V (main_arg0 : DevRef τ sig)
    ∧ after (opsClip1 (F := Ideal)) V (no_index (main_arg1 : DevRef τ sig)) = V (main_arg1 : DevRef τ sig)
    ∧ after (opsClip1 (F := Ideal)) V (no_index (main_arg2 : DevRef τ sig)) = V (main_arg2 : DevRef τ sig)
    ∧ after (opsClip1 (F := Ideal)) V (no_index (main_arg3 : DevRef τ sig)) = V (main_arg3 : DevRef τ sig)
    ∧ after (opsClip1 (F := Ideal)) V (no_index (main_arg4 : DevRef τ sig)) = V (main_arg4 : DevRef τ sig)
    ∧ after (opsClip1 (F := Ideal)) V (no_index (main_arg5 : DevRef τ sig)) = V (main_arg5 : DevRef τ sig)
    ∧ after (opsClip1 (F := Ideal)) V (no_index (main_arg6 : DevRef τ sig)) = V (main_arg6 : DevRef τ sig)
    ∧ after (opsClip1 (F := Ideal)) V (no_index (main_arg7 : DevRef τ sig)) = V (main_arg7 : DevRef τ sig)
    ∧ after (opsClip1 (F := Ideal)) V (no_index (main_arg8 : DevRef τ sig)) = V (main_arg8 : DevRef τ sig)
    ∧ after (opsClip1 (F := Ideal)) V (no_index (main_arg9 : DevRef τ sig)) = V (main_arg9 : DevRef τ sig)
    ∧ after (opsClip1 (F := Ideal)) V (no_index (main_arg10 : DevRef τ sig)) = V (main_arg10 : DevRef τ sig)
    ∧ after (opsClip1 (F := Ideal)) V (no_index (main_arg11 : DevRef τ sig)) = V (main_arg11 : DevRef τ sig)
    ∧ after (opsClip1 (F := Ideal)) V (no_index (main_arg12 : DevRef τ sig)) = V (main_arg12 : DevRef τ sig) := opsClip1_args V

theorem convA_read' (V : Valuation τ sig (Elt Ideal)) :
    after (opsConvA (F := Ideal)) V (no_index (main_v45 : DevRef τ sig)) = convPre (V (main_v20 : DevRef τ sig)) (V (main_arg4 : DevRef τ sig)) (V (main_arg10 : DevRef τ sig)) (V (main_arg11 : DevRef τ sig)) (V (main_arg12 : DevRef τ sig)) := convA_read V
theorem opsConvA_args' (V : Valuation τ sig (Elt Ideal)) :
    after (opsConvA (F := Ideal)) V (no_index (main_arg0 : DevRef τ sig)) = V (main_arg0 : DevRef τ sig)
    ∧ after (opsConvA (F := Ideal)) V (no_index (main_arg1 : DevRef τ sig)) = V (main_arg1 : DevRef τ sig)
    ∧ after (opsConvA (F := Ideal)) V (no_index (main_arg2 : DevRef τ sig)) = V (main_arg2 : DevRef τ sig)
    ∧ after (opsConvA (F := Ideal)) V (no_index (main_arg3 : DevRef τ sig)) = V (main_arg3 : DevRef τ sig)
    ∧ after (opsConvA (F := Ideal)) V (no_index (main_arg4 : DevRef τ sig)) = V (main_arg4 : DevRef τ sig)
    ∧ after (opsConvA (F := Ideal)) V (no_index (main_arg5 : DevRef τ sig)) = V (main_arg5 : DevRef τ sig)
    ∧ after (opsConvA (F := Ideal)) V (no_index (main_arg6 : DevRef τ sig)) = V (main_arg6 : DevRef τ sig)
    ∧ after (opsConvA (F := Ideal)) V (no_index (main_arg7 : DevRef τ sig)) = V (main_arg7 : DevRef τ sig)
    ∧ after (opsConvA (F := Ideal)) V (no_index (main_arg8 : DevRef τ sig)) = V (main_arg8 : DevRef τ sig)
    ∧ after (opsConvA (F := Ideal)) V (no_index (main_arg9 : DevRef τ sig)) = V (main_arg9 : DevRef τ sig)
    ∧ after (opsConvA (F := Ideal)) V (no_index (main_arg10 : DevRef τ sig)) = V (main_arg10 : DevRef τ sig)
    ∧ after (opsConvA (F := Ideal)) V (no_index (main_arg11 : DevRef τ sig)) = V (main_arg11 : DevRef τ sig)
    ∧ after (opsConvA (F := Ideal)) V (no_index (main_arg12 : DevRef τ sig)) = V (main_arg12 : DevRef τ sig) := opsConvA_args V

theorem slice_read' (V : Valuation τ sig (Elt Ideal)) :
    after (opsSlice (F := Ideal)) V (no_index (main_v46 : DevRef τ sig)) = extractStridedSlice S100000x144 ![0, 0] (V (main_v45 : DevRef τ sig)) slices_S100001x144_S100000x144_0_0 := slice_read V
theorem opsSlice_args' (V : Valuation τ sig (Elt Ideal)) :
    after (opsSlice (F := Ideal)) V (no_index (main_arg0 : DevRef τ sig)) = V (main_arg0 : DevRef τ sig)
    ∧ after (opsSlice (F := Ideal)) V (no_index (main_arg1 : DevRef τ sig)) = V (main_arg1 : DevRef τ sig)
    ∧ after (opsSlice (F := Ideal)) V (no_index (main_arg2 : DevRef τ sig)) = V (main_arg2 : DevRef τ sig)
    ∧ after (opsSlice (F := Ideal)) V (no_index (main_arg3 : DevRef τ sig)) = V (main_arg3 : DevRef τ sig)
    ∧ after (opsSlice (F := Ideal)) V (no_index (main_arg4 : DevRef τ sig)) = V (main_arg4 : DevRef τ sig)
    ∧ after (opsSlice (F := Ideal)) V (no_index (main_arg5 : DevRef τ sig)) = V (main_arg5 : DevRef τ sig)
    ∧ after (opsSlice (F := Ideal)) V (no_index (main_arg6 : DevRef τ sig)) = V (main_arg6 : DevRef τ sig)
    ∧ after (opsSlice (F := Ideal)) V (no_index (main_arg7 : DevRef τ sig)) = V (main_arg7 : DevRef τ sig)
    ∧ after (opsSlice (F := Ideal)) V (no_index (main_arg8 : DevRef τ sig)) = V (main_arg8 : DevRef τ sig)
    ∧ after (opsSlice (F := Ideal)) V (no_index (main_arg9 : DevRef τ sig)) = V (main_arg9 : DevRef τ sig)
    ∧ after (opsSlice (F := Ideal)) V (no_index (main_arg10 : DevRef τ sig)) = V (main_arg10 : DevRef τ sig)
    ∧ after (opsSlice (F := Ideal)) V (no_index (main_arg11 : DevRef τ sig)) = V (main_arg11 : DevRef τ sig)
    ∧ after (opsSlice (F := Ideal)) V (no_index (main_arg12 : DevRef τ sig)) = V (main_arg12 : DevRef τ sig) := opsSlice_args V

theorem bn2_read' (V : Valuation τ sig (Elt Ideal)) :
    after (opsBn2 (F := Ideal)) V (no_index (main_v65 : DevRef τ sig)) = bn144 (V (main_v46 : DevRef τ sig)) (V (main_arg5 : DevRef τ sig)) (V (main_arg6 : DevRef τ sig)) := bn2_read V
theorem opsBn2_args' (V : Valuation τ sig (Elt Ideal)) :
    after (opsBn2 (F := Ideal)) V (no_index (main_arg0 : DevRef τ sig)) = V (main_arg0 : DevRef τ sig)
    ∧ after (opsBn2 (F := Ideal)) V (no_index (main_arg1 : DevRef τ sig)) = V (main_arg1 : DevRef τ sig)
    ∧ after (opsBn2 (F := Ideal)) V (no_index (main_arg2 : DevRef τ sig)) = V (main_arg2 : DevRef τ sig)
    ∧ after (opsBn2 (F := Ideal)) V (no_index (main_arg3 : DevRef τ sig)) = V (main_arg3 : DevRef τ sig)
    ∧ after (opsBn2 (F := Ideal)) V (no_index (main_arg4 : DevRef τ sig)) = V (main_arg4 : DevRef τ sig)
    ∧ after (opsBn2 (F := Ideal)) V (no_index (main_arg5 : DevRef τ sig)) = V (main_arg5 : DevRef τ sig)
    ∧ after (opsBn2 (F := Ideal)) V (no_index (main_arg6 : DevRef τ sig)) = V (main_arg6 : DevRef τ sig)
    ∧ after (opsBn2 (F := Ideal)) V (no_index (main_arg7 : DevRef τ sig)) = V (main_arg7 : DevRef τ sig)
    ∧ after (opsBn2 (F := Ideal)) V (no_index (main_arg8 : DevRef τ sig)) = V (main_arg8 : DevRef τ sig)
    ∧ after (opsBn2 (F := Ideal)) V (no_index (main_arg9 : DevRef τ sig)) = V (main_arg9 : DevRef τ sig)
    ∧ after (opsBn2 (F := Ideal)) V (no_index (main_arg10 : DevRef τ sig)) = V (main_arg10 : DevRef τ sig)
    ∧ after (opsBn2 (F := Ideal)) V (no_index (main_arg11 : DevRef τ sig)) = V (main_arg11 : DevRef τ sig)
    ∧ after (opsBn2 (F := Ideal)) V (no_index (main_arg12 : DevRef τ sig)) = V (main_arg12 : DevRef τ sig) := opsBn2_args V

theorem clip2_read' (V : Valuation τ sig (Elt Ideal)) :
    after (opsClip2 (F := Ideal)) V (no_index (main_v66 : DevRef τ sig)) = clip144 (V (main_v65 : DevRef τ sig)) := clip2_read V
theorem opsClip2_args' (V : Valuation τ sig (Elt Ideal)) :
    after (opsClip2 (F := Ideal)) V (no_index (main_arg0 : DevRef τ sig)) = V (main_arg0 : DevRef τ sig)
    ∧ after (opsClip2 (F := Ideal)) V (no_index (main_arg1 : DevRef τ sig)) = V (main_arg1 : DevRef τ sig)
    ∧ after (opsClip2 (F := Ideal)) V (no_index (main_arg2 : DevRef τ sig)) = V (main_arg2 : DevRef τ sig)
    ∧ after (opsClip2 (F := Ideal)) V (no_index (main_arg3 : DevRef τ sig)) = V (main_arg3 : DevRef τ sig)
    ∧ after (opsClip2 (F := Ideal)) V (no_index (main_arg4 : DevRef τ sig)) = V (main_arg4 : DevRef τ sig)
    ∧ after (opsClip2 (F := Ideal)) V (no_index (main_arg5 : DevRef τ sig)) = V (main_arg5 : DevRef τ sig)
    ∧ after (opsClip2 (F := Ideal)) V (no_index (main_arg6 : DevRef τ sig)) = V (main_arg6 : DevRef τ sig)
    ∧ after (opsClip2 (F := Ideal)) V (no_index (main_arg7 : DevRef τ sig)) = V (main_arg7 : DevRef τ sig)
    ∧ after (opsClip2 (F := Ideal)) V (no_index (main_arg8 : DevRef τ sig)) = V (main_arg8 : DevRef τ sig)
    ∧ after (opsClip2 (F := Ideal)) V (no_index (main_arg9 : DevRef τ sig)) = V (main_arg9 : DevRef τ sig)
    ∧ after (opsClip2 (F := Ideal)) V (no_index (main_arg10 : DevRef τ sig)) = V (main_arg10 : DevRef τ sig)
    ∧ after (opsClip2 (F := Ideal)) V (no_index (main_arg11 : DevRef τ sig)) = V (main_arg11 : DevRef τ sig)
    ∧ after (opsClip2 (F := Ideal)) V (no_index (main_arg12 : DevRef τ sig)) = V (main_arg12 : DevRef τ sig) := opsClip2_args V

theorem h3_read' (V : Valuation τ sig (Elt Ideal)) :
    after (opsH3 (F := Ideal)) V (no_index (main_v67 : DevRef τ sig)) = h3 (V (main_v66 : DevRef τ sig)) (V (main_arg7 : DevRef τ sig)) := h3_read V
theorem opsH3_args' (V : Valuation τ sig (Elt Ideal)) :
    after (opsH3 (F := Ideal)) V (no_index (main_arg0 : DevRef τ sig)) = V (main_arg0 : DevRef τ sig)
    ∧ after (opsH3 (F := Ideal)) V (no_index (main_arg1 : DevRef τ sig)) = V (main_arg1 : DevRef τ sig)
    ∧ after (opsH3 (F := Ideal)) V (no_index (main_arg2 : DevRef τ sig)) = V (main_arg2 : DevRef τ sig)
    ∧ after (opsH3 (F := Ideal)) V (no_index (main_arg3 : DevRef τ sig)) = V (main_arg3 : DevRef τ sig)
    ∧ after (opsH3 (F := Ideal)) V (no_index (main_arg4 : DevRef τ sig)) = V (main_arg4 : DevRef τ sig)
    ∧ after (opsH3 (F := Ideal)) V (no_index (main_arg5 : DevRef τ sig)) = V (main_arg5 : DevRef τ sig)
    ∧ after (opsH3 (F := Ideal)) V (no_index (main_arg6 : DevRef τ sig)) = V (main_arg6 : DevRef τ sig)
    ∧ after (opsH3 (F := Ideal)) V (no_index (main_arg7 : DevRef τ sig)) = V (main_arg7 : DevRef τ sig)
    ∧ after (opsH3 (F := Ideal)) V (no_index (main_arg8 : DevRef τ sig)) = V (main_arg8 : DevRef τ sig)
    ∧ after (opsH3 (F := Ideal)) V (no_index (main_arg9 : DevRef τ sig)) = V (main_arg9 : DevRef τ sig)
    ∧ after (opsH3 (F := Ideal)) V (no_index (main_arg10 : DevRef τ sig)) = V (main_arg10 : DevRef τ sig)
    ∧ after (opsH3 (F := Ideal)) V (no_index (main_arg11 : DevRef τ sig)) = V (main_arg11 : DevRef τ sig)
    ∧ after (opsH3 (F := Ideal)) V (no_index (main_arg12 : DevRef τ sig)) = V (main_arg12 : DevRef τ sig) := opsH3_args V

theorem bn3_read' (V : Valuation τ sig (Elt Ideal)) :
    after (opsBn3 (F := Ideal)) V (no_index (main_v86 : DevRef τ sig)) = bn24 (V (main_v67 : DevRef τ sig)) (V (main_arg8 : DevRef τ sig)) (V (main_arg9 : DevRef τ sig)) := bn3_read V
theorem opsBn3_args' (V : Valuation τ sig (Elt Ideal)) :
    after (opsBn3 (F := Ideal)) V (no_index (main_arg0 : DevRef τ sig)) = V (main_arg0 : DevRef τ sig)
    ∧ after (opsBn3 (F := Ideal)) V (no_index (main_arg1 : DevRef τ sig)) = V (main_arg1 : DevRef τ sig)
    ∧ after (opsBn3 (F := Ideal)) V (no_index (main_arg2 : DevRef τ sig)) = V (main_arg2 : DevRef τ sig)
    ∧ after (opsBn3 (F := Ideal)) V (no_index (main_arg3 : DevRef τ sig)) = V (main_arg3 : DevRef τ sig)
    ∧ after (opsBn3 (F := Ideal)) V (no_index (main_arg4 : DevRef τ sig)) = V (main_arg4 : DevRef τ sig)
    ∧ after (opsBn3 (F := Ideal)) V (no_index (main_arg5 : DevRef τ sig)) = V (main_arg5 : DevRef τ sig)
    ∧ after (opsBn3 (F := Ideal)) V (no_index (main_arg6 : DevRef τ sig)) = V (main_arg6 : DevRef τ sig)
    ∧ after (opsBn3 (F := Ideal)) V (no_index (main_arg7 : DevRef τ sig)) = V (main_arg7 : DevRef τ sig)
    ∧ after (opsBn3 (F := Ideal)) V (no_index (main_arg8 : DevRef τ sig)) = V (main_arg8 : DevRef τ sig)
    ∧ after (opsBn3 (F := Ideal)) V (no_index (main_arg9 : DevRef τ sig)) = V (main_arg9 : DevRef τ sig)
    ∧ after (opsBn3 (F := Ideal)) V (no_index (main_arg10 : DevRef τ sig)) = V (main_arg10 : DevRef τ sig)
    ∧ after (opsBn3 (F := Ideal)) V (no_index (main_arg11 : DevRef τ sig)) = V (main_arg11 : DevRef τ sig)
    ∧ after (opsBn3 (F := Ideal)) V (no_index (main_arg12 : DevRef τ sig)) = V (main_arg12 : DevRef τ sig) := opsBn3_args V

theorem final_read' (V : Valuation τ sig (Elt Ideal)) :
    after (opsFinal (F := Ideal)) V (no_index (main_v87 : DevRef τ sig)) = (addf (V (main_v86 : DevRef τ sig)) (V (main_arg0 : DevRef τ sig)) : FVec Ideal S100000x24 .f32) := final_read V
theorem opsFinal_args' (V : Valuation τ sig (Elt Ideal)) :
    after (opsFinal (F := Ideal)) V (no_index (main_arg0 : DevRef τ sig)) = V (main_arg0 : DevRef τ sig)
    ∧ after (opsFinal (F := Ideal)) V (no_index (main_arg1 : DevRef τ sig)) = V (main_arg1 : DevRef τ sig)
    ∧ after (opsFinal (F := Ideal)) V (no_index (main_arg2 : DevRef τ sig)) = V (main_arg2 : DevRef τ sig)
    ∧ after (opsFinal (F := Ideal)) V (no_index (main_arg3 : DevRef τ sig)) = V (main_arg3 : DevRef τ sig)
    ∧ after (opsFinal (F := Ideal)) V (no_index (main_arg4 : DevRef τ sig)) = V (main_arg4 : DevRef τ sig)
    ∧ after (opsFinal (F := Ideal)) V (no_index (main_arg5 : DevRef τ sig)) = V (main_arg5 : DevRef τ sig)
    ∧ after (opsFinal (F := Ideal)) V (no_index (main_arg6 : DevRef τ sig)) = V (main_arg6 : DevRef τ sig)
    ∧ after (opsFinal (F := Ideal)) V (no_index (main_arg7 : DevRef τ sig)) = V (main_arg7 : DevRef τ sig)
    ∧ after (opsFinal (F := Ideal)) V (no_index (main_arg8 : DevRef τ sig)) = V (main_arg8 : DevRef τ sig)
    ∧ after (opsFinal (F := Ideal)) V (no_index (main_arg9 : DevRef τ sig)) = V (main_arg9 : DevRef τ sig)
    ∧ after (opsFinal (F := Ideal)) V (no_index (main_arg10 : DevRef τ sig)) = V (main_arg10 : DevRef τ sig)
    ∧ after (opsFinal (F := Ideal)) V (no_index (main_arg11 : DevRef τ sig)) = V (main_arg11 : DevRef τ sig)
    ∧ after (opsFinal (F := Ideal)) V (no_index (main_arg12 : DevRef τ sig)) = V (main_arg12 : DevRef τ sig) := opsFinal_args V

/-! ## The whole line read back -/

/-- The result buffer after the whole line: the reference's function of the argument buffers' contents. -/
theorem out_eq (V : Valuation τ sig (Elt Ideal)) :
    after (ops (F := Ideal)) V (main_v87 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  simp only [ops, ops0, ops1, after_append, h1_read', bn1_read', clip1_read', convA_read', slice_read', bn2_read', clip2_read', h3_read', bn3_read', final_read', opsH1_args', opsBn1_args', opsClip1_args', opsConvA_args', opsSlice_args', opsBn2_args', opsClip2_args', opsH3_args', opsBn3_args', opsFinal_args']
  rfl

/-- The argument buffers after the whole line: as they were. -/
theorem args_eq (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig)
    ∧ after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig)
    ∧ after (ops (F := Ideal)) V (main_arg10 : DevRef τ sig) = V (main_arg10 : DevRef τ sig)
    ∧ after (ops (F := Ideal)) V (main_arg11 : DevRef τ sig) = V (main_arg11 : DevRef τ sig)
    ∧ after (ops (F := Ideal)) V (main_arg12 : DevRef τ sig) = V (main_arg12 : DevRef τ sig) := by
  simp only [ops, ops0, ops1, after_append, opsH1_args', opsBn1_args', opsClip1_args', opsConvA_args', opsSlice_args', opsBn2_args', opsClip2_args', opsH3_args', opsBn3_args', opsFinal_args', and_self]

/-! ## The run -/

/-- On the device, at the extended reals, from any memory with zero counters: every weakly fair execution of the
    reference terminates with the result buffer at `refOut` of the arguments' launch contents and the arguments
    unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread nD τ).loc main_v87) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono
    (fun _ h c => ⟨(h c main_v87).trans (out_eq _),
      (h c main_arg0).trans (args_eq _).1,
      (h c main_arg1).trans (args_eq _).2.1,
      (h c main_arg2).trans (args_eq _).2.2.1,
      (h c main_arg3).trans (args_eq _).2.2.2.1,
      (h c main_arg4).trans (args_eq _).2.2.2.2.1,
      (h c main_arg5).trans (args_eq _).2.2.2.2.2.1,
      (h c main_arg6).trans (args_eq _).2.2.2.2.2.2.1,
      (h c main_arg7).trans (args_eq _).2.2.2.2.2.2.2.1,
      (h c main_arg8).trans (args_eq _).2.2.2.2.2.2.2.2.1,
      (h c main_arg9).trans (args_eq _).2.2.2.2.2.2.2.2.2.1,
      (h c main_arg10).trans (args_eq _).2.2.2.2.2.2.2.2.2.2.1,
      (h c main_arg11).trans (args_eq _).2.2.2.2.2.2.2.2.2.2.2.1,
      (h c main_arg12).trans (args_eq _).2.2.2.2.2.2.2.2.2.2.2.2⟩)
    (run_seq scopedRefs_eq scopedSems_eq defs main (fun _ => ops) main_eq (fun _ => ops_sub) m ρ (fun _ => ops_fresh))

end Cert.ReferenceIdeal.RefRun

end
-- ==== Proof.LibBatchNorm.lean ====
/-
  Batch normalisation over the extended reals: the one-pass form
  (mean = S/n, var = SS/n - mean*mean, y = h*scale + shift) agrees with the two-pass form
  (y = (h - mean) * rsqrt(var' + eps) * g + b, var' the mean of squared deviations) whenever
  every entry, the gain and the bias are real numbers.  Also: clipping to a real interval
  always yields a real number, and a few float32 bit patterns decoded.
-/
import Idealize.ShloMosaic.PureOps.Ideal

noncomputable section

namespace Cert.LibBatchNorm

open Idealize.ShloMosaic

/-- An extended real is *real* when it is the image of a real number (neither infinity). -/
def IsReal (x : EReal) : Prop := ∃ r : ℝ, x = (r : EReal)

/-- Every real number, seen as an extended real, is real. -/
theorem IsReal.coe (r : ℝ) : IsReal (r : EReal) := ⟨r, rfl⟩

/-- Zero is real. -/
theorem IsReal.zero : IsReal 0 := ⟨0, rfl⟩

/-- The sum of two real extended reals is real. -/
theorem IsReal.add {x y : EReal} : IsReal x → IsReal y → IsReal (x + y) := by
  rintro ⟨a, rfl⟩ ⟨b, rfl⟩; exact ⟨a + b, (EReal.coe_add a b).symm⟩

/-- The difference of two real extended reals is real. -/
theorem IsReal.sub {x y : EReal} : IsReal x → IsReal y → IsReal (x - y) := by
  rintro ⟨a, rfl⟩ ⟨b, rfl⟩; exact ⟨a - b, (EReal.coe_sub a b).symm⟩

/-- The product of two real extended reals is real. -/
theorem IsReal.mul {x y : EReal} : IsReal x → IsReal y → IsReal (x * y) := by
  rintro ⟨a, rfl⟩ ⟨b, rfl⟩; exact ⟨a * b, (EReal.coe_mul a b).symm⟩

/-- The coercion of reals into extended reals commutes with finite sums. -/
theorem coe_sum {ι : Type*} (s : Finset ι) (f : ι → ℝ) :
    (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

/-- A finite sum of real extended reals is real. -/
theorem IsReal.sum {ι : Type*} (s : Finset ι) (f : ι → EReal) (hf : ∀ j ∈ s, IsReal (f j)) :
    IsReal (∑ j ∈ s, f j) := by
  classical
  induction s using Finset.induction_on with
  | empty => simpa using IsReal.zero
  | insert a s ha ih =>
    rw [Finset.sum_insert ha]
    exact IsReal.add (hf a (Finset.mem_insert_self a s))
      (ih (fun j hj => hf j (Finset.mem_insert_of_mem hj)))

/-- Clipping ANY extended real to a real interval [lo, hi] (lo ≤ hi) gives a real number:
    the result lies between lo and hi, so it is neither infinity. -/
theorem isReal_clip (lo hi : ℝ) (hle : lo ≤ hi) (x : EReal) :
    IsReal (min (hi : EReal) (max (lo : EReal) x)) := by
  have hle' : (lo : EReal) ≤ (hi : EReal) := EReal.coe_le_coe_iff.mpr hle
  have h1 : min (hi : EReal) (max (lo : EReal) x) ≤ (hi : EReal) := min_le_left _ _
  have h2 : (lo : EReal) ≤ min (hi : EReal) (max (lo : EReal) x) := le_min hle' (le_max_left _ _)
  have ht : min (hi : EReal) (max (lo : EReal) x) ≠ ⊤ :=
    ne_of_lt (lt_of_le_of_lt h1 (EReal.coe_lt_top hi))
  have hb : min (hi : EReal) (max (lo : EReal) x) ≠ ⊥ :=
    ne_of_gt (lt_of_lt_of_le (EReal.bot_lt_coe lo) h2)
  exact ⟨_, (EReal.coe_toReal ht hb).symm⟩

/-- The two orders of clipping to [lo, hi] (lo ≤ hi) agree: max lo (min hi x) = min hi (max lo x). -/
theorem clip_comm (lo hi : ℝ) (hle : lo ≤ hi) (x : EReal) :
    max (lo : EReal) (min (hi : EReal) x) = min (hi : EReal) (max (lo : EReal) x) := by
  have hle' : (lo : EReal) ≤ (hi : EReal) := EReal.coe_le_coe_iff.mpr hle
  rw [max_min_distrib_left, max_eq_right hle']

/-- The reciprocal square root of a positive real, as an extended real. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- In the reals: with m = S/n (n the number of terms), the mean of squared deviations from m
    equals the mean of squares minus m squared. -/
theorem var_real {ι : Type*} [Fintype ι] (r : ι → ℝ) (n : ℝ) (hn : (Fintype.card ι : ℝ) = n)
    (hpos : 0 < n) :
    (∑ j, (r j - (∑ j, r j) * (1 / n)) * (r j - (∑ j, r j) * (1 / n))) * (1 / n)
      = (∑ j, r j * r j) * (1 / n) - (∑ j, r j) * (1 / n) * ((∑ j, r j) * (1 / n)) := by
  set S : ℝ := ∑ j, r j with hS
  set m : ℝ := S * (1 / n) with hm
  have hexp : ∀ j, (r j - m) * (r j - m) = r j * r j - 2 * m * r j + m * m := fun j => by ring
  have hsum : (∑ j, (r j - m) * (r j - m)) = (∑ j, r j * r j) - 2 * m * S + n * (m * m) := by
    simp only [hexp]
    rw [Finset.sum_add_distrib, Finset.sum_sub_distrib, ← Finset.mul_sum, Finset.sum_const,
      Finset.card_univ, nsmul_eq_mul, hn]
  rw [hsum, hm]
  have hn0 : n ≠ 0 := hpos.ne'
  field_simp
  ring

/-- Batch normalisation: one-pass form equals two-pass form on real data.
    With mean = S/n and var = SS/n - mean*mean, the value
    h i * (g * rsqrt(var+ε)) + (b - mean * (g * rsqrt(var+ε)))
    equals (h i - mean) * rsqrt(var'+ε) * g + b where var' is the mean of the squared deviations;
    all entries h j, the gain g and the bias b real, n = the number of terms > 0, ε > 0. -/
theorem bn_agree {ι : Type*} [Fintype ι] (h : ι → EReal) (hh : ∀ j, IsReal (h j)) (g b : EReal)
    (hg : IsReal g) (hb : IsReal b)
    (n ε : ℝ) (hn : (Fintype.card ι : ℝ) = n) (hpos : 0 < n) (hε : 0 < ε) (i : ι) :
    h i * (g * Ideal.rsqrt (Ideal.div (∑ j, h j * h j) (n : EReal) - Ideal.div (∑ j, h j) (n : EReal) * Ideal.div (∑ j, h j) (n : EReal) + (ε : EReal)))
      + (b - Ideal.div (∑ j, h j) (n : EReal) * (g * Ideal.rsqrt (Ideal.div (∑ j, h j * h j) (n : EReal) - Ideal.div (∑ j, h j) (n : EReal) * Ideal.div (∑ j, h j) (n : EReal) + (ε : EReal))))
    = (h i - Ideal.div (∑ j, h j) (n : EReal)) * Ideal.rsqrt (Ideal.div (∑ j, (h j - Ideal.div (∑ j, h j) (n : EReal)) * (h j - Ideal.div (∑ j, h j) (n : EReal))) (n : EReal) + (ε : EReal)) * g + b := by
  choose r hr using hh
  obtain ⟨gr, rfl⟩ := hg
  obtain ⟨br, rfl⟩ := hb
  have hfun : h = fun j => (r j : EReal) := funext hr
  subst hfun
  have hn0 : n ≠ 0 := hpos.ne'
  -- the mean
  have hmean : Ideal.div (∑ j, (r j : EReal)) (n : EReal) = (((∑ j, r j) * (1 / n) : ℝ) : EReal) := by
    rw [Ideal.div_coe hn0, coe_sum, ← EReal.coe_mul]
  rw [hmean]
  -- the mean of squares
  have hsq : Ideal.div (∑ j, (r j : EReal) * (r j : EReal)) (n : EReal)
      = (((∑ j, r j * r j) * (1 / n) : ℝ) : EReal) := by
    rw [Ideal.div_coe hn0]
    simp only [← EReal.coe_mul]
    rw [coe_sum, ← EReal.coe_mul]
  rw [hsq]
  -- the mean of squared deviations
  have hdev : Ideal.div (∑ j, ((r j : EReal) - (((∑ j, r j) * (1 / n) : ℝ) : EReal))
        * ((r j : EReal) - (((∑ j, r j) * (1 / n) : ℝ) : EReal))) (n : EReal)
      = (((∑ j, (r j - (∑ j, r j) * (1 / n)) * (r j - (∑ j, r j) * (1 / n))) * (1 / n) : ℝ) : EReal) := by
    rw [Ideal.div_coe hn0]
    simp only [← EReal.coe_sub, ← EReal.coe_mul]
    rw [coe_sum, ← EReal.coe_mul]
  rw [hdev, var_real r n hn hpos]
  set v : ℝ := (∑ j, r j * r j) * (1 / n) - (∑ j, r j) * (1 / n) * ((∑ j, r j) * (1 / n)) with hv
  have hv0 : 0 ≤ v := by
    rw [hv, ← var_real r n hn hpos]
    apply mul_nonneg
    · exact Finset.sum_nonneg (fun j _ => mul_self_nonneg _)
    · exact (one_div_pos.mpr hpos).le
  have hvε : 0 < v + ε := by linarith
  have e1 : (((∑ j, r j * r j) * (1 / n) : ℝ) : EReal)
      - (((∑ j, r j) * (1 / n) : ℝ) : EReal) * (((∑ j, r j) * (1 / n) : ℝ) : EReal) + (ε : EReal)
      = ((v + ε : ℝ) : EReal) := by
    rw [← EReal.coe_mul, ← EReal.coe_sub, ← EReal.coe_add]
  rw [e1, ← EReal.coe_add, rsqrt_coe_pos hvε]
  simp only [← EReal.coe_sub, ← EReal.coe_mul, ← EReal.coe_add]
  congr 1
  ring

/-- The float32 pattern 0x47C35000 denotes 100000. -/
theorem ofBits_n : Ideal.ofBits .f32 0x47C35000#32 = ((100000 : ℝ) : EReal) := by
  simp [Ideal.ofBits, Ideal.ieee, -EReal.coe_mul]; norm_num

/-- The float32 pattern 0x3727C5AC denotes a positive real number (about 1e-5). -/
theorem ofBits_eps : ∃ ε : ℝ, 0 < ε ∧ Ideal.ofBits .f32 0x3727C5AC#32 = (ε : EReal) := by
  refine ⟨(10995116 : ℝ) * (2 : ℝ) ^ (-40 : Int), by positivity, ?_⟩
  simp [Ideal.ofBits, Ideal.ieee, -EReal.coe_mul]

/-- The float32 pattern 0x40C00000 denotes 6. -/
theorem ofBits_six : Ideal.ofBits .f32 0x40C00000#32 = ((6 : ℝ) : EReal) := by
  simp [Ideal.ofBits, Ideal.ieee, -EReal.coe_mul]; norm_num

/-- The float32 pattern 0x00000000 denotes 0. -/
theorem ofBits_zero : Ideal.ofBits .f32 0x00000000#32 = ((0 : ℝ) : EReal) := by
  simp [Ideal.ofBits, Ideal.ieee]

end Cert.LibBatchNorm
-- ==== Proof.RefRead.lean ====
/-
  The reference's stages read at one entry, in terms of the entrywise description of the block.

  Each whole-array stage function (the two matrix products, the two clips, the three batch normalisations with
  their column means and variances, the final sum) is read at an entry (n, c) and met with the corresponding
  function of curried matrices: a product is the finite sum over the contracted position, a column sum by the host
  is the finite sum over the 100000 rows (initial value zero), a per-column vector laid out as one row and repeated
  down the rows holds its entry c at (n, c), the variance's normaliser 100000 - 0 is 100000 and positive, so the
  selection takes the quotient.  The whole reference then reads as the reference's spelling of the block.
-/
import proofs.«119352_j15083925143721_1_alg».proof.Proof.RefStages
import proofs.«119352_j15083925143721_1_alg».proof.Proof.Spec
import proofs.«119352_j15083925143721_1_alg».proof.Proof.LibBatchNorm
import proofs.«119352_j15083925143721_1_alg».proof.Proof.LibPlainDot
import Idealize.ShloMosaic.Lib.ValueIdx
import Idealize.ShloMosaic.Lib.Pipeline.Value
import Idealize.ShloMosaic.PureOps.Ideal.Laws

noncomputable section

namespace Cert.RefRead

open Idealize.ShloMosaic Idealize.ShloMosaic.ValueIdx Cert.LibBatchNorm
open Cert.ReferenceIdeal Cert.ReferenceIdeal.RefRun

/-- A matrix as a function of a row and a column. -/
abbrev cur {R C : ℕ} (A : FVec Ideal ⟨2, ![R, C]⟩ .f32) : Fin R → Fin C → EReal := fun n c => A (ix2 n c)
/-- A vector as a function of a position. -/
abbrev vec {C : ℕ} (g : FVec Ideal ⟨1, ![C]⟩ .f32) : Fin C → EReal := fun c => g (ix1 c)

/-- A matrix met again from its curried view. -/
theorem uncur {R C : ℕ} (A : FVec Ideal ⟨2, ![R, C]⟩ .f32) : (fun j => cur A (j 0) (j 1)) = A :=
  funext fun j => congrArg A (eq_ix2 j).symm

/-! ## General readings (any extents) -/

/-- The broadcast of a rank-0 array is its one entry everywhere. -/
theorem bcast0_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A length-C vector laid out as one row and repeated down R rows holds its entry c at (n, c). -/
theorem bcast_row {α : Type} {R C : ℕ} (hC : C ≠ 1) (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (n : Fin R) (c : Fin C) :
    broadcastInDim ⟨2, ![R, C]⟩ ![0, 1] h2 (broadcastInDim ⟨2, ![1, C]⟩ ![1] h1 v) (ix2 n c) = v (ix1 c) := by
  rw [broadcastInDim_apply _ h2 _ (ix2 n c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])]
  rw [broadcastInDim_apply _ h1 v (ix2 (0 : Fin 1) c) (ix1 c) (fun a => by
    match a with
    | ⟨0, _⟩ => show c.val = if C = 1 then 0 else c.val; rw [if_neg hC])]

/-- A one-row array repeated down R rows holds the row's entry c at (n, c). -/
theorem bcast_rows {α : Type} {R C : ℕ} (hC : C ≠ 1) (v : (⟨2, ![1, C]⟩ : Shape).Idx → α)
    (h2 : (⟨2, ![1, C]⟩ : Shape).BroadcastsInDim ⟨2, ![R, C]⟩ ![0, 1]) (n : Fin R) (c : Fin C) :
    broadcastInDim ⟨2, ![R, C]⟩ ![0, 1] h2 v (ix2 n c) = v (ix2 (0 : Fin 1) c) :=
  broadcastInDim_apply _ h2 _ (ix2 n c) (ix2 (0 : Fin 1) c) (fun a => by
    match a with
    | ⟨0, _⟩ => show (0 : ℕ) = if (1 : ℕ) = 1 then 0 else _; rw [if_pos rfl]
    | ⟨1, _⟩ => show c.val = if C = 1 then 0 else c.val; rw [if_neg hC])

/-- A length-C vector laid out as one row holds its entry c at (0, c). -/
theorem bcast_one_row {α : Type} {C : ℕ} (hC : C ≠ 1) (v : (⟨1, ![C]⟩ : Shape).Idx → α)
    (h1 : (⟨1, ![C]⟩ : Shape).BroadcastsInDim ⟨2, ![1, C]⟩ ![1]) (c : Fin C) :
    broadcastInDim ⟨2, ![1, C]⟩ ![1] h1 v (ix2 (0 : Fin 1) c) = v (ix1 c) :=
  broadcastInDim_apply _ h1 v (ix2 (0 : Fin 1) c) (ix1 c) (fun a => by
    match a with
    | ⟨0, _⟩ => show c.val = if C = 1 then 0 else c.val; rw [if_neg hC])

/-- The host's sum down the rows of an [R, C] array from the initial value zero, read at column l. -/
theorem host_column_sum {R C : ℕ} {u : Shape} (v : FVec Ideal ⟨2, ![R, C]⟩ .f32)
    (h' : (⟨2, ![R, C]⟩ : Shape).ReducesTo [0] ⟨1, ![C]⟩) (hu : 0 < u.numel)
    (h : (⟨2, ![R, C]⟩ : Shape).Reduces [0] ⟨1, ![C]⟩) (l : Fin C) :
    Host.reduceAdd v (constant (F := Ideal) u .f32 0x00000000#32) h' hu (ix1 l) = ∑ k : Fin R, v (ix2 k l) := by
  unfold Host.reduceAdd
  rw [Ideal.hostReduceAdd_def, Ideal.hostReduceAdd_single h' h v _ (ix1 l)]
  show Ideal.ofBits .f32 0x00000000#32 + _ = _
  rw [Ideal.ofBits_zero_f32, zero_add]
  exact Finset.sum_congr rfl fun k _ => congrArg v (funext fun c => Fin.ext (by
    match c with
    | ⟨0, _⟩ => rfl
    | ⟨1, _⟩ => rfl))

end Cert.RefRead

namespace Cert.RefRead

open Idealize.ShloMosaic Idealize.ShloMosaic.ValueIdx Cert.LibBatchNorm
open Cert.ReferenceIdeal Cert.ReferenceIdeal.RefRun

/-! ## Entrywise operations read at an entry -/

variable {s : Shape}

theorem addf_apply (x y : FVec Ideal s .f32) (i : s.Idx) : addf x y i = x i + y i := rfl
theorem subf_apply (x y : FVec Ideal s .f32) (i : s.Idx) : subf x y i = x i - y i := rfl
theorem mulf_apply (x y : FVec Ideal s .f32) (i : s.Idx) : mulf x y i = x i * y i := rfl
theorem divf_apply (x y : FVec Ideal s .f32) (i : s.Idx) : Host.divf x y i = Ideal.div (x i) (y i) := rfl
theorem rsqrt_apply (x : FVec Ideal s .f32) (i : s.Idx) : Host.rsqrt x i = Ideal.rsqrt (x i) := rfl
theorem select_apply (p : IVec s 1) (a b : FVec Ideal s .f32) (i : s.Idx) :
    select p a b i = if p i = 1 then a i else b i := rfl
theorem const_apply (b : BitVec 32) (i : s.Idx) : constant (F := Ideal) s .f32 b i = Ideal.ofBits .f32 b := rfl

/-! ## The stages read at an entry -/

/-- The first product at (n, c). -/
theorem h1_apply (a : FVec Ideal S100000x24 .f32) (w : FVec Ideal S24x144 .f32) (n : Fin 100000) (c : Fin 144) :
    h1 a w (ix2 n c) = Cert.Spec.mm (cur a) (cur w) n c := by
  unfold h1 Cert.Spec.mm
  exact Cert.PlainDot.dotGeneral_apply ⟨rfl, rfl, rfl, rfl, rfl, rfl⟩ none a w n c

/-- The second product at (n, c). -/
theorem h3_apply (x : FVec Ideal S100000x144 .f32) (w : FVec Ideal S144x24 .f32) (n : Fin 100000) (c : Fin 24) :
    h3 x w (ix2 n c) = Cert.Spec.mm (cur x) (cur w) n c := by
  unfold h3 Cert.Spec.mm
  exact Cert.PlainDot.dotGeneral_apply ⟨rfl, rfl, rfl, rfl, rfl, rfl⟩ none x w n c

/-- The clip at an entry. -/
theorem clip144_apply (x : FVec Ideal S100000x144 .f32) (i : S100000x144.Idx) :
    clip144 x i = Cert.Spec.clip (x i) := rfl

/-- The variance's normaliser is the row count. -/
theorem nrm_apply (i : S_.Idx) : nrm i = Cert.Spec.Nw := by
  show Ideal.ofBits .f32 0x47C35000#32 - (((0#32 : BitVec 32).toInt : ℝ) : EReal) = _
  simp

/-- The normaliser is positive: the test selecting the quotient answers 1. -/
theorem nrm_pos (i : S_.Idx) : cmpf .ogt nrm (constant (F := Ideal) S_ .f32 0x00000000#32) i = 1 := by
  show Ideal.cmp .ogt (nrm i) (Ideal.ofBits .f32 0x00000000#32) = 1#1
  rw [nrm_apply, Ideal.ofBits_zero_f32]
  show Ideal.cmp .ogt (Ideal.ofBits .f32 0x47C35000#32) 0 = 1#1
  rw [ofBits_n]
  unfold Ideal.cmp
  have : (0 : EReal) < ((100000 : ℝ) : EReal) := by exact_mod_cast (by norm_num : (0 : ℝ) < 100000)
  simp [this]

/-- A column mean of the [100000,144] stage. -/
theorem mean144_apply (h : FVec Ideal S100000x144 .f32) (c : Fin 144) :
    mean144 h (ix1 c) = Ideal.div (Cert.Spec.colSum (cur h) c) Cert.Spec.Nw := by
  unfold mean144 Cert.Spec.colSum
  rw [divf_apply, host_column_sum h _ _ (by decide) c, bcast0_apply, const_apply]

/-- A centred entry of the [100000,144] stage. -/
theorem centred144_apply (h : FVec Ideal S100000x144 .f32) (n : Fin 100000) (c : Fin 144) :
    centred144 h (ix2 n c) = h (ix2 n c) - Ideal.div (Cert.Spec.colSum (cur h) c) Cert.Spec.Nw := by
  unfold centred144 Cert.Spec.colSum
  rw [subf_apply, bcast_rows (by decide) _ _ n c, divf_apply, bcast_one_row (by decide) _ _ c,
    host_column_sum h _ _ (by decide) c, bcast0_apply, const_apply]

/-- A column variance of the [100000,144] stage. -/
theorem var144_apply (h : FVec Ideal S100000x144 .f32) (c : Fin 144) :
    var144 h (ix1 c) = Ideal.div (∑ j : Fin 100000,
        (cur h j c - Ideal.div (Cert.Spec.colSum (cur h) c) Cert.Spec.Nw)
          * (cur h j c - Ideal.div (Cert.Spec.colSum (cur h) c) Cert.Spec.Nw)) Cert.Spec.Nw := by
  unfold var144
  rw [select_apply, bcast0_apply, nrm_pos, if_pos rfl, divf_apply, bcast0_apply, nrm_apply,
    host_column_sum _ _ _ (by decide) c]
  refine congrArg (fun S => Ideal.div S Cert.Spec.Nw) ?_
  exact Finset.sum_congr rfl fun k _ => by rw [mulf_apply, centred144_apply]

/-- The [100000,144] normalisation at (n, c) is the reference's spelling over the curried views. -/
theorem bn144_apply (h : FVec Ideal S100000x144 .f32) (g b : FVec Ideal S144 .f32) (n : Fin 100000) (c : Fin 144) :
    bn144 h g b (ix2 n c) = Cert.Spec.bnR (cur h) (vec g) (vec b) n c := by
  unfold bn144 Cert.Spec.bnR
  rw [addf_apply, mulf_apply, mulf_apply, subf_apply,
    bcast_row (by decide) (mean144 h) _ _ n c, bcast_row (by decide) (Host.rsqrt _) _ _ n c,
    bcast_row (by decide) g _ _ n c, bcast_row (by decide) b _ _ n c,
    rsqrt_apply, addf_apply, bcast0_apply, const_apply, mean144_apply, var144_apply]

end Cert.RefRead

namespace Cert.RefRead

open Idealize.ShloMosaic Idealize.ShloMosaic.ValueIdx Cert.LibBatchNorm
open Cert.ReferenceIdeal Cert.ReferenceIdeal.RefRun

/-! ## The [100000,24] stage -/

/-- A column mean of the [100000,24] stage. -/
theorem mean24_apply (h : FVec Ideal S100000x24 .f32) (c : Fin 24) :
    mean24 h (ix1 c) = Ideal.div (Cert.Spec.colSum (cur h) c) Cert.Spec.Nw := by
  unfold mean24 Cert.Spec.colSum
  rw [divf_apply, host_column_sum h _ _ (by decide) c, bcast0_apply, const_apply]

/-- A centred entry of the [100000,24] stage. -/
theorem centred24_apply (h : FVec Ideal S100000x24 .f32) (n : Fin 100000) (c : Fin 24) :
    centred24 h (ix2 n c) = h (ix2 n c) - Ideal.div (Cert.Spec.colSum (cur h) c) Cert.Spec.Nw := by
  unfold centred24 Cert.Spec.colSum
  rw [subf_apply, bcast_rows (by decide) _ _ n c, divf_apply, bcast_one_row (by decide) _ _ c,
    host_column_sum h _ _ (by decide) c, bcast0_apply, const_apply]

/-- A column variance of the [100000,24] stage. -/
theorem var24_apply (h : FVec Ideal S100000x24 .f32) (c : Fin 24) :
    var24 h (ix1 c) = Ideal.div (∑ j : Fin 100000,
        (cur h j c - Ideal.div (Cert.Spec.colSum (cur h) c) Cert.Spec.Nw)
          * (cur h j c - Ideal.div (Cert.Spec.colSum (cur h) c) Cert.Spec.Nw)) Cert.Spec.Nw := by
  unfold var24
  rw [select_apply, bcast0_apply, nrm_pos, if_pos rfl, divf_apply, bcast0_apply, nrm_apply,
    host_column_sum _ _ _ (by decide) c]
  refine congrArg (fun S => Ideal.div S Cert.Spec.Nw) ?_
  exact Finset.sum_congr rfl fun k _ => by rw [mulf_apply, centred24_apply]

/-- The [100000,24] normalisation at (n, c) is the reference's spelling over the curried views. -/
theorem bn24_apply (h : FVec Ideal S100000x24 .f32) (g b : FVec Ideal S24 .f32) (n : Fin 100000) (c : Fin 24) :
    bn24 h g b (ix2 n c) = Cert.Spec.bnR (cur h) (vec g) (vec b) n c := by
  unfold bn24 Cert.Spec.bnR
  rw [addf_apply, mulf_apply, mulf_apply, subf_apply,
    bcast_row (by decide) (mean24 h) _ _ n c, bcast_row (by decide) (Host.rsqrt _) _ _ n c,
    bcast_row (by decide) g _ _ n c, bcast_row (by decide) b _ _ n c,
    rsqrt_apply, addf_apply, bcast0_apply, const_apply, mean24_apply, var24_apply]

/-! ## The whole reference -/

/-- The gather-multiply-scatter as a map of curried matrices. -/
abbrev convS (a4 : FVec Ideal S9x144 .f32) (a10 a11 a12 : IVec S900000 32)
    (x : Fin 100000 → Fin 144 → EReal) (n : Fin 100000) (c : Fin 144) : EReal :=
  conv (fun j => x (j 0) (j 1)) a4 a10 a11 a12 (ix2 n c)

/-- The whole reference at (n, c) is the reference's spelling of the block over the curried views of its
    arguments, the gather-multiply-scatter carried as a function. -/
theorem refOut_apply (a0 : FVec Ideal S100000x24 .f32) (a1 : FVec Ideal S24x144 .f32) (a2 a3 : FVec Ideal S144 .f32)
    (a4 : FVec Ideal S9x144 .f32) (a5 a6 : FVec Ideal S144 .f32) (a7 : FVec Ideal S144x24 .f32)
    (a8 a9 : FVec Ideal S24 .f32) (a10 a11 a12 : IVec S900000 32) (n : Fin 100000) (c : Fin 24) :
    refOut a0 a1 a2 a3 a4 a5 a6 a7 a8 a9 a10 a11 a12 (ix2 n c)
      = Cert.Spec.outR (cur a0) (cur a1) (vec a2) (vec a3)
          (fun x n c => conv (fun j => x (j 0) (j 1)) a4 a10 a11 a12 (ix2 n c))
          (vec a5) (vec a6) (cur a7) (vec a8) (vec a9) n c := by
  have e1 : cur (h1 a0 a1) = Cert.Spec.mm (cur a0) (cur a1) :=
    funext fun p => funext fun q => h1_apply a0 a1 p q
  have eZ : cur (clip144 (bn144 (h1 a0 a1) a2 a3))
      = fun p q => Cert.Spec.clip (Cert.Spec.bnR (Cert.Spec.mm (cur a0) (cur a1)) (vec a2) (vec a3) p q) :=
    funext fun p => funext fun q => by
      show clip144 (bn144 (h1 a0 a1) a2 a3) (ix2 p q) = _
      rw [clip144_apply, bn144_apply, e1]
  have eY : cur (conv (clip144 (bn144 (h1 a0 a1) a2 a3)) a4 a10 a11 a12)
      = convS a4 a10 a11 a12 (cur (clip144 (bn144 (h1 a0 a1) a2 a3))) :=
    funext fun p => funext fun q =>
      congrArg (fun A => conv A a4 a10 a11 a12 (ix2 p q))
        (uncur (R := 100000) (C := 144) (clip144 (bn144 (h1 a0 a1) a2 a3))).symm
  have eX : cur (clip144 (bn144 (conv (clip144 (bn144 (h1 a0 a1) a2 a3)) a4 a10 a11 a12) a5 a6))
      = fun p q => Cert.Spec.clip (Cert.Spec.bnR
          (convS a4 a10 a11 a12 fun p q => Cert.Spec.clip
            (Cert.Spec.bnR (Cert.Spec.mm (cur a0) (cur a1)) (vec a2) (vec a3) p q)) (vec a5) (vec a6) p q) :=
    funext fun p => funext fun q => by
      show clip144 (bn144 (conv (clip144 (bn144 (h1 a0 a1) a2 a3)) a4 a10 a11 a12) a5 a6) (ix2 p q) = _
      rw [clip144_apply, bn144_apply, eY, eZ]
  have eH : cur (h3 (clip144 (bn144 (conv (clip144 (bn144 (h1 a0 a1) a2 a3)) a4 a10 a11 a12) a5 a6)) a7)
      = Cert.Spec.mm (fun p q => Cert.Spec.clip (Cert.Spec.bnR
          (convS a4 a10 a11 a12 fun p q => Cert.Spec.clip
            (Cert.Spec.bnR (Cert.Spec.mm (cur a0) (cur a1)) (vec a2) (vec a3) p q)) (vec a5) (vec a6) p q)) (cur a7) :=
    funext fun p => funext fun q => by
      show h3 _ a7 (ix2 p q) = _
      rw [h3_apply, eX]
  unfold refOut Cert.Spec.outR
  rw [addf_apply, bn24_apply, eH]

end Cert.RefRead
-- ==== Proof.Bridge.lean ====
/-
  The bridge between the two spellings of the block: the one-pass spelling of each of the three batch
  normalisations (h*scale + shift) equals the two-pass spelling ((h - mean) * rsqrt(var' + eps) * g + b) whenever
  the normalised matrix, the gain and the bias have real entries; clipping to [0, 6] always yields a real number,
  and a matrix product of matrices with real entries has real entries.  Hence the whole block agrees.
-/
import proofs.«119352_j15083925143721_1_alg».proof.Proof.Spec
import proofs.«119352_j15083925143721_1_alg».proof.Proof.LibBatchNorm

noncomputable section

namespace Cert.Bridge

open Idealize.ShloMosaic Cert.LibBatchNorm

/-- The row-count constant denotes 100000. -/
theorem Nw_eq : Cert.Spec.Nw = ((100000 : ℝ) : EReal) := ofBits_n

/-- The lower clipping bound denotes 0 and the upper one 6. -/
theorem lo_eq : Cert.Spec.lo = ((0 : ℝ) : EReal) := ofBits_zero
theorem hi_eq : Cert.Spec.hi = ((6 : ℝ) : EReal) := ofBits_six

/-- (a) One batch normalisation over 100000 rows: the one-pass spelling equals the two-pass spelling when every
    entry of the matrix, of the gain and of the bias is a real number. -/
theorem bn_eq {C : ℕ} (h : Fin 100000 → Fin C → EReal) (hh : ∀ n c, IsReal (h n c)) (g b : Fin C → EReal)
    (hg : ∀ c, IsReal (g c)) (hb : ∀ c, IsReal (b c)) : Cert.Spec.bnK h g b = Cert.Spec.bnR h g b := by
  funext n c
  obtain ⟨ε, hε, hE⟩ := ofBits_eps
  have hE' : Cert.Spec.Ew = (ε : EReal) := hE
  unfold Cert.Spec.bnK Cert.Spec.bnR Cert.Spec.shiftK Cert.Spec.scaleK Cert.Spec.colSum Cert.Spec.colSumSq
  rw [Nw_eq, hE']
  exact bn_agree (fun j => h j c) (fun j => hh j c) (g c) (b c) (hg c) (hb c) 100000 ε (by simp)
    (by norm_num) hε n

/-- (b) Clipping any extended real to [0, 6] gives a real number. -/
theorem isReal_clip' (x : EReal) : IsReal (Cert.Spec.clip x) := by
  unfold Cert.Spec.clip
  rw [hi_eq, lo_eq]
  exact isReal_clip 0 6 (by norm_num) x

/-- (b) A matrix product of two matrices with real entries has real entries. -/
theorem isReal_mm {M K N : ℕ} (a : Fin M → Fin K → EReal) (w : Fin K → Fin N → EReal)
    (ha : ∀ p q, IsReal (a p q)) (hw : ∀ q c, IsReal (w q c)) (p : Fin M) (c : Fin N) :
    IsReal (Cert.Spec.mm a w p c) := by
  unfold Cert.Spec.mm
  exact IsReal.sum _ _ (fun q _ => (ha p q).mul (hw q c))

/-- (c) The whole block: with real entries in every floating-point argument, and an intermediate map 'conv'
    that sends matrices with real entries to matrices with real entries, the block spelled with one-pass
    normalisations equals the block spelled with two-pass normalisations. -/
theorem out_eq (f : Fin 100000 → Fin 24 → EReal) (w1 : Fin 24 → Fin 144 → EReal) (g1 b1 : Fin 144 → EReal)
    (conv : (Fin 100000 → Fin 144 → EReal) → Fin 100000 → Fin 144 → EReal) (g2 b2 : Fin 144 → EReal)
    (w3 : Fin 144 → Fin 24 → EReal) (g3 b3 : Fin 24 → EReal)
    (hf : ∀ n c, IsReal (f n c)) (hw1 : ∀ q c, IsReal (w1 q c))
    (hg1 : ∀ c, IsReal (g1 c)) (hb1 : ∀ c, IsReal (b1 c))
    (hg2 : ∀ c, IsReal (g2 c)) (hb2 : ∀ c, IsReal (b2 c))
    (hw3 : ∀ q c, IsReal (w3 q c)) (hg3 : ∀ c, IsReal (g3 c)) (hb3 : ∀ c, IsReal (b3 c))
    (hconv : ∀ x : Fin 100000 → Fin 144 → EReal, (∀ n c, IsReal (x n c)) → ∀ n c, IsReal (conv x n c)) :
    Cert.Spec.outK f w1 g1 b1 conv g2 b2 w3 g3 b3 = Cert.Spec.outR f w1 g1 b1 conv g2 b2 w3 g3 b3 := by
  funext n c
  unfold Cert.Spec.outK Cert.Spec.outR
  have e1 : Cert.Spec.bnK (Cert.Spec.mm f w1) g1 b1 = Cert.Spec.bnR (Cert.Spec.mm f w1) g1 b1 :=
    bn_eq _ (isReal_mm f w1 hf hw1) g1 b1 hg1 hb1
  rw [e1]
  have e2 : Cert.Spec.bnK (conv fun n c => Cert.Spec.clip (Cert.Spec.bnR (Cert.Spec.mm f w1) g1 b1 n c)) g2 b2
      = Cert.Spec.bnR (conv fun n c => Cert.Spec.clip (Cert.Spec.bnR (Cert.Spec.mm f w1) g1 b1 n c)) g2 b2 :=
    bn_eq _ (hconv _ (fun n c => isReal_clip' _)) g2 b2 hg2 hb2
  rw [e2]
  have e3 : Cert.Spec.bnK (Cert.Spec.mm (fun n c => Cert.Spec.clip (Cert.Spec.bnR
        (conv fun n c => Cert.Spec.clip (Cert.Spec.bnR (Cert.Spec.mm f w1) g1 b1 n c)) g2 b2 n c)) w3) g3 b3
      = Cert.Spec.bnR (Cert.Spec.mm (fun n c => Cert.Spec.clip (Cert.Spec.bnR
        (conv fun n c => Cert.Spec.clip (Cert.Spec.bnR (Cert.Spec.mm f w1) g1 b1 n c)) g2 b2 n c)) w3) g3 b3 :=
    bn_eq _ (isReal_mm _ w3 (fun n c => isReal_clip' _) hw3) g3 b3 hg3 hb3
  rw [e3]

end Cert.Bridge
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.PreReal.lean ====
/-
  The precondition decoded: if the conjunction of the ten tests "every entry has absolute value below plus
  infinity" (one per floating-point argument array, each reduced by "and", the ten results combined by "and")
  answers 1, then every entry of each of the ten arrays is a real number.
-/
import proofs.«119352_j15083925143721_1_alg».proof.Pre_finite_inputs
import proofs.«119352_j15083925143721_1_alg».proof.Proof.LibBatchNorm
import proofs.«119352_j15083925143721_1_alg».proof.Proof.LibFiniteAll
import Idealize.ShloMosaic.Lib.ValueIdx
import Idealize.ShloMosaic.Lib.ReduceAll

noncomputable section

namespace Cert.PreReal

open Idealize.ShloMosaic Cert.Pre_finite_inputs Cert.LibBatchNorm

/-- The shape of rank 0 has exactly one index. -/
instance : Subsingleton S_.Idx := ⟨fun a b => funext fun d => d.elim0⟩

/-- An entrywise "and" of two arrays of truth values that is 1 at an index has both operands 1 there. -/
theorem andi_at {s : Shape} (x y : IVec s 1) (j : s.Idx) (h : andi x y j = 1#1) : x j = 1#1 ∧ y j = 1#1 :=
  IntOp.andi_eq_one.1 h

variable [Facts]

/-- If the finiteness test of the thirteen argument arrays answers 1, every entry of each of the ten
    floating-point arrays is a real number. -/
theorem all_real
    (a0 : FVec Ideal S100000x24 .f32) (a1 : FVec Ideal S24x144 .f32) (a2 : FVec Ideal S144 .f32)
    (a3 : FVec Ideal S144 .f32) (a4 : FVec Ideal S9x144 .f32) (a5 : FVec Ideal S144 .f32)
    (a6 : FVec Ideal S144 .f32) (a7 : FVec Ideal S144x24 .f32) (a8 : FVec Ideal S24 .f32)
    (a9 : FVec Ideal S24 .f32) (a10 a11 a12 : IVec S900000 32)
    (h : fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) := by
  have h0 := congrFun h ValueIdx.ix0
  dsimp only [fn, fn_part1, fn_part2] at h0
  obtain ⟨h0, e9⟩ := andi_at _ _ _ h0
  obtain ⟨h0, e8⟩ := andi_at _ _ _ h0
  obtain ⟨h0, e7⟩ := andi_at _ _ _ h0
  obtain ⟨h0, e6⟩ := andi_at _ _ _ h0
  obtain ⟨h0, e5⟩ := andi_at _ _ _ h0
  obtain ⟨h0, e4⟩ := andi_at _ _ _ h0
  obtain ⟨h0, e3⟩ := andi_at _ _ _ h0
  obtain ⟨h0, e2⟩ := andi_at _ _ _ h0
  obtain ⟨e0, e1⟩ := andi_at _ _ _ h0
  exact ⟨fun i => Cert.FiniteAll.all_real_of_reduce_and a0 _ _ _ _ _ _ e0 i,
    fun i => Cert.FiniteAll.all_real_of_reduce_and a1 _ _ _ _ _ _ e1 i,
    fun i => Cert.FiniteAll.all_real_of_reduce_and a2 _ _ _ _ _ _ e2 i,
    fun i => Cert.FiniteAll.all_real_of_reduce_and a3 _ _ _ _ _ _ e3 i,
    fun i => Cert.FiniteAll.all_real_of_reduce_and a4 _ _ _ _ _ _ e4 i,
    fun i => Cert.FiniteAll.all_real_of_reduce_and a5 _ _ _ _ _ _ e5 i,
    fun i => Cert.FiniteAll.all_real_of_reduce_and a6 _ _ _ _ _ _ e6 i,
    fun i => Cert.FiniteAll.all_real_of_reduce_and a7 _ _ _ _ _ _ e7 i,
    fun i => Cert.FiniteAll.all_real_of_reduce_and a8 _ _ _ _ _ _ e8 i,
    fun i => Cert.FiniteAll.all_real_of_reduce_and a9 _ _ _ _ _ _ e9 i⟩

end Cert.PreReal
-- ==== Proof.ConvReal.lean ====
/-
  The sparse convolution keeps entries real.

  The stretch between the first and the second normalisation pads the [100000,144] array with one zero row,
  gathers 900000 rows of it and 900000 rows of a [9,144] weight table at index arrays, multiplies the gathered
  rows entry by entry, scatter-adds the products into a zero [100001,144] array at a third index array, and drops
  the last row.  Whatever the three index arrays are: a gathered entry is an entry of the table, a scatter-added
  entry is the operand's entry plus a finite sum of update entries, a concatenation's entry is an entry of one of
  its pieces, a slice's entry is an entry of its operand, and zero is real.  So if the array and the weight table
  have real entries, so has the result.
-/
import proofs.«119352_j15083925143721_1_alg».proof.KernelIdeal
import proofs.«119352_j15083925143721_1_alg».proof.Proof.LibBatchNorm
import Idealize.ShloMosaic.Lib.ValueIdx
import Idealize.ShloMosaic.Lib.Pipeline.Value

noncomputable section

namespace Cert.ConvReal

open Idealize.ShloMosaic Idealize.ShloMosaic.ValueIdx Cert.KernelIdeal Cert.LibBatchNorm
open Cert.KernelIdeal.Facts₀

/-- A gathered entry is an entry of the table (whatever the start indices), so a gather from a table with real
    entries has real entries.  Any shapes, any dimension numbers. -/
theorem gather_real {s si t : Shape} {w : Nat} (d : GatherDims s si t) (x : FVec Ideal s .f32) (idx : IVec si w)
    (hx : ∀ i, IsReal (x i)) (j : t.Idx) : IsReal (Host.gather d x idx j) :=
  hx _

/-- A scatter-added entry is the operand's entry plus a finite sum of update entries, so with real entries in the
    operand and in the updates the result has real entries.  Any shapes, any dimension numbers, any indices. -/
theorem scatterAdd_real_gen {s si u : Shape} {w : Nat} (d : ScatterDims s si u) (z : FVec Ideal s .f32)
    (idx : IVec si w) (upd : FVec Ideal u .f32) (hz : ∀ i, IsReal (z i)) (hu : ∀ i, IsReal (upd i)) (j : s.Idx) :
    IsReal (Host.scatterAdd d z idx upd j) := by
  unfold Host.scatterAdd
  rw [Ideal.hostScatterAdd_def]
  unfold Ideal.hostScatterAdd
  exact (hz j).add (IsReal.sum _ _ (fun k _ => hu k))

/-- The broadcast of the rank-0 zero constant has real entries (every entry is the number 0). -/
theorem bcast_zero_real {z t : Shape} (dims : Fin z.rank → Fin t.rank) (h : z.BroadcastsInDim t dims) (j : t.Idx) :
    IsReal (broadcastInDim t dims h (constant (F := Ideal) z .f32 0x00000000#32) j) := by
  show IsReal (Ideal.ofBits .f32 0x00000000#32)
  rw [ofBits_zero]
  exact IsReal.coe 0

/-- The entrywise product of two arrays with real entries has real entries. -/
theorem mulf_real {s : Shape} (x y : FVec Ideal s .f32) (hx : ∀ i, IsReal (x i)) (hy : ∀ i, IsReal (y i))
    (j : s.Idx) : IsReal (mulf x y j) :=
  (hx j).mul (hy j)

/-- A slice's entry is an entry of its operand. -/
theorem slice_real {s t : Shape} (off : Fin s.rank → Nat) (x : FVec Ideal s .f32) (h : s.Slices off t)
    (hx : ∀ i, IsReal (x i)) (j : t.Idx) : IsReal (extractStridedSlice t off x h j) :=
  hx _

variable [Cert.KernelIdeal.Facts₀]

/-- A gather of 900000 rows from a [100001,144] table with real entries has real entries. -/
theorem gather_real144 (t : FVec Ideal S100001x144 .f32) (idx : IVec S900000x1 32) (ht : ∀ i, IsReal (t i))
    (j : S900000x144.Idx) :
    IsReal (Host.gather gather_S100001x144_S900000x1_S900000x144_1_0_n_n_0_1_1144 t idx j) :=
  gather_real _ t idx ht j

/-- A gather of 900000 rows from a [9,144] table with real entries has real entries. -/
theorem gather_real9 (t : FVec Ideal S9x144 .f32) (idx : IVec S900000x1 32) (ht : ∀ i, IsReal (t i))
    (j : S900000x144.Idx) :
    IsReal (Host.gather gather_S9x144_S900000x1_S900000x144_1_0_n_n_0_1_1144 t idx j) :=
  gather_real _ t idx ht j

/-- A scatter-add of 900000 real-entried rows into a real-entried [100001,144] array has real entries. -/
theorem scatterAdd_real (z : FVec Ideal S100001x144 .f32) (idx : IVec S900000x1 32)
    (u : FVec Ideal S900000x144 .f32) (hz : ∀ i, IsReal (z i)) (hu : ∀ i, IsReal (u i)) (j : S100001x144.Idx) :
    IsReal (Host.scatterAdd scatter_S100001x144_S900000x1_S900000x144_1_0_0_1 z idx u j) :=
  scatterAdd_real_gen _ z idx u hz hu j

/-- The [100000,144] array with one more row appended: every entry is an entry of one of the two pieces. -/
theorem cat_real (a : FVec Ideal S100000x144 .f32) (b : FVec Ideal S1x144 .f32)
    (ha : ∀ i, IsReal (a i)) (hb : ∀ i, IsReal (b i)) (j : S100001x144.Idx) :
    IsReal (concatenate S100001x144 0 [⟨S100000x144, a⟩, ⟨S1x144, b⟩]
      concatenates_S100000x144_S1x144_S100001x144_d0 j) := by
  have h0 : (j 0).val < 100001 := (j 0).isLt
  have h1 : (j 1).val < 144 := (j 1).isLt
  by_cases hlt : (j 0).val < 100000
  · rw [concatenate_pair_apply_left (0 : Fin 2) a b concatenates_S100000x144_S1x144_S100001x144_d0 j rfl
      (ix2 (⟨(j 0).val, hlt⟩ : Fin 100000) (⟨(j 1).val, h1⟩ : Fin 144))
      (fun c => by match c with | ⟨0, _⟩ => rfl | ⟨1, _⟩ => rfl)]
    exact ha _
  · have hz : (j 0).val - 100000 < 1 := by omega
    rw [concatenate_pair_apply_right (0 : Fin 2) a b concatenates_S100000x144_S1x144_S100001x144_d0 j rfl rfl
      (ix2 (⟨(j 0).val - 100000, hz⟩ : Fin 1) (⟨(j 1).val, h1⟩ : Fin 144))
      (fun c hc => by
        have hc2 : c.val < 2 := c.isLt
        have hc0 : c.val ≠ 0 := fun h => hc (Fin.ext h)
        have hc1 : c = (1 : Fin 2) := Fin.ext (by show c.val = 1; omega)
        rw [hc1]; rfl)
      (by show (j 0).val - 100000 + 100000 = (j 0).val; omega)]
    exact hb _

/-- The sparse convolution as one term of whole-array operations: pad with a zero row, gather rows of the array
    at the (wrapped) input indices and rows of the weight table at the (wrapped) filter indices, multiply, scatter-add
    into zeros at the (wrapped) output indices, drop the last row. -/
def convTerm (x : FVec Ideal S100000x144 .f32) (w2 : FVec Ideal S9x144 .f32) (ii oi fi : IVec S900000 32) :
    FVec Ideal S100000x144 .f32 :=
  extractStridedSlice S100000x144 ![0, 0]
    (Host.scatterAdd scatter_S100001x144_S900000x1_S900000x144_1_0_0_1
      (broadcastInDim S100001x144 ![] bcast_S_S100001x144 (constant (F := Ideal) S_ .f32 0x00000000#32))
      (broadcastInDim S900000x1 ![0] bcast_S900000_S900000x1_0
        (select (cmpi .slt oi (broadcastInDim S900000 ![] bcast_S_S900000 (constantI S_ 32 0#32)))
          (addi oi (broadcastInDim S900000 ![] bcast_S_S900000 (constantI S_ 32 100001#32))) oi))
      (mulf
        (Host.gather gather_S100001x144_S900000x1_S900000x144_1_0_n_n_0_1_1144
          (concatenate S100001x144 0
            [⟨S100000x144, x⟩,
             ⟨S1x144, broadcastInDim S1x144 ![] bcast_S_S1x144 (constant (F := Ideal) S_ .f32 0x00000000#32)⟩]
            concatenates_S100000x144_S1x144_S100001x144_d0)
          (broadcastInDim S900000x1 ![0] bcast_S900000_S900000x1_0
            (select (cmpi .slt ii (broadcastInDim S900000 ![] bcast_S_S900000 (constantI S_ 32 0#32)))
              (addi ii (broadcastInDim S900000 ![] bcast_S_S900000 (constantI S_ 32 100001#32))) ii)))
        (Host.gather gather_S9x144_S900000x1_S900000x144_1_0_n_n_0_1_1144 w2
          (broadcastInDim S900000x1 ![0] bcast_S900000_S900000x1_0
            (select (cmpi .slt fi (broadcastInDim S900000 ![] bcast_S_S900000 (constantI S_ 32 0#32)))
              (addi fi (broadcastInDim S900000 ![] bcast_S_S900000 (constantI S_ 32 9#32))) fi)))))
    slices_S100001x144_S100000x144_0_0

/-- The sparse convolution of an array with real entries by a weight table with real entries has real entries,
    whatever the three index arrays are. -/
theorem conv_real (x : FVec Ideal S100000x144 .f32) (w2 : FVec Ideal S9x144 .f32) (ii oi fi : IVec S900000 32)
    (hx : ∀ i, IsReal (x i)) (hw : ∀ i, IsReal (w2 i)) (j : S100000x144.Idx) :
    IsReal (convTerm x w2 ii oi fi j) := by
  unfold convTerm
  refine slice_real _ _ _ (fun i => ?_) j
  refine scatterAdd_real _ _ _ (fun i => bcast_zero_real _ _ i) (fun i => ?_) i
  refine mulf_real _ _ (fun i => ?_) (fun i => ?_) i
  · exact gather_real144 _ _ (fun i => cat_real x _ hx (fun i => bcast_zero_real _ _ i) i) i
  · exact gather_real9 w2 _ hw i

end Cert.ConvReal
-- ==== Proof.ConvSame.lean ====
/-
  The sparse convolution is one function in three spellings.

  The stretch of whole-array operations between the second and third pipelined calls — pad with a zero row, gather rows
  at wrapped indices from the padded array and from the 9-row weight table, multiply entrywise, scatter-add into a zero
  table at wrapped indices, drop the last row — is written once through small named pieces, once as a single inline
  term, and once over the reference program's records. The three are the same term: the named pieces unfold to the
  inline term, and the two programs' records are the same literals.
-/
import proofs.«119352_j15083925143721_1_alg».proof.Proof.KHostDefs
import proofs.«119352_j15083925143721_1_alg».proof.Proof.ConvReal
import proofs.«119352_j15083925143721_1_alg».proof.Proof.RefStages

noncomputable section

namespace Cert.ConvSame

open Idealize.ShloMosaic Cert.LibBatchNorm

/-- The convolution through its named pieces is the inline term. -/
theorem convOf_eq_term (x : FVec Ideal Cert.KernelIdeal.S100000x144 .f32) (w2 : FVec Ideal Cert.KernelIdeal.S9x144 .f32)
    (ii oi fi : IVec Cert.KernelIdeal.S900000 32) :
    Cert.KernelIdeal.KHost.convOf x w2 ii oi fi = Cert.ConvReal.convTerm x w2 ii oi fi := by
  unfold Cert.KernelIdeal.KHost.convOf Cert.KernelIdeal.KHost.prodRows Cert.KernelIdeal.KHost.padRow
    Cert.KernelIdeal.KHost.wrapIdx Cert.ConvReal.convTerm
  rfl

/-- The convolution of an array with real entries by a weight table with real entries has real entries. -/
theorem convOf_real (x : FVec Ideal Cert.KernelIdeal.S100000x144 .f32) (w2 : FVec Ideal Cert.KernelIdeal.S9x144 .f32)
    (ii oi fi : IVec Cert.KernelIdeal.S900000 32) (hx : ∀ i, IsReal (x i)) (hw : ∀ i, IsReal (w2 i))
    (j : Cert.KernelIdeal.S100000x144.Idx) : IsReal (Cert.KernelIdeal.KHost.convOf x w2 ii oi fi j) := by
  rw [convOf_eq_term]
  exact Cert.ConvReal.conv_real x w2 ii oi fi hx hw j

set_option maxHeartbeats 400000 in
/-- The reference program's convolution is the kernel program's: the two programs' records are the same literals. -/
theorem conv_same (x : FVec Ideal Cert.KernelIdeal.S100000x144 .f32) (w2 : FVec Ideal Cert.KernelIdeal.S9x144 .f32)
    (ii oi fi : IVec Cert.KernelIdeal.S900000 32) :
    Cert.ReferenceIdeal.RefRun.conv x w2 ii oi fi = Cert.KernelIdeal.KHost.convOf x w2 ii oi fi := by
  rw [convOf_eq_term]
  unfold Cert.ReferenceIdeal.RefRun.conv Cert.ReferenceIdeal.RefRun.convPre Cert.ConvReal.convTerm
  rfl

end Cert.ConvSame

end
-- ==== Proof.lean ====
/-
  The certificate of a sparse inverted-residual block: 1×1 expansion, batch normalisation and ReLU6; a sparse 3×3
  channelwise convolution (gather, multiply, scatter-add), batch normalisation and ReLU6; 1×1 projection, batch
  normalisation; residual add — a kernel of five pipelined calls against its plain reference, over the extended reals.

  The kernel computes each batch normalisation of a column h as h·scale + shift, scale = g·rsqrt(SS/n − (S/n)² + ε),
  shift = b − (S/n)·scale, from the column's sum S and sum of squares SS accumulated over twenty 5000-row tiles; the
  reference computes (h − S/n)·rsqrt(Σ(h − S/n)²/n + ε)·g + b.  The two agree where every entry is a real number: the
  variance identity and the distributive law hold in ℝ and fail at ±∞, so the precondition (every float argument
  finite) is used, and carried through the three stages — a product of real matrices is real, a clipped value is
  real, and the sparse convolution of a real array by a real weight table is real (a gathered entry is an entry of
  the table; a scattered sum is finite).  The sparse convolution is the same whole-array operation in both programs
  and is carried as one function.  The frames of the two kernel programs are their generated frame theorems; the
  reference's frame is its run with the result dropped; the idealization rewrote nothing.
-/
import proofs.«119352_j15083925143721_1_alg».proof.Defs
import proofs.«119352_j15083925143721_1_alg».proof.Proof.Gen.Kernel
import proofs.«119352_j15083925143721_1_alg».proof.Proof.Gen.Kernel.Skeleton
import proofs.«119352_j15083925143721_1_alg».proof.Proof.Gen.Kernel.Launch
import proofs.«119352_j15083925143721_1_alg».proof.Proof.Gen.Kernel.Points
import proofs.«119352_j15083925143721_1_alg».proof.Proof.Gen.Kernel.Frame
import proofs.«119352_j15083925143721_1_alg».proof.Proof.Gen.KernelIdeal
import proofs.«119352_j15083925143721_1_alg».proof.Proof.Gen.KernelIdeal.Skeleton
import proofs.«119352_j15083925143721_1_alg».proof.Proof.Gen.KernelIdeal.Launch
import proofs.«119352_j15083925143721_1_alg».proof.Proof.Gen.KernelIdeal.Points
import proofs.«119352_j15083925143721_1_alg».proof.Proof.Gen.KernelIdeal.Frame
import proofs.«119352_j15083925143721_1_alg».proof.Proof.Gen.ReferenceIdeal
import proofs.«119352_j15083925143721_1_alg».proof.Proof.Gen.Pre_finite_inputs
import Idealize.ShloMosaic.Adequacy
import Idealize.ShloMosaic.Init
import proofs.«119352_j15083925143721_1_alg».proof.Proof.KRun
import proofs.«119352_j15083925143721_1_alg».proof.Proof.KChain
import proofs.«119352_j15083925143721_1_alg».proof.Proof.RefRun
import proofs.«119352_j15083925143721_1_alg».proof.Proof.RefRead
import proofs.«119352_j15083925143721_1_alg».proof.Proof.Bridge
import proofs.«119352_j15083925143721_1_alg».proof.Proof.PreReal
import proofs.«119352_j15083925143721_1_alg».proof.Proof.ConvSame

noncomputable section

namespace Cert.Proof

open Idealize.ShloMosaic Idealize.ShloMosaic.TcCoe Idealize.SL.Sem Idealize.ShloMosaic.ValueIdx
open Cert.KernelIdeal Cert.KernelIdeal.Gen Cert.KernelIdeal.KChain Cert.KernelIdeal.KStages

/-- Under the precondition the kernel's result array is the reference's function of the same arguments: both are the
    specification's block, in the kernel's and in the reference's spelling of the normalisations, which agree on
    real entries. -/
theorem result_eq_ref (m : (ℓ : Loc nD τ sig) → Buf (Elt Ideal) ℓ) (ρ : Dev nD → PrngReg) (c : Dev nD)
    (hpre : Cert.Pre_finite_inputs.fn (F := Ideal) (a0 m c) (a1 m c) (a2 m c) (a3 m c) (a4 m c) (a5 m c) (a6 m c) (a7 m c)
      (a8 m c) (a9 m c) (a10 m c) (a11 m c) (a12 m c) = fun _ => 1#1) :
    (W9 m ρ c (Proc.devRef .tc main_v87) : FVec Ideal S100000x24 .f32)
      = Cert.ReferenceIdeal.RefRun.refOut (a0 m c) (a1 m c) (a2 m c) (a3 m c) (a4 m c) (a5 m c) (a6 m c) (a7 m c)
          (a8 m c) (a9 m c) (a10 m c) (a11 m c) (a12 m c) := by
  obtain ⟨h0, h1, h2, h3, h4, h5, h6, h7, h8, h9⟩ := Cert.PreReal.all_real _ _ _ _ _ _ _ _ _ _ _ _ _ hpre
  funext j
  obtain ⟨n, l, rfl⟩ : ∃ (n : Fin 100000) (l : Fin 24), j = ix2 n l := ⟨j 0, j 1, eq_ix2 j⟩
  rw [result_apply m ρ c n l, Cert.RefRead.refOut_apply]
  have hc : (fun (x : Fin 100000 → Fin 144 → EReal) (n : Fin 100000) (c' : Fin 144) =>
      Cert.ReferenceIdeal.RefRun.conv (fun j => x (j 0) (j 1)) (a4 m c) (a10 m c) (a11 m c) (a12 m c) (ix2 n c')) = convP m c :=
    funext fun x => funext fun n => funext fun c' => congrFun (Cert.ConvSame.conv_same _ _ _ _ _) (ix2 n c')
  rw [hc]
  exact congrFun (congrFun (Cert.Bridge.out_eq (cur (a0 m c)) (cur (a1 m c)) (vec (a2 m c)) (vec (a3 m c)) (convP m c)
    (vec (a5 m c)) (vec (a6 m c)) (cur (a7 m c)) (vec (a8 m c)) (vec (a9 m c))
    (fun n c' => h0 (ix2 n c')) (fun q c' => h1 (ix2 q c')) (fun c' => h2 (ix1 c')) (fun c' => h3 (ix1 c'))
    (fun c' => h5 (ix1 c')) (fun c' => h6 (ix1 c')) (fun q c' => h7 (ix2 q c')) (fun c' => h8 (ix1 c')) (fun c' => h9 (ix1 c'))
    (fun x hx n c' => Cert.ConvSame.convOf_real (fun j => x (j 0) (j 1)) (a4 m c) (a10 m c) (a11 m c) (a12 m c)
      (fun i => hx (i 0) (i 1)) h4 (ix2 n c'))) n) l

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs run; the kernel's result array ends at the last boundary's contents, the reference's at its composed
    function of arguments that agree, and the two are equal under the precondition. -/
theorem algebraic : Cert.algebraic_KernelIdeal_ReferenceIdeal := by
  intro m ρ m' ρ' hpre hagree
  refine ⟨fun c => W9 m ρ c (Proc.devRef .tc main_v87), Cert.KernelIdeal.Gen.run_main m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (result_eq_ref m ρ c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
